-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S50257x300 : Shape := ⟨2, ![50257, 300]⟩
abbrev S300x256 : Shape := ⟨2, ![300, 256]⟩
abbrev S256 : Shape := ⟨1, ![256]⟩
abbrev S512x256 : Shape := ⟨2, ![512, 256]⟩
abbrev S_ : Shape := ⟨0, ![]⟩

class Facts : Prop where
  bcast_S_S50257x300 : S_.BroadcastsInDim S50257x300 (![] : Fin 0 → Fin S50257x300.rank)
  reducesTo_S50257x300_S_d0_1 : S50257x300.ReducesTo [0, 1] S_
  h_S_ : 0 < S_.numel
  bcast_S_S300x256 : S_.BroadcastsInDim S300x256 (![] : Fin 0 → Fin S300x256.rank)
  reducesTo_S300x256_S_d0_1 : S300x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_arg5 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : IVec S256x1024 32) (main_arg1 : FVec F S50257x300 .f32) (main_arg2 : FVec F S300x256 .f32) (main_arg3 : FVec F S256 .f32) (main_arg4 : FVec F S512x256 .f32) (main_arg5 : FVec F S256 .f32) : IVec S_ 1 :=
  let main_v0 : FVec F S50257x300 .f32 := Host.absf main_arg1
  let main_cst : FVec F S_ .f32 := constant S_ .f32 0x7F800000#32
  let main_v1 : FVec F S50257x300 .f32 := broadcastInDim S50257x300 ![] bcast_S_S50257x300 main_cst
  let main_v2 : IVec S50257x300 1 := cmpf .olt main_v0 main_v1
  let main_c : IVec S_ 1 := constantI S_ 1 1#1
  let main_v3 : IVec S_ 1 := (fun x v => Host.reduce IntOp.andi x v reducesTo_S50257x300_S_d0_1 h_S_) main_v2 main_c
  let main_v4 : FVec F S300x256 .f32 := Host.absf main_arg2
  let main_cst_0 : FVec F S_ .f32 := constant S_ .f32 0x7F800000#32
  let main_v5 : FVec F S300x256 .f32 := broadcastInDim S300x256 ![] bcast_S_S300x256 main_cst_0
  let main_v6 : IVec S300x256 1 := cmpf .olt main_v4 main_v5
  let main_c_1 : IVec S_ 1 := constantI S_ 1 1#1
  let main_v7 : IVec S_ 1 := (fun x v => Host.reduce IntOp.andi x v reducesTo_S300x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_v13 main_v16
-- ==== Kernel.lean ====
abbrev S256x1024 : Shape := ⟨2, ![256, 1024]⟩
abbrev S50257x300 : Shape := ⟨2, ![50257, 300]⟩
abbrev S300x256 : Shape := ⟨2, ![300, 256]⟩
abbrev S256 : Shape := ⟨1, ![256]⟩
abbrev S512x256 : Shape := ⟨2, ![512, 256]⟩
abbrev S_ : Shape := ⟨0, ![]⟩
abbrev S256x1024x1 : Shape := ⟨3, ![256, 1024, 1]⟩
abbrev S256x1024x300 : Shape := ⟨3, ![256, 1024, 300]⟩
abbrev S262144x300 : Shape := ⟨2, ![262144, 300]⟩
abbrev S1x256 : Shape := ⟨2, ![1, 256]⟩
abbrev S262144x256 : Shape := ⟨2, ![262144, 256]⟩
abbrev S4096x300 : Shape := ⟨2, ![4096, 300]⟩
abbrev S4096x256 : Shape := ⟨2, ![4096, 256]⟩
abbrev S256x1024x256 : Shape := ⟨3, ![256, 1024, 256]⟩
abbrev S131072x512 : Shape := ⟨2, ![131072, 512]⟩
abbrev S131072x256 : Shape := ⟨2, ![131072, 256]⟩
abbrev S4096x512 : Shape := ⟨2, ![4096, 512]⟩
abbrev S256x512x256 : Shape := ⟨3, ![256, 512, 256]⟩
abbrev S65536x512 : Shape := ⟨2, ![65536, 512]⟩
abbrev S65536x256 : Shape := ⟨2, ![65536, 256]⟩
abbrev S256x256x256 : Shape := ⟨3, ![256, 256, 256]⟩
abbrev S32768x512 : Shape := ⟨2, ![32768, 512]⟩
abbrev S32768x256 : Shape := ⟨2, ![32768, 256]⟩
abbrev S256x128x256 : Shape := ⟨3, ![256, 128, 256]⟩
abbrev S16384x512 : Shape := ⟨2, ![16384, 512]⟩
abbrev S16384x256 : Shape := ⟨2, ![16384, 256]⟩
abbrev S256x64x256 : Shape := ⟨3, ![256, 64, 256]⟩
abbrev S8192x512 : Shape := ⟨2, ![8192, 512]⟩
abbrev S8192x256 : Shape := ⟨2, ![8192, 256]⟩
abbrev S256x32x256 : Shape := ⟨3, ![256, 32, 256]⟩
abbrev S2048x512 : Shape := ⟨2, ![2048, 512]⟩
abbrev S2048x256 : Shape := ⟨2, ![2048, 256]⟩
abbrev S256x16x256 : Shape := ⟨3, ![256, 16, 256]⟩
abbrev S1024x512 : Shape := ⟨2, ![1024, 512]⟩
abbrev S1024x256 : Shape := ⟨2, ![1024, 256]⟩
abbrev S256x8x256 : Shape := ⟨3, ![256, 8, 256]⟩
abbrev S512x512 : Shape := ⟨2, ![512, 512]⟩
abbrev S256x4x256 : Shape := ⟨3, ![256, 4, 256]⟩
abbrev S256x512 : Shape := ⟨2, ![256, 512]⟩
abbrev S256x256 : Shape := ⟨2, ![256, 256]⟩
abbrev S256x2x256 : Shape := ⟨3, ![256, 2, 256]⟩
abbrev S128x512 : Shape := ⟨2, ![128, 512]⟩
abbrev S128x256 : Shape := ⟨2, ![128, 256]⟩
abbrev S256x1x256 : Shape := ⟨3, ![256, 1, 256]⟩

abbrev nBuf : Space → Nat
  | .hbm => 60
  | .vmem => 66
  | .smem => 0
  | _ => 0

abbrev bufTy : (tb : Table) → Fin (tcTables nBuf tb) → BufTy
  | .hbm, ⟨0, _⟩ => ⟨S256x1024, .i32⟩
  | .hbm, ⟨1, _⟩ => ⟨S50257x300, .f32⟩
  | .hbm, ⟨2, _⟩ => ⟨S300x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S_, .i32⟩
  | .hbm, ⟨7, _⟩ => ⟨S256x1024, .i32⟩
  | .hbm, ⟨8, _⟩ => ⟨S256x1024, .i1⟩
  | .hbm, ⟨9, _⟩ => ⟨S_, .i32⟩
  | .hbm, ⟨10, _⟩ => ⟨S256x1024, .i32⟩
  | .hbm, ⟨11, _⟩ => ⟨S256x1024, .i32⟩
  | .hbm, ⟨12, _⟩ => ⟨S256x1024, .i32⟩
  | .hbm, ⟨13, _⟩ => ⟨S256x1024x1, .i32⟩
  | .hbm, ⟨14, _⟩ => ⟨S256x1024x300, .f32⟩
  | .hbm, ⟨15, _⟩ => ⟨S262144x300, .f32⟩
  | .hbm, ⟨16, _⟩ => ⟨S1x256, .f32⟩
  | .hbm, ⟨17, _⟩ => ⟨S262144x256, .f32⟩
  | .hbm, ⟨18, _⟩ => ⟨S256x1024x256, .f32⟩
  | .hbm, ⟨19, _⟩ => ⟨S131072x512, .f32⟩
  | .hbm, ⟨20, _⟩ => ⟨S1x256, .f32⟩
  | .hbm, ⟨21, _⟩ => ⟨S131072x256, .f32⟩
  | .hbm, ⟨22, _⟩ => ⟨S256x512x256, .f32⟩
  | .hbm, ⟨23, _⟩ => ⟨S65536x512, .f32⟩
  | .hbm, ⟨24, _⟩ => ⟨S1x256, .f32⟩
  | .hbm, ⟨25, _⟩ => ⟨S65536x256, .f32⟩
  | .hbm, ⟨26, _⟩ => ⟨S256x256x256, .f32⟩
  | .hbm, ⟨27, _⟩ => ⟨S32768x512, .f32⟩
  | .hbm, ⟨28, _⟩ => ⟨S1x256, .f32⟩
  | .hbm, ⟨29, _⟩ => ⟨S32768x256, .f32⟩
  | .hbm, ⟨30, _⟩ => ⟨S256x128x256, .f32⟩
  | .hbm, ⟨31, _⟩ => ⟨S16384x512, .f32⟩
  | .hbm, ⟨32, _⟩ => ⟨S1x256, .f32⟩
  | .hbm, ⟨33, _⟩ => ⟨S16384x256, .f32⟩
  | .hbm, ⟨34, _⟩ => ⟨S256x64x256, .f32⟩
  | .hbm, ⟨35, _⟩ => ⟨S8192x512, .f32⟩
  | .hbm, ⟨36, _⟩ => ⟨S1x256, .f32⟩
  | .hbm, ⟨37, _⟩ => ⟨S8192x256, .f32⟩
  | .hbm, ⟨38, _⟩ => ⟨S256x32x256, .f32⟩
  | .hbm, ⟨39, _⟩ => ⟨S4096x512, .f32⟩
  | .hbm, ⟨40, _⟩ => ⟨S1x256, .f32⟩
  | .hbm, ⟨41, _⟩ => ⟨S4096x256, .f32⟩
  | .hbm, ⟨42, _⟩ => ⟨S256x16x256, .f32⟩
  | .hbm, ⟨43, _⟩ => ⟨S2048x512, .f32⟩
  | .hbm, ⟨44, _⟩ => ⟨S1x256, .f32⟩
  | .hbm, ⟨45, _⟩ => ⟨S2048x256, .f32⟩
  | .hbm, ⟨46, _⟩ => ⟨S256x8x256, .f32⟩
  | .hbm, ⟨47, _⟩ => ⟨S1024x512, .f32⟩
  | .hbm, ⟨48, _⟩ => ⟨S1x256, .f32⟩
  | .hbm, ⟨49, _⟩ => ⟨S1024x256, .f32⟩
  | .hbm, ⟨50, _⟩ => ⟨S256x4x256, .f32⟩
  | .hbm, ⟨51, _⟩ => ⟨S512x512, .f32⟩
  | .hbm, ⟨52, _⟩ => ⟨S1x256, .f32⟩
  | .hbm, ⟨53, _⟩ => ⟨S512x256, .f32⟩
  | .hbm, ⟨54, _⟩ => ⟨S256x2x256, .f32⟩
  | .hbm, ⟨55, _⟩ => ⟨S256x512, .f32⟩
  | .hbm, ⟨56, _⟩ => ⟨S1x256, .f32⟩
  | .hbm, ⟨57, _⟩ => ⟨S256x256, .f32⟩
  | .hbm, ⟨58, _⟩ => ⟨S256x1x256, .f32⟩
  | .hbm, ⟨59, _⟩ => ⟨S256x256, .f32⟩
  | .local _ .vmem, ⟨0, _⟩ => ⟨S4096x300, .f32⟩
  | .local _ .vmem, ⟨1, _⟩ => ⟨S4096x300, .f32⟩
  | .local _ .vmem, ⟨2, _⟩ => ⟨S300x256, .f32⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | .local _ .vmem, ⟨6, _⟩ => ⟨S4096x512, .f32⟩
  | .local _ .vmem, ⟨7, _⟩ => ⟨S4096x512, .f32⟩
  | .local _ .vmem, ⟨8, _⟩ => ⟨S512x256, .f32⟩
  | .local _ .vmem, ⟨9, _⟩ => ⟨S1x256, .f32⟩
  | .local _ .vmem, ⟨10, _⟩ => ⟨S4096x256, .f32⟩
  | .local _ .vmem, ⟨11, _⟩ => ⟨S4096x256, .f32⟩
  | .local _ .vmem, ⟨12, _⟩ => ⟨S4096x512, .f32⟩
  | .local _ .vmem, ⟨13, _⟩ => ⟨S4096x512, .f32⟩
  | .local _ .vmem, ⟨14, _⟩ => ⟨S512x256, .f32⟩
  | .local _ .vmem, ⟨15, _⟩ => ⟨S1x256, .f32⟩
  | .local _ .vmem, ⟨16, _⟩ => ⟨S4096x256, .f32⟩
  | .local _ .vmem, ⟨17, _⟩ => ⟨S4096x256, .f32⟩
  | .local _ .vmem, ⟨18, _⟩ => ⟨S4096x512, .f32⟩
  | .local _ .vmem, ⟨19, _⟩ => ⟨S4096x512, .f32⟩
  | .local _ .vmem, ⟨20, _⟩ => ⟨S512x256, .f32⟩
  | .local _ .vmem, ⟨21, _⟩ => ⟨S1x256, .f32⟩
  | .local _ .vmem, ⟨22, _⟩ => ⟨S4096x256, .f32⟩
  | .local _ .vmem, ⟨23, _⟩ => ⟨S4096x256, .f32⟩
  | .local _ .vmem, ⟨24, _⟩ => ⟨S4096x512, .f32⟩
  | .local _ .vmem, ⟨25, _⟩ => ⟨S4096x512, .f32⟩
  | .local _ .vmem, ⟨26, _⟩ => ⟨S512x256, .f32⟩
  | .local _ .vmem, ⟨27, _⟩ => ⟨S1x256, .f32⟩
  | .local _ .vmem, ⟨28, _⟩ => ⟨S4096x256, .f32⟩
  | .local _ .vmem, ⟨29, _⟩ => ⟨S4096x256, .f32⟩
  | .local _ .vmem, ⟨30, _⟩ => ⟨S4096x512, .f32⟩
  | .local _ .vmem, ⟨31, _⟩ => ⟨S4096x512, .f32⟩
  | .local _ .vmem, ⟨32, _⟩ => ⟨S512x256, .f32⟩
  | .local _ .vmem, ⟨33, _⟩ => ⟨S1x256, .f32⟩
  | .local _ .vmem, ⟨34, _⟩ => ⟨S4096x256, .f32⟩
  | .local _ .vmem, ⟨35, _⟩ => ⟨S4096x256, .f32⟩
  | .local _ .vmem, ⟨36, _⟩ => ⟨S2048x512, .f32⟩
  | .local _ .vmem, ⟨37, _⟩ => ⟨S2048x512, .f32⟩
  | .local _ .vmem, ⟨38, _⟩ => ⟨S512x256, .f32⟩
  | .local _ .vmem, ⟨39, _⟩ => ⟨S1x256, .f32⟩
  | .local _ .vmem, ⟨40, _⟩ => ⟨S2048x256, .f32⟩
  | .local _ .vmem, ⟨41, _⟩ => ⟨S2048x256, .f32⟩
  | .local _ .vmem, ⟨42, _⟩ => ⟨S1024x512, .f32⟩
  | .local _ .vmem, ⟨43, _⟩ => ⟨S1024x512, .f32⟩
  | .local _ .vmem, ⟨44, _⟩ => ⟨S512x256, .f32⟩
  | .local _ .vmem, ⟨45, _⟩ => ⟨S1x256, .f32⟩
  | .local _ .vmem, ⟨46, _⟩ => ⟨S1024x256, .f32⟩
  | .local _ .vmem, ⟨47, _⟩ => ⟨S1024x256, .f32⟩
  | .local _ .vmem, ⟨48, _⟩ => ⟨S512x512, .f32⟩
  | .local _ .vmem, ⟨49, _⟩ => ⟨S512x512, .f32⟩
  | .local _ .vmem, ⟨50, _⟩ => ⟨S512x256, .f32⟩
  | .local _ .vmem, ⟨51, _⟩ => ⟨S1x256, .f32⟩
  | .local _ .vmem, ⟨52, _⟩ => ⟨S512x256, .f32⟩
  | .local _ .vmem, ⟨53, _⟩ => ⟨S512x256, .f32⟩
  | .local _ .vmem, ⟨54, _⟩ => ⟨S256x512, .f32⟩
  | .local _ .vmem, ⟨55, _⟩ => ⟨S256x512, .f32⟩
  | .local _ .vmem, ⟨56, _⟩ => ⟨S512x256, .f32⟩
  | .local _ .vmem, ⟨57, _⟩ => ⟨S1x256, .f32⟩
  | .local _ .vmem, ⟨58, _⟩ => ⟨S256x256, .f32⟩
  | .local _ .vmem, ⟨59, _⟩ => ⟨S256x256, .f32⟩
  | .local _ .vmem, ⟨60, _⟩ => ⟨S128x512, .f32⟩
  | .local _ .vmem, ⟨61, _⟩ => ⟨S128x512, .f32⟩
  | .local _ .vmem, ⟨62, _⟩ => ⟨S512x256, .f32⟩
  | .local _ .vmem, ⟨63, _⟩ => ⟨S1x256, .f32⟩
  | .local _ .vmem, ⟨64, _⟩ => ⟨S128x256, .f32⟩
  | .local _ .vmem, ⟨65, _⟩ => ⟨S128x256, .f32⟩
  | _, _ => ⟨S256x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg3_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg2_0 : Ref sig .tc := ⟨.vmem, 57, rfl⟩
abbrev cc9_stg3_0 : Ref sig .tc := ⟨.vmem, 58, rfl⟩
abbrev cc9_stg3_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg2_0 : Ref sig .tc := ⟨.vmem, 63, rfl⟩
abbrev cc10_stg3_0 : Ref sig .tc := ⟨.vmem, 64, rfl⟩
abbrev cc10_stg3_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem3_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem3_0 : DmaSem sig := 58
abbrev cc9_sem3_1 : DmaSem sig := 59
abbrev cc10_sem0_0 : DmaSem sig := 60
abbrev cc10_sem0_1 : DmaSem sig := 61
abbrev cc10_sem1_0 : DmaSem sig := 62
abbrev cc10_sem2_0 : DmaSem sig := 63
abbrev cc10_sem3_0 : DmaSem sig := 64
abbrev cc10_sem3_1 : DmaSem sig := 65

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4096x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4096x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![2], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4096x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![2], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2048x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![2], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S512x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1024x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![2], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S512x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S512x256 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![2], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S256x512 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S512x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S256x256 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![2], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S128x512 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S512x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S128x256 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

class Facts₀ : Prop where
  bcast_S_S256x1024 : S_.BroadcastsInDim S256x1024 (![] : Fin 0 → Fin S256x1024.rank)
  bcast_S256x1024_S256x1024x1_0_1 : S256x1024.BroadcastsInDim S256x1024x1 (![0, 1] : Fin 2 → Fin S256x1024x1.rank)
  shapeCasts_S256x1024x300_S262144x300 : S256x1024x300.ShapeCasts S262144x300
  shapeCasts_S256_S1x256 : S256.ShapeCasts S1x256
  inb_S4096x300_S4096x300_0_0 : ∀ a, (![0, 0] : Fin 2 → Nat) a + S4096x300.size a ≤ S4096x300.size a
  h_S4096x300 : 0 < S4096x300.numel
  shapeCasts_S4096x300_S4096x300 : S4096x300.ShapeCasts S4096x300
  bitsLt_bf16_f32 : FTy.bits .bf16 < FTy.bits .f32
  inb_S300x256_S300x256_0_0 : ∀ a, (![0, 0] : Fin 2 → Nat) a + S300x256.size a ≤ S300x256.size a
  h_S300x256 : 0 < S300x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S262144x256_S256x1024x256 : S262144x256.ShapeCasts S256x1024x256
  shapeCasts_S256x1024x256_S131072x512 : S256x1024x256.ShapeCasts S131072x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x256_S512x256_0_0 : ∀ a, (![0, 0] : Fin 2 → Nat) a + S512x256.size a ≤ S512x256.size a
  h_S512x256 : 0 < S512x256.numel
  shapeCasts_S131072x256_S256x512x256 : S131072x256.ShapeCasts S256x512x256
  shapeCasts_S256x512x256_S65536x512 : S256x512x256.ShapeCasts S65536x512
  shapeCasts_S65536x256_S256x256x256 : S65536x256.ShapeCasts S256x256x256
  shapeCasts_S256x256x256_S32768x512 : S256x256x256.ShapeCasts S32768x512
  shapeCasts_S32768x256_S256x128x256 : S32768x256.ShapeCasts S256x128x256
  shapeCasts_S256x128x256_S16384x512 : S256x128x256.ShapeCasts S16384x512
  shapeCasts_S16384x256_S256x64x256 : S16384x256.ShapeCasts S256x64x256
  shapeCasts_S256x64x256_S8192x512 : S256x64x256.ShapeCasts S8192x512
  shapeCasts_S8192x256_S256x32x256 : S8192x256.ShapeCasts S256x32x256
  shapeCasts_S256x32x256_S4096x512 : S256x32x256.ShapeCasts S4096x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S4096x256_S256x16x256 : S4096x256.ShapeCasts S256x16x256
  shapeCasts_S256x16x256_S2048x512 : S256x16x256.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S2048x256_S256x8x256 : S2048x256.ShapeCasts S256x8x256
  shapeCasts_S256x8x256_S1024x512 : S256x8x256.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x256_S512x256 : S1x256.Broadcasts S512x256
  shapeCasts_S1024x256_S256x4x256 : S1024x256.ShapeCasts S256x4x256
  shapeCasts_S256x4x256_S512x512 : S256x4x256.ShapeCasts S512x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S512x256_S256x2x256 : S512x256.ShapeCasts S256x2x256
  shapeCasts_S256x2x256_S256x512 : S256x2x256.ShapeCasts S256x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  broadcasts_S1x256_S128x256 : S1x256.Broadcasts S128x256
  inb_S128x256_S128x256_0_0 : ∀ a, (![0, 0] : Fin 2 → Nat) a + S128x256.size a ≤ S128x256.size a
  h_S128x256 : 0 < S128x256.numel
  shapeCasts_S256x256_S256x1x256 : S256x256.ShapeCasts S256x1x256
  shapeCasts_S256x1x256_S256x256 : S256x1x256.ShapeCasts S256x256
  gather_S50257x300_S256x1024x1_S256x1024x300_2_0_n_n_0_2_1300_wf : GatherDims.WF S50257x300 S256x1024x1 S256x1024x300 [2] [0] [] [0] [] 2 ![1, 300]
  dot_S4096x300_S300x256_S4096x256_1_0_0_1_n_n_wf : DotDims.WF S4096x300 S300x256 S4096x256 [1] [0] [0] [1] [] []
  dot_S4096x512_S512x256_S4096x256_1_0_0_1_n_n_wf : DotDims.WF S4096x512 S512x256 S4096x256 [1] [0] [0] [1] [] []
  dot_S2048x512_S512x256_S2048x256_1_0_0_1_n_n_wf : DotDims.WF S2048x512 S512x256 S2048x256 [1] [0] [0] [1] [] []
  dot_S1024x512_S512x256_S1024x256_1_0_0_1_n_n_wf : DotDims.WF S1024x512 S512x256 S1024x256 [1] [0] [0] [1] [] []
  dot_S512x512_S512x256_S512x256_1_0_0_1_n_n_wf : DotDims.WF S512x512 S512x256 S512x256 [1] [0] [0] [1] [] []
  dot_S256x512_S512x256_S256x256_1_0_0_1_n_n_wf : DotDims.WF S256x512 S512x256 S256x256 [1] [0] [0] [1] [] []
  dot_S128x512_S512x256_S128x256_1_0_0_1_n_n_wf : DotDims.WF S128x512 S512x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x300.size a ≤ S262144x300.size a
  hwx0_0 : ∀ i : grid0.Coords, EltTy.bits .f32 = 32 ∨ (Rect.block (s := S262144x300) S4096x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x256.size a ≤ S300x256.size a
  hwx0_1 : ∀ i : grid0.Coords, EltTy.bits .f32 = 32 ∨ (Rect.block (s := S300x256) S300x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S262144x256.size a
  hwx0_3 : ∀ i : grid0.Coords, EltTy.bits .f32 = 32 ∨ (Rect.block (s := S262144x256) S4096x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S131072x512.size a
  hwx1_0 : ∀ i : grid1.Coords, EltTy.bits .f32 = 32 ∨ (Rect.block (s := S131072x512) S4096x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S131072x256.size a
  hwx1_3 : ∀ i : grid1.Coords, EltTy.bits .f32 = 32 ∨ (Rect.block (s := S131072x256) S4096x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x512.size a ≤ S65536x512.size a
  hwx2_0 : ∀ i : grid2.Coords, EltTy.bits .f32 = 32 ∨ (Rect.block (s := S65536x512) S4096x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S512x256.size a
  hwx2_1 : ∀ i : grid2.Coords, EltTy.bits .f32 = 32 ∨ (Rect.block (s := S512x256) S512x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x256.size a ≤ S65536x256.size a
  hwx2_3 : ∀ i : grid2.Coords, EltTy.bits .f32 = 32 ∨ (Rect.block (s := S65536x256) S4096x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x512.size a ≤ S32768x512.size a
  hwx3_0 : ∀ i : grid3.Coords, EltTy.bits .f32 = 32 ∨ (Rect.block (s := S32768x512) S4096x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S512x256.size a
  hwx3_1 : ∀ i : grid3.Coords, EltTy.bits .f32 = 32 ∨ (Rect.block (s := S512x256) S512x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x256.size a ≤ S32768x256.size a
  hwx3_3 : ∀ i : grid3.Coords, EltTy.bits .f32 = 32 ∨ (Rect.block (s := S32768x256) S4096x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x512.size a ≤ S16384x512.size a
  hwx4_0 : ∀ i : grid4.Coords, EltTy.bits .f32 = 32 ∨ (Rect.block (s := S16384x512) S4096x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x256.size a ≤ S512x256.size a
  hwx4_1 : ∀ i : grid4.Coords, EltTy.bits .f32 = 32 ∨ (Rect.block (s := S512x256) S512x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x256.size a ≤ S16384x256.size a
  hwx4_3 : ∀ i : grid4.Coords, EltTy.bits .f32 = 32 ∨ (Rect.block (s := S16384x256) S4096x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x512.size a ≤ S8192x512.size a
  hwx5_0 : ∀ i : grid5.Coords, EltTy.bits .f32 = 32 ∨ (Rect.block (s := S8192x512) S4096x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x256.size a ≤ S512x256.size a
  hwx5_1 : ∀ i : grid5.Coords, EltTy.bits .f32 = 32 ∨ (Rect.block (s := S512x256) S512x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4096x256.size a ≤ S8192x256.size a
  hwx5_3 : ∀ i : grid5.Coords, EltTy.bits .f32 = 32 ∨ (Rect.block (s := S8192x256) S4096x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x512.size a ≤ S4096x512.size a
  hwx6_0 : ∀ i : grid6.Coords, EltTy.bits .f32 = 32 ∨ (Rect.block (s := S4096x512) S2048x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x256.size a ≤ S512x256.size a
  hwx6_1 : ∀ i : grid6.Coords, EltTy.bits .f32 = 32 ∨ (Rect.block (s := S512x256) S512x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x256.size a ≤ S4096x256.size a
  hwx6_3 : ∀ i : grid6.Coords, EltTy.bits .f32 = 32 ∨ (Rect.block (s := S4096x256) S2048x256.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x512.size a ≤ S2048x512.size a
  hwx7_0 : ∀ i : grid7.Coords, EltTy.bits .f32 = 32 ∨ (Rect.block (s := S2048x512) S1024x512.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S512x256.size a ≤ S512x256.size a
  hwx7_1 : ∀ i : grid7.Coords, EltTy.bits .f32 = 32 ∨ (Rect.block (s := S512x256) S512x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x256.size a ≤ S2048x256.size a
  hwx7_3 : ∀ i : grid7.Coords, EltTy.bits .f32 = 32 ∨ (Rect.block (s := S2048x256) S1024x256.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x512.size a ≤ S1024x512.size a
  hwx8_0 : ∀ i : grid8.Coords, EltTy.bits .f32 = 32 ∨ (Rect.block (s := S1024x512) S512x512.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x256.size a ≤ S512x256.size a
  hwx8_1 : ∀ i : grid8.Coords, EltTy.bits .f32 = 32 ∨ (Rect.block (s := S512x256) S512x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S512x256.size a ≤ S1024x256.size a
  hwx8_3 : ∀ i : grid8.Coords, EltTy.bits .f32 = 32 ∨ (Rect.block (s := S1024x256) S512x256.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S256x512.size a ≤ S512x512.size a
  hwx9_0 : ∀ i : grid9.Coords, EltTy.bits .f32 = 32 ∨ (Rect.block (s := S512x512) S256x512.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S512x256.size a ≤ S512x256.size a
  hwx9_1 : ∀ i : grid9.Coords, EltTy.bits .f32 = 32 ∨ (Rect.block (s := S512x256) S512x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S256x256.size a ≤ S512x256.size a
  hwx9_3 : ∀ i : grid9.Coords, EltTy.bits .f32 = 32 ∨ (Rect.block (s := S512x256) S256x256.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S128x512.size a ≤ S256x512.size a
  hwx10_0 : ∀ i : grid10.Coords, EltTy.bits .f32 = 32 ∨ (Rect.block (s := S256x512) S128x512.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S512x256.size a ≤ S512x256.size a
  hwx10_1 : ∀ i : grid10.Coords, EltTy.bits .f32 = 32 ∨ (Rect.block (s := S512x256) S512x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x256.size a ≤ S1x256.size a
  hwx10_2 : ∀ i : grid10.Coords, EltTy.bits .f32 = 32 ∨ (Rect.block (s := S1x256) S1x256.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S128x256.size a ≤ S256x256.size a
  hwx10_3 : ∀ i : grid10.Coords, EltTy.bits .f32 = 32 ∨ (Rect.block (s := S256x256) S128x256.size (cc10_transform_3 i) (hinb10_3 i)).WholeWords (EltTy.packing .f32)

variable [Facts₀]

def gather_S50257x300_S256x1024x1_S256x1024x300_2_0_n_n_0_2_1300 : GatherDims S50257x300 S256x1024x1 S256x1024x300 where
  offsetDims := [2]
  collapsedSliceDims := [0]
  operandBatchingDims := []
  startIndicesBatchingDims := []
  startIndexMap := [0]
  indexVectorDim := 2
  sliceSizes := ![1, 300]
  wf := gather_S50257x300_S256x1024x1_S256x1024x300_2_0_n_n_0_2_1300_wf
def dot_S4096x300_S300x256_S4096x256_1_0_0_1_n_n : DotDims S4096x300 S300x256 S4096x256 where
  lhsContracting := [1]
  rhsContracting := [0]
  lhsNonContracting := [0]
  rhsNonContracting := [1]
  lhsBatch := []
  rhsBatch := []
  wf := dot_S4096x300_S300x256_S4096x256_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf

abbrev win0_0 : Pipeline.Window sig grid0 :=
  Pipeline.Window.ofSpec (Memref.whole main_v7) S4096x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S300x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S4096x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S4096x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S4096x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S512x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S4096x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v19) S4096x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S512x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v21) S4096x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v23) S4096x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S512x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v24) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v25) S4096x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v27) S4096x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg4) S512x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v28) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v29) S4096x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v31) S2048x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg4) S512x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v32) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v33) S2048x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v35) S1024x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg4) S512x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v36) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v37) S1024x256.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v39) S512x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg4) S512x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v40) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v41) S512x256.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v43) S256x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg4) S512x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v44) S1x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v45) S256x256.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v47) S128x512.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg4) S512x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v48) S1x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v49) S128x256.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S256x1024 : Shape := ⟨2, ![256, 1024]⟩
abbrev S50257x300 : Shape := ⟨2, ![50257, 300]⟩
abbrev S300x256 : Shape := ⟨2, ![300, 256]⟩
abbrev S256 : Shape := ⟨1, ![256]⟩
abbrev S512x256 : Shape := ⟨2, ![512, 256]⟩
abbrev S_ : Shape := ⟨0, ![]⟩
abbrev S256x1024x1 : Shape := ⟨3, ![256, 1024, 1]⟩
abbrev S256x1024x300 : Shape := ⟨3, ![256, 1024, 300]⟩
abbrev S256x1024x256 : Shape := ⟨3, ![256, 1024, 256]⟩
abbrev S1x1x256 : Shape := ⟨3, ![1, 1, 256]⟩
abbrev S256x512x512 : Shape := ⟨3, ![256, 512, 512]⟩
abbrev S256x512x256 : Shape := ⟨3, ![256, 512, 256]⟩
abbrev S256x256x512 : Shape := ⟨3, ![256, 256, 512]⟩
abbrev S256x256x256 : Shape := ⟨3, ![256, 256, 256]⟩
abbrev S256x128x512 : Shape := ⟨3, ![256, 128, 512]⟩
abbrev S256x128x256 : Shape := ⟨3, ![256, 128, 256]⟩
abbrev S256x64x512 : Shape := ⟨3, ![256, 64, 512]⟩
abbrev S256x64x256 : Shape := ⟨3, ![256, 64, 256]⟩
abbrev S256x32x512 : Shape := ⟨3, ![256, 32, 512]⟩
abbrev S256x32x256 : Shape := ⟨3, ![256, 32, 256]⟩
abbrev S256x16x512 : Shape := ⟨3, ![256, 16, 512]⟩
abbrev S256x16x256 : Shape := ⟨3, ![256, 16, 256]⟩
abbrev S256x8x512 : Shape := ⟨3, ![256, 8, 512]⟩
abbrev S256x8x256 : Shape := ⟨3, ![256, 8, 256]⟩
abbrev S256x4x512 : Shape := ⟨3, ![256, 4, 512]⟩
abbrev S256x4x256 : Shape := ⟨3, ![256, 4, 256]⟩
abbrev S256x2x512 : Shape := ⟨3, ![256, 2, 512]⟩
abbrev S256x2x256 : Shape := ⟨3, ![256, 2, 256]⟩
abbrev S256x1x512 : Shape := ⟨3, ![256, 1, 512]⟩
abbrev S256x1x256 : Shape := ⟨3, ![256, 1, 256]⟩
abbrev S256x256 : Shape := ⟨2, ![256, 256]⟩

abbrev nBuf : Space → Nat
  | .hbm => 70
  | .vmem => 0
  | .smem => 0
  | _ => 0

abbrev bufTy : (tb : Table) → Fin (tcTables nBuf tb) → BufTy
  | .hbm, ⟨0, _⟩ => ⟨S256x1024, .i32⟩
  | .hbm, ⟨1, _⟩ => ⟨S50257x300, .f32⟩
  | .hbm, ⟨2, _⟩ => ⟨S300x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S_, .i32⟩
  | .hbm, ⟨7, _⟩ => ⟨S256x1024, .i32⟩
  | .hbm, ⟨8, _⟩ => ⟨S256x1024, .i1⟩
  | .hbm, ⟨9, _⟩ => ⟨S_, .i32⟩
  | .hbm, ⟨10, _⟩ => ⟨S256x1024, .i32⟩
  | .hbm, ⟨11, _⟩ => ⟨S256x1024, .i32⟩
  | .hbm, ⟨12, _⟩ => ⟨S256x1024, .i32⟩
  | .hbm, ⟨13, _⟩ => ⟨S256x1024x1, .i32⟩
  | .hbm, ⟨14, _⟩ => ⟨S256x1024x300, .f32⟩
  | .hbm, ⟨15, _⟩ => ⟨S256x1024x256, .f32⟩
  | .hbm, ⟨16, _⟩ => ⟨S1x1x256, .f32⟩
  | .hbm, ⟨17, _⟩ => ⟨S256x1024x256, .f32⟩
  | .hbm, ⟨18, _⟩ => ⟨S256x1024x256, .f32⟩
  | .hbm, ⟨19, _⟩ => ⟨S256x512x512, .f32⟩
  | .hbm, ⟨20, _⟩ => ⟨S256x512x256, .f32⟩
  | .hbm, ⟨21, _⟩ => ⟨S1x1x256, .f32⟩
  | .hbm, ⟨22, _⟩ => ⟨S256x512x256, .f32⟩
  | .hbm, ⟨23, _⟩ => ⟨S256x512x256, .f32⟩
  | .hbm, ⟨24, _⟩ => ⟨S256x256x512, .f32⟩
  | .hbm, ⟨25, _⟩ => ⟨S256x256x256, .f32⟩
  | .hbm, ⟨26, _⟩ => ⟨S1x1x256, .f32⟩
  | .hbm, ⟨27, _⟩ => ⟨S256x256x256, .f32⟩
  | .hbm, ⟨28, _⟩ => ⟨S256x256x256, .f32⟩
  | .hbm, ⟨29, _⟩ => ⟨S256x128x512, .f32⟩
  | .hbm, ⟨30, _⟩ => ⟨S256x128x256, .f32⟩
  | .hbm, ⟨31, _⟩ => ⟨S1x1x256, .f32⟩
  | .hbm, ⟨32, _⟩ => ⟨S256x128x256, .f32⟩
  | .hbm, ⟨33, _⟩ => ⟨S256x128x256, .f32⟩
  | .hbm, ⟨34, _⟩ => ⟨S256x64x512, .f32⟩
  | .hbm, ⟨35, _⟩ => ⟨S256x64x256, .f32⟩
  | .hbm, ⟨36, _⟩ => ⟨S1x1x256, .f32⟩
  | .hbm, ⟨37, _⟩ => ⟨S256x64x256, .f32⟩
  | .hbm, ⟨38, _⟩ => ⟨S256x64x256, .f32⟩
  | .hbm, ⟨39, _⟩ => ⟨S256x32x512, .f32⟩
  | .hbm, ⟨40, _⟩ => ⟨S256x32x256, .f32⟩
  | .hbm, ⟨41, _⟩ => ⟨S1x1x256, .f32⟩
  | .hbm, ⟨42, _⟩ => ⟨S256x32x256, .f32⟩
  | .hbm, ⟨43, _⟩ => ⟨S256x32x256, .f32⟩
  | .hbm, ⟨44, _⟩ => ⟨S256x16x512, .f32⟩
  | .hbm, ⟨45, _⟩ => ⟨S256x16x256, .f32⟩
  | .hbm, ⟨46, _⟩ => ⟨S1x1x256, .f32⟩
  | .hbm, ⟨47, _⟩ => ⟨S256x16x256, .f32⟩
  | .hbm, ⟨48, _⟩ => ⟨S256x16x256, .f32⟩
  | .hbm, ⟨49, _⟩ => ⟨S256x8x512, .f32⟩
  | .hbm, ⟨50, _⟩ => ⟨S256x8x256, .f32⟩
  | .hbm, ⟨51, _⟩ => ⟨S1x1x256, .f32⟩
  | .hbm, ⟨52, _⟩ => ⟨S256x8x256, .f32⟩
  | .hbm, ⟨53, _⟩ => ⟨S256x8x256, .f32⟩
  | .hbm, ⟨54, _⟩ => ⟨S256x4x512, .f32⟩
  | .hbm, ⟨55, _⟩ => ⟨S256x4x256, .f32⟩
  | .hbm, ⟨56, _⟩ => ⟨S1x1x256, .f32⟩
  | .hbm, ⟨57, _⟩ => ⟨S256x4x256, .f32⟩
  | .hbm, ⟨58, _⟩ => ⟨S256x4x256, .f32⟩
  | .hbm, ⟨59, _⟩ => ⟨S256x2x512, .f32⟩
  | .hbm, ⟨60, _⟩ => ⟨S256x2x256, .f32⟩
  | .hbm, ⟨61, _⟩ => ⟨S1x1x256, .f32⟩
  | .hbm, ⟨62, _⟩ => ⟨S256x2x256, .f32⟩
  | .hbm, ⟨63, _⟩ => ⟨S256x2x256, .f32⟩
  | .hbm, ⟨64, _⟩ => ⟨S256x1x512, .f32⟩
  | .hbm, ⟨65, _⟩ => ⟨S256x1x256, .f32⟩
  | .hbm, ⟨66, _⟩ => ⟨S1x1x256, .f32⟩
  | .hbm, ⟨67, _⟩ => ⟨S256x1x256, .f32⟩
  | .hbm, ⟨68, _⟩ => ⟨S256x1x256, .f32⟩
  | .hbm, ⟨69, _⟩ => ⟨S256x256, .f32⟩
  | _, _ => ⟨S256x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩

abbrev nD : Nat := 1
abbrev τ : Topo := Topo.v7x

variable {F : FTy → Type} [FloatOps F]

class Facts₀ : Prop where
  bcast_S_S256x1024 : S_.BroadcastsInDim S256x1024 (![] : Fin 0 → Fin S256x1024.rank)
  bcast_S256x1024_S256x1024x1_0_1 : S256x1024.BroadcastsInDim S256x1024x1 (![0, 1] : Fin 2 → Fin S256x1024x1.rank)
  bcast_S256_S1x1x256_2 : S256.BroadcastsInDim S1x1x256 (![2] : Fin 1 → Fin S1x1x256.rank)
  bcast_S1x1x256_S256x1024x256_0_1_2 : S1x1x256.BroadcastsInDim S256x1024x256 (![0, 1, 2] : Fin 3 → Fin S256x1024x256.rank)
  shapeCasts_S256x1024x256_S256x512x512 : S256x1024x256.ShapeCasts S256x512x512
  bcast_S1x1x256_S256x512x256_0_1_2 : S1x1x256.BroadcastsInDim S256x512x256 (![0, 1, 2] : Fin 3 → Fin S256x512x256.rank)
  shapeCasts_S256x512x256_S256x256x512 : S256x512x256.ShapeCasts S256x256x512
  bcast_S1x1x256_S256x256x256_0_1_2 : S1x1x256.BroadcastsInDim S256x256x256 (![0, 1, 2] : Fin 3 → Fin S256x256x256.rank)
  shapeCasts_S256x256x256_S256x128x512 : S256x256x256.ShapeCasts S256x128x512
  bcast_S1x1x256_S256x128x256_0_1_2 : S1x1x256.BroadcastsInDim S256x128x256 (![0, 1, 2] : Fin 3 → Fin S256x128x256.rank)
  shapeCasts_S256x128x256_S256x64x512 : S256x128x256.ShapeCasts S256x64x512
  bcast_S1x1x256_S256x64x256_0_1_2 : S1x1x256.BroadcastsInDim S256x64x256 (![0, 1, 2] : Fin 3 → Fin S256x64x256.rank)
  shapeCasts_S256x64x256_S256x32x512 : S256x64x256.ShapeCasts S256x32x512
  bcast_S1x1x256_S256x32x256_0_1_2 : S1x1x256.BroadcastsInDim S256x32x256 (![0, 1, 2] : Fin 3 → Fin S256x32x256.rank)
  shapeCasts_S256x32x256_S256x16x512 : S256x32x256.ShapeCasts S256x16x512
  bcast_S1x1x256_S256x16x256_0_1_2 : S1x1x256.BroadcastsInDim S256x16x256 (![0, 1, 2] : Fin 3 → Fin S256x16x256.rank)
  shapeCasts_S256x16x256_S256x8x512 : S256x16x256.ShapeCasts S256x8x512
  bcast_S1x1x256_S256x8x256_0_1_2 : S1x1x256.BroadcastsInDim S256x8x256 (![0, 1, 2] : Fin 3 → Fin S256x8x256.rank)
  shapeCasts_S256x8x256_S256x4x512 : S256x8x256.ShapeCasts S256x4x512
  bcast_S1x1x256_S256x4x256_0_1_2 : S1x1x256.BroadcastsInDim S256x4x256 (![0, 1, 2] : Fin 3 → Fin S256x4x256.rank)
  shapeCasts_S256x4x256_S256x2x512 : S256x4x256.ShapeCasts S256x2x512
  bcast_S1x1x256_S256x2x256_0_1_2 : S1x1x256.BroadcastsInDim S256x2x256 (![0, 1, 2] : Fin 3 → Fin S256x2x256.rank)
  shapeCasts_S256x2x256_S256x1x512 : S256x2x256.ShapeCasts S256x1x512
  bcast_S1x1x256_S256x1x256_0_1_2 : S1x1x256.BroadcastsInDim S256x1x256 (![0, 1, 2] : Fin 3 → Fin S256x1x256.rank)
  shapeCasts_S256x1x256_S256x256 : S256x1x256.ShapeCasts S256x256
  gather_S50257x300_S256x1024x1_S256x1024x300_2_0_n_n_0_2_1300_wf : GatherDims.WF S50257x300 S256x1024x1 S256x1024x300 [2] [0] [] [0] [] 2 ![1, 300]
  dot_S256x1024x300_S300x256_S256x1024x256_2_0_01_1_n_n_wf : DotDims.WF S256x1024x300 S300x256 S256x1024x256 [2] [0] [0, 1] [1] [] []
  dot_S256x512x512_S512x256_S256x512x256_2_0_01_1_n_n_wf : DotDims.WF S256x512x512 S512x256 S256x512x256 [2] [0] [0, 1] [1] [] []
  dot_S256x256x512_S512x256_S256x256x256_2_0_01_1_n_n_wf : DotDims.WF S256x256x512 S512x256 S256x256x256 [2] [0] [0, 1] [1] [] []
  dot_S256x128x512_S512x256_S256x128x256_2_0_01_1_n_n_wf : DotDims.WF S256x128x512 S512x256 S256x128x256 [2] [0] [0, 1] [1] [] []
  dot_S256x64x512_S512x256_S256x64x256_2_0_01_1_n_n_wf : DotDims.WF S256x64x512 S512x256 S256x64x256 [2] [0] [0, 1] [1] [] []
  dot_S256x32x512_S512x256_S256x32x256_2_0_01_1_n_n_wf : DotDims.WF S256x32x512 S512x256 S256x32x256 [2] [0] [0, 1] [1] [] []
  dot_S256x16x512_S512x256_S256x16x256_2_0_01_1_n_n_wf : DotDims.WF S256x16x512 S512x256 S256x16x256 [2] [0] [0, 1] [1] [] []
  dot_S256x8x512_S512x256_S256x8x256_2_0_01_1_n_n_wf : DotDims.WF S256x8x512 S512x256 S256x8x256 [2] [0] [0, 1] [1] [] []
  dot_S256x4x512_S512x256_S256x4x256_2_0_01_1_n_n_wf : DotDims.WF S256x4x512 S512x256 S256x4x256 [2] [0] [0, 1] [1] [] []
  dot_S256x2x512_S512x256_S256x2x256_2_0_01_1_n_n_wf : DotDims.WF S256x2x512 S512x256 S256x2x256 [2] [0] [0, 1] [1] [] []
  dot_S256x1x512_S512x256_S256x1x256_2_0_01_1_n_n_wf : DotDims.WF S256x1x512 S512x256 S256x1x256 [2] [0] [0, 1] [1] [] []

variable [Facts₀]

def gather_S50257x300_S256x1024x1_S256x1024x300_2_0_n_n_0_2_1300 : GatherDims S50257x300 S256x1024x1 S256x1024x300 where
  offsetDims := [2]
  collapsedSliceDims := [0]
  operandBatchingDims := []
  startIndicesBatchingDims := []
  startIndexMap := [0]
  indexVectorDim := 2
  sliceSizes := ![1, 300]
  wf := gather_S50257x300_S256x1024x1_S256x1024x300_2_0_n_n_0_2_1300_wf
def dot_S256x1024x300_S300x256_S256x1024x256_2_0_01_1_n_n : DotDims S256x1024x300 S300x256 S256x1024x256 where
  lhsContracting := [2]
  rhsContracting := [0]
  lhsNonContracting := [0, 1]
  rhsNonContracting := [1]
  lhsBatch := []
  rhsBatch := []
  wf := dot_S256x1024x300_S300x256_S256x1024x256_2_0_01_1_n_n_wf
def dot_S256x512x512_S512x256_S256x512x256_2_0_01_1_n_n : DotDims S256x512x512 S512x256 S256x512x256 where
  lhsContracting := [2]
  rhsContracting := [0]
  lhsNonContracting := [0, 1]
  rhsNonContracting := [1]
  lhsBatch := []
  rhsBatch := []
  wf := dot_S256x512x512_S512x256_S256x512x256_2_0_01_1_n_n_wf
def dot_S256x256x512_S512x256_S256x256x256_2_0_01_1_n_n : DotDims S256x256x512 S512x256 S256x256x256 where
  lhsContracting := [2]
  rhsContracting := [0]
  lhsNonContracting := [0, 1]
  rhsNonContracting := [1]
  lhsBatch := []
  rhsBatch := []
  wf := dot_S256x256x512_S512x256_S256x256x256_2_0_01_1_n_n_wf
def dot_S256x128x512_S512x256_S256x128x256_2_0_01_1_n_n : DotDims S256x128x512 S512x256 S256x128x256 where
  lhsContracting := [2]
  rhsContracting := [0]
  lhsNonContracting := [0, 1]
  rhsNonContracting := [1]
  lhsBatch := []
  rhsBatch := []
  wf := dot_S256x128x512_S512x256_S256x128x256_2_0_01_1_n_n_wf
def dot_S256x64x512_S512x256_S256x64x256_2_0_01_1_n_n : DotDims S256x64x512 S512x256 S256x64x256 where
  lhsContracting := [2]
  rhsContracting := [0]
  lhsNonContracting := [0, 1]
  rhsNonContracting := [1]
  lhsBatch := []
  rhsBatch := []
  wf := dot_S256x64x512_S512x256_S256x64x256_2_0_01_1_n_n_wf
def dot_S256x32x512_S512x256_S256x32x256_2_0_01_1_n_n : DotDims S256x32x512 S512x256 S256x32x256 where
  lhsContracting := [2]
  rhsContracting := [0]
  lhsNonContracting := [0, 1]
  rhsNonContracting := [1]
  lhsBatch := []
  rhsBatch := []
  wf := dot_S256x32x512_S512x256_S256x32x256_2_0_01_1_n_n_wf
def dot_S256x16x512_S512x256_S256x16x256_2_0_01_1_n_n : DotDims S256x16x512 S512x256 S256x16x256 where
  lhsContracting := [2]
  rhsContracting := [0]
  lhsNonContracting := [0, 1]
  rhsNonContracting := [1]
  lhsBatch := []
  rhsBatch := []
  wf := dot_S256x16x512_S512x256_S256x16x256_2_0_01_1_n_n_wf
def dot_S256x8x512_S512x256_S256x8x256_2_0_01_1_n_n : DotDims S256x8x512 S512x256 S256x8x256 where
  lhsContracting := [2]
  rhsContracting := [0]
  lhsNonContracting := [0, 1]
  rhsNonContracting := [1]
  lhsBatch := []
  rhsBatch := []
  wf := dot_S256x8x512_S512x256_S256x8x256_2_0_01_1_n_n_wf
def dot_S256x4x512_S512x256_S256x4x256_2_0_01_1_n_n : DotDims S256x4x512 S512x256 S256x4x256 where
  lhsContracting := [2]
  rhsContracting := [0]
  lhsNonContracting := [0, 1]
  rhsNonContracting := [1]
  lhsBatch := []
  rhsBatch := []
  wf := dot_S256x4x512_S512x256_S256x4x256_2_0_01_1_n_n_wf
def dot_S256x2x512_S512x256_S256x2x256_2_0_01_1_n_n : DotDims S256x2x512 S512x256 S256x2x256 where
  lhsContracting := [2]
  rhsContracting := [0]
  lhsNonContracting := [0, 1]
  rhsNonContracting := [1]
  lhsBatch := []
  rhsBatch := []
  wf := dot_S256x2x512_S512x256_S256x2x256_2_0_01_1_n_n_wf
def dot_S256x1x512_S512x256_S256x1x256_2_0_01_1_n_n : DotDims S256x1x512 S512x256 S256x1x256 where
  lhsContracting := [2]
  rhsContracting := [0]
  lhsNonContracting := [0, 1]
  rhsNonContracting := [1]
  lhsBatch := []
  rhsBatch := []
  wf := dot_S256x1x512_S512x256_S256x1x256_2_0_01_1_n_n_wf

class Facts : Prop extends Facts₀ where

variable [Facts]
-- ==== Proof.KernelRun.lean ====
/-
  The idealized kernel's run, with its result named.

  The program is eleven kernel launches among stretches of host reshapes. Its buffer contents at each boundary are a
  fold from the launch memory: a stretch of host operations applies them, a launch leaves each of its arrays at what
  its write-backs leave. Every weakly fair execution terminates, nothing faulting, with every unscoped buffer at the
  end of that fold; so the result buffer holds the fold's last value of it, and the six arguments are as launched.
-/
import proofs.«125268_j50311246905374_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer then holds the last
    value of the fold of buffer contents through the program, and the arguments are as launched. -/
theorem run_result : θ_run defs (onTc (τ := τ) (main (F := F))) ⟨m, fun _ => 0, ρ⟩ (fun r => ∀ c : Dev nD,
      r.2.mem ((c.tc : Thread nD τ).loc main_v51) = W23 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v51 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c)⟩)

end Cert.KernelIdeal.RunValue

end
-- ==== Proof.LibFlatRows.lean ====
/-
  Arrays read in row-major order, and "rows times a matrix plus a bias row" on such lists.

  An array of any shape, listed in row-major order, is a function of the position f : ℕ (flat below, zero past the
  end). A reshape keeps every entry at its position, so it does not change the list (flat_shapeCast), and an array
  is determined by its list (flat_injective). On lists, a linear layer O = X · W + b, the rows of X of length K and
  the rows of W, b and O of length N, reads

      O[f] = (∑ k < K, X[(f / N) · K + k] · W[k · N + f % N]) + b[f % N]           (linRows),

  whatever shape the rows of X and O are grouped in: flat_linRows turns an index-by-index statement of a linear
  layer, over any shapes and any index maps that sit at these row-major positions, into that equation between lists.
-/
import Idealize.ShloMosaic.Lib.Pipeline.Value
import Idealize.ShloMosaic.Lib.ValueIdx
import Idealize.ShloMosaic.PureOps.Ideal.Laws

noncomputable section

open scoped BigOperators

namespace Idealize.ShloMosaic.FlatRows

open Idealize.ShloMosaic

/-- The entries of an array in row-major order, as a function of the position; zero past the end. -/
def flat {s : Shape} (x : s.Idx → EReal) : ℕ → EReal :=
  fun f => if h : f < s.numel then x (s.rowMajor.symm ⟨f, h⟩) else 0

/-- The entry at an index is the list's entry at the index's row-major position. -/
theorem flat_rowMajor {s : Shape} (x : s.Idx → EReal) (i : s.Idx) : flat x (s.rowMajor i).val = x i := by
  unfold flat
  rw [dif_pos (s.rowMajor i).isLt]
  exact congrArg x (s.rowMajor.symm_apply_apply i)

/-- The same, the position given by an equation (for positions spelled as sums of coordinates). -/
theorem flat_at {s : Shape} (x : s.Idx → EReal) (i : s.Idx) {f : ℕ} (h : (s.rowMajor i).val = f) : flat x f = x i :=
  h ▸ flat_rowMajor x i

/-- Past the end the list is zero. -/
theorem flat_ge {s : Shape} (x : s.Idx → EReal) {f : ℕ} (h : s.numel ≤ f) : flat x f = 0 :=
  dif_neg (Nat.not_lt.mpr h)

/-- Every position below the number of entries is some index's. -/
theorem exists_rowMajor {s : Shape} {f : ℕ} (h : f < s.numel) : ∃ i : s.Idx, (s.rowMajor i).val = f :=
  ⟨s.rowMajor.symm ⟨f, h⟩, by rw [Equiv.apply_symm_apply]⟩

/-- An array is determined by its row-major list. -/
theorem flat_injective {s : Shape} {x y : s.Idx → EReal} (h : flat x = flat y) : x = y := by
  funext i
  rw [← flat_rowMajor x i, ← flat_rowMajor y i, h]

/-- A reshape keeps every entry at its row-major position: the list is unchanged. -/
theorem flat_shapeCast {s t : Shape} (x : s.Idx → EReal) (h : s.ShapeCasts t) : flat (shapeCast t x h) = flat x := by
  funext f
  by_cases hf : f < t.numel
  · obtain ⟨j, rfl⟩ := exists_rowMajor hf
    rw [flat_rowMajor]
    unfold shapeCast
    exact (flat_at x _ (Shape.rowMajor_reshapeEquiv h j)).symm
  · have hf' : ¬ f < s.numel := fun h' => hf (h ▸ h')
    rw [flat_ge _ (Nat.not_lt.mp hf), flat_ge _ (Nat.not_lt.mp hf')]

/-- A linear layer on row-major lists: the first T positions hold rows of length N; row f / N of the result is
    row f / N of X (length K) times the K × N matrix W, plus the bias row b. Zero past T. -/
def linRows (T K N : ℕ) (X W b : ℕ → EReal) : ℕ → EReal :=
  fun f => if f < T then (∑ k : Fin K, X (f / N * K + k.val) * W (k.val * N + f % N)) + b (f % N) else 0

/-- The length bound may be given by any equal number. -/
theorem linRows_len {T T' : ℕ} (h : T = T') (K N : ℕ) (X W b : ℕ → EReal) : linRows T K N X W b = linRows T' K N X W b := by
  subst h; rfl

/-- An index-by-index linear layer, over ANY shapes: if entry i of O is the sum over k < K of X at (xi i k) times
    W at (wi i k), plus b at (bi i), and these indices sit at the row-major positions of a linear layer with rows
    of length K in and N out, then the lists satisfy linRows. -/
theorem flat_linRows {so sx sw sb : Shape} {K N : ℕ} (O : so.Idx → EReal) (X : sx.Idx → EReal) (W : sw.Idx → EReal)
    (b : sb.Idx → EReal) (xi : so.Idx → Fin K → sx.Idx) (wi : so.Idx → Fin K → sw.Idx) (bi : so.Idx → sb.Idx)
    (hO : ∀ i, O i = (∑ k : Fin K, X (xi i k) * W (wi i k)) + b (bi i))
    (hx : ∀ i k, (sx.rowMajor (xi i k)).val = (so.rowMajor i).val / N * K + k.val)
    (hw : ∀ i k, (sw.rowMajor (wi i k)).val = k.val * N + (so.rowMajor i).val % N)
    (hb : ∀ i, (sb.rowMajor (bi i)).val = (so.rowMajor i).val % N) :
    flat O = linRows so.numel K N (flat X) (flat W) (flat b) := by
  funext f
  unfold linRows
  by_cases hf : f < so.numel
  · rw [if_pos hf]
    obtain ⟨i, rfl⟩ := exists_rowMajor hf
    rw [flat_rowMajor, hO]
    congr 1
    · refine Finset.sum_congr rfl fun k _ => ?_
      rw [← hx i k, ← hw i k, flat_rowMajor, flat_rowMajor]
    · rw [← hb i, flat_rowMajor]
  · rw [if_neg hf]
    exact flat_ge O (Nat.not_lt.mp hf)

/-! ## Rank-2 arrays -/

open Idealize.ShloMosaic.ValueIdx

/-- Rows of X times the matrix W, plus the bias row b, index by index: entry (r, c) is the sum over k of
    X (r, k) · W (k, c), plus b (0, c). -/
def rowsTimes {M K N : ℕ} (X : (⟨2, ![M, K]⟩ : Shape).Idx → EReal) (W : (⟨2, ![K, N]⟩ : Shape).Idx → EReal)
    (b : (⟨2, ![1, N]⟩ : Shape).Idx → EReal) : (⟨2, ![M, N]⟩ : Shape).Idx → EReal :=
  fun i => (∑ k : Fin K, X (ix2 (n0 := M) ⟨(i 0).val, (i 0).isLt⟩ k) * W (ix2 (n1 := N) k ⟨(i 1).val, (i 1).isLt⟩))
    + b (ix2 (n0 := 1) (n1 := N) 0 ⟨(i 1).val, (i 1).isLt⟩)

/-- Position r · N + c of a list of rows of length N is in row r ... -/
theorem row_of_pos {N r c : ℕ} (h : c < N) : (r * N + c) / N = r := by
  rw [Nat.mul_comm, Nat.mul_add_div (Nat.lt_of_le_of_lt (Nat.zero_le c) h), Nat.div_eq_of_lt h, Nat.add_zero]

/-- ... at column c. -/
theorem col_of_pos {N r c : ℕ} (h : c < N) : (r * N + c) % N = c := by
  rw [Nat.mul_comm, Nat.mul_add_mod, Nat.mod_eq_of_lt h]

/-- The row-major list of rowsTimes is the linear layer on lists. -/
theorem flat_rowsTimes {M K N : ℕ} (X : (⟨2, ![M, K]⟩ : Shape).Idx → EReal) (W : (⟨2, ![K, N]⟩ : Shape).Idx → EReal)
    (b : (⟨2, ![1, N]⟩ : Shape).Idx → EReal) :
    flat (rowsTimes X W b) = linRows (⟨2, ![M, N]⟩ : Shape).numel K N (flat X) (flat W) (flat b) :=
  flat_linRows (rowsTimes X W b) X W b
    (fun i k => ix2 (n0 := M) ⟨(i 0).val, (i 0).isLt⟩ k) (fun i k => ix2 (n1 := N) k ⟨(i 1).val, (i 1).isLt⟩)
    (fun i => ix2 (n0 := 1) (n1 := N) 0 ⟨(i 1).val, (i 1).isLt⟩) (fun _ => rfl)
    (fun i k => by
      rw [Shape.rowMajor_val_two, Shape.rowMajor_val_two]
      show (i 0).val * K + k.val = ((i 0).val * N + (i 1).val) / N * K + k.val
      rw [row_of_pos (N := N) (show (i 1).val < N from (i 1).isLt)])
    (fun i k => by
      rw [Shape.rowMajor_val_two, Shape.rowMajor_val_two]
      show k.val * N + (i 1).val = k.val * N + ((i 0).val * N + (i 1).val) % N
      rw [col_of_pos (N := N) (show (i 1).val < N from (i 1).isLt)])
    (fun i => by
      rw [Shape.rowMajor_val_two, Shape.rowMajor_val_two]
      show 0 * N + (i 1).val = ((i 0).val * N + (i 1).val) % N
      rw [col_of_pos (N := N) (show (i 1).val < N from (i 1).isLt), Nat.zero_mul, Nat.zero_add])

end Idealize.ShloMosaic.FlatRows

end
-- ==== Proof.TreeSpec.lean ====
/-
  The specification: a complete binary tree of linear layers, on row-major lists.

  The leaves are word rows (length 300) times the first matrix plus the first bias: 262144 rows of length 256.
  Each level up takes the level below as rows of length 512 (two sibling rows of length 256 side by side, which in
  row-major order is no rearrangement at all), times the second matrix plus the second bias: half as many rows of
  length 256. After ten levels one row per tree is left: 256 rows of length 256.
-/
import proofs.«125268_j50311246905374_2_alg».proof.Proof.LibFlatRows

noncomputable section

namespace Cert.TreeSpec

open Idealize.ShloMosaic.FlatRows

/-- One level up: T entries, in rows of length 256, each the row of length 512 of the level below times W2, plus b2. -/
def up (T : ℕ) (W2 b2 h : ℕ → EReal) : ℕ → EReal := linRows T 512 256 h W2 b2

/-- The leaves: 262144 rows of length 256, each a word row of length 300 times W1, plus b1. -/
def leaves (E W1 b1 : ℕ → EReal) : ℕ → EReal := linRows 67108864 300 256 E W1 b1

/-- The roots, from the looked-up word rows E: ten levels above the leaves. -/
def roots (E W1 b1 W2 b2 : ℕ → EReal) : ℕ → EReal :=
  up 65536 W2 b2 (up 131072 W2 b2 (up 262144 W2 b2 (up 524288 W2 b2 (up 1048576 W2 b2 (up 2097152 W2 b2
    (up 4194304 W2 b2 (up 8388608 W2 b2 (up 16777216 W2 b2 (up 33554432 W2 b2 (leaves E W1 b1))))))))))

end Cert.TreeSpec

end
-- ==== Proof.Region0.lean ====
/-
  Launch 0 of the program: a linear layer, computed block of rows by block of rows.

  The launch's first array has 262144 rows of length 300; grid point t works on rows 4096·t … 4096·t + 4095: it multiplies
  that block of rows by the whole 300 × 256 matrix (the sum over the 300 columns; rounding the factors to a shorter
  float format changes nothing over the extended reals, and the accumulator starts at zero) and adds the bias row to
  every row. So what point t writes back is block t of ONE array, the rows of the first array times the matrix plus
  the bias row; the blocks of the 64 points tile the result array (row r is in the block of point r / 4096), so the
  result array ends holding exactly that.
-/
import proofs.«125268_j50311246905374_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«125268_j50311246905374_2_alg».proof.Proof.LibFlatRows

set_option maxRecDepth 16384

noncomputable section

open scoped BigOperators

namespace Cert.KernelIdeal.Rows

open Cert.KernelIdeal Cert.KernelIdeal.Gen Idealize.ShloMosaic Idealize.ShloMosaic.ValueIdx Idealize.ShloMosaic.TcCoe Idealize.SL.Sem
open Idealize.ShloMosaic.Pipeline (Dat)

/-! ## The matrix product's operand indices: entry (p, q) of the product reads row p of the left operand and column q of
the right one, along the one contracted axis -/

theorem lhs0_0 (i : S4096x256.Idx) (q : dot_S4096x300_S300x256_S4096x256_1_0_0_1_n_n.contr.Idx) : (dot_S4096x300_S300x256_S4096x256_1_0_0_1_n_n.lhsIdx i q 0).val = (i 0).val := by
  unfold DotDims.lhsIdx
  rw [dif_neg (show ¬(0 : Fin S4096x300.rank) ∈ dot_S4096x300_S300x256_S4096x256_1_0_0_1_n_n.lhsBatch by decide), dif_pos (show (0 : Fin S4096x300.rank) ∈ dot_S4096x300_S300x256_S4096x256_1_0_0_1_n_n.lhsNonContracting by decide)]
  rfl
theorem lhs0_1 (i : S4096x256.Idx) (q : dot_S4096x300_S300x256_S4096x256_1_0_0_1_n_n.contr.Idx) : (dot_S4096x300_S300x256_S4096x256_1_0_0_1_n_n.lhsIdx i q 1).val = (q ⟨0, by decide⟩).val :=
  dot_S4096x300_S300x256_S4096x256_1_0_0_1_n_n.lhsIdx_val_of_single rfl i q
theorem rhs0_0 (i : S4096x256.Idx) (q : dot_S4096x300_S300x256_S4096x256_1_0_0_1_n_n.contr.Idx) : (dot_S4096x300_S300x256_S4096x256_1_0_0_1_n_n.rhsIdx i q 0).val = (q ⟨0, by decide⟩).val :=
  dot_S4096x300_S300x256_S4096x256_1_0_0_1_n_n.rhsIdx_val_of_single rfl i q
theorem rhs0_1 (i : S4096x256.Idx) (q : dot_S4096x300_S300x256_S4096x256_1_0_0_1_n_n.contr.Idx) : (dot_S4096x300_S300x256_S4096x256_1_0_0_1_n_n.rhsIdx i q 1).val = (i 1).val := by
  unfold DotDims.rhsIdx
  rw [dif_neg (show ¬(1 : Fin S300x256.rank) ∈ dot_S4096x300_S300x256_S4096x256_1_0_0_1_n_n.rhsBatch by decide), dif_pos (show (1 : Fin S300x256.rank) ∈ dot_S4096x300_S300x256_S4096x256_1_0_0_1_n_n.rhsNonContracting by decide)]
  rfl

/-- What the body stores, entry by entry: row p of the block of rows times column q of the matrix, plus entry q of the
    bias row. -/
theorem pay0_apply (x0 : Vec Ideal S4096x300 .f32) (x1 : Vec Ideal S300x256 .f32) (x2 : Vec Ideal S1x256 .f32) (p : Fin 4096) (q : Fin 256) :
    k0_pay1 (F := Ideal) x0 x1 x2 (ix2 p q)
      = (∑ k : Fin 300, x0 (ix2 p k) * x1 (ix2 k q)) + x2 (ix2 0 q) := by
  unfold k0_pay1
  refine (addf_apply _ _ _).trans ?_
  congr 1
  · refine (Ideal.matmul_constant_zero_apply dot_S4096x300_S300x256_S4096x256_1_0_0_1_n_n none _ _ _).trans ?_
    rw [← Equiv.sum_comp (contrEquiv1 dot_S4096x300_S300x256_S4096x256_1_0_0_1_n_n 300 rfl rfl).symm]
    refine Finset.sum_congr rfl fun k _ => ?_
    have hk := contrEquiv1_symm_val dot_S4096x300_S300x256_S4096x256_1_0_0_1_n_n 300 rfl rfl k
    have el : dot_S4096x300_S300x256_S4096x256_1_0_0_1_n_n.lhsIdx (ix2 p q) ((contrEquiv1 dot_S4096x300_S300x256_S4096x256_1_0_0_1_n_n 300 rfl rfl).symm k) = ix2 p k := funext fun a => Fin.ext (by
      match a with
      | ⟨0, _⟩ => exact lhs0_0 _ _
      | ⟨1, _⟩ => exact (lhs0_1 _ _).trans hk)
    have er : dot_S4096x300_S300x256_S4096x256_1_0_0_1_n_n.rhsIdx (ix2 p q) ((contrEquiv1 dot_S4096x300_S300x256_S4096x256_1_0_0_1_n_n 300 rfl rfl).symm k) = ix2 k q := funext fun a => Fin.ext (by
      match a with
      | ⟨0, _⟩ => exact (rhs0_0 _ _).trans hk
      | ⟨1, _⟩ => exact rhs0_1 _ _)
    rw [el, er, shapeCast_self]
    rfl
  · rw [shapeCast_self]
    refine broadcastTo_apply x2 _ (ix2 p q) (ix2 0 q) (fun a => ?_)
    match a with
    | ⟨0, _⟩ => rfl
    | ⟨1, _⟩ => rfl

/-! ## From the blocks to the array, at any contents V of the buffers when the launch is entered -/

variable (V : (c : Dev nD) → (b : Ref sig .tc) → Buf (Elt Ideal) ((c : Thread nD τ).loc b))

theorem hz0 : (![0, 0] : Fin 2 → Nat) = fun _ => 0 := funext fun a => by fin_cases a <;> rfl

/-- The rows of the launch's first array times its matrix, plus its bias row. -/
def rows0 (c : Dev nD) : S262144x256.Idx → EReal :=
  FlatRows.rowsTimes (M := 262144) (K := 300) (N := 256) (V c main_v7) (V c main_arg2) (V c main_v8)

/-- The printed index maps, decided over the grid: point t takes block t of rows of the first array and of the result,
    and the whole matrix and bias row. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 4000000 in
/-- What point t writes back is block t of the rows-times-matrix array. -/
theorem flushed0 (c : Dev nD) (t : Fin cfg0.N) :
    (dat0 V c).flushed 3 t = ((cfg0.win 3).blk t).view.read (Elt Ideal) (rows0 V c) := by
  show (cfg0.win 3).cut (grid0.coords t) ((dat0 V c).after 3 t) = _
  rw [after0_3]
  unfold out0_3
  rw [View.canon_unit_zero hz0]
  simp only [View.ld_unit_zero (S := S4096x300) hz0, View.ld_unit_zero (S := S300x256) hz0, View.ld_unit_zero (S := S1x256) hz0]
  obtain ⟨e00, e01, e10, e11, e20, e21, e30, e31⟩ := idx0 t
  funext y
  obtain ⟨p, q, rfl⟩ : ∃ (p : Fin 4096) (q : Fin 256), y = ix2 p q := ⟨y 0, y 1, eq_ix2 y⟩
  show k0_pay1 (iblk0 V c 0 t) (iblk0 V c 1 t) (iblk0 V c 2 t) (ix2 p q) = rows0 V c (((cfg0.win 3).blk t).view.emb (ix2 p q))
  refine (pay0_apply (iblk0 V c 0 t) (iblk0 V c 1 t) (iblk0 V c 2 t) p q).trans ?_
  have hr : ((((cfg0.win 3).blk t).view.emb (ix2 p q)) 0).val = t.val * 4096 + p.val := by
    show win0_3.index t (0 : Fin 2) * 4096 + 1 * p.val = _
    rw [e30]; omega
  have hc : ((((cfg0.win 3).blk t).view.emb (ix2 p q)) 1).val = q.val := by
    show win0_3.index t (1 : Fin 2) * 256 + 1 * q.val = _
    rw [e31]; omega
  unfold rows0 FlatRows.rowsTimes
  congr 1
  · refine Finset.sum_congr rfl fun k _ => ?_
    congr 1
    · show V c main_v7 (((cfg0.win 0).blk t).view.emb (ix2 p k)) = V c main_v7 _
      refine congrArg _ (funext fun a => Fin.ext ?_)
      match a with
      | ⟨0, _⟩ =>
        show win0_0.index t (0 : Fin 2) * 4096 + 1 * p.val = ((((cfg0.win 3).blk t).view.emb (ix2 p q)) 0).val
        rw [hr, e00]; omega
      | ⟨1, _⟩ =>
        show win0_0.index t (1 : Fin 2) * 300 + 1 * k.val = k.val
        rw [e01]; omega
    · show V c main_arg2 (((cfg0.win 1).blk t).view.emb (ix2 k q)) = V c main_arg2 _
      refine congrArg _ (funext fun a => Fin.ext ?_)
      match a with
      | ⟨0, _⟩ =>
        show win0_1.index t (0 : Fin 2) * 300 + 1 * k.val = k.val
        rw [e10]; omega
      | ⟨1, _⟩ =>
        show win0_1.index t (1 : Fin 2) * 256 + 1 * q.val = ((((cfg0.win 3).blk t).view.emb (ix2 p q)) 1).val
        rw [hc, e11]; omega
  · show V c main_v8 (((cfg0.win 2).blk t).view.emb (ix2 0 q)) = V c main_v8 _
    refine congrArg _ (funext fun a => Fin.ext ?_)
    match a with
    | ⟨0, _⟩ =>
      show win0_2.index t (0 : Fin 2) * 1 + 1 * 0 = 0
      rw [e20]
    | ⟨1, _⟩ =>
      show win0_2.index t (1 : Fin 2) * 256 + 1 * q.val = ((((cfg0.win 3).blk t).view.emb (ix2 p q)) 1).val
      rw [hc, e21]; omega

set_option maxHeartbeats 1000000 in
/-- The result array after the launch: row r is in the block of point r / 4096, so the blocks cover it and it holds the
    rows-times-matrix array. -/
theorem final0 (c : Dev nD) : (dat0 V c).arrAt 3 cfg0.N = rows0 V c :=
  (dat0 V c).arrAt_eq_of_cover 3 (rows0 V c) (fun t _ => flushed0 V c t) fun i => by
    have hN : cfg0.N = 64 := N_0
    have h0 : (i 0).val < 262144 := (i 0).isLt
    have h1 : (i 1).val < 256 := (i 1).isLt
    have ht : (i 0).val / 4096 < cfg0.N := by rw [hN]; omega
    obtain ⟨e00, e01, e10, e11, e20, e21, e30, e31⟩ := idx0 ⟨(i 0).val / 4096, ht⟩
    refine ⟨⟨(i 0).val / 4096, ht⟩, flush0_3 _, ?_⟩
    show i ∈ ((View.whole main_v9).slice (win0_3.rect ⟨(i 0).val / 4096, ht⟩)).set
    rw [View.set_slice_whole, Rect.mem_set_unit]
    intro a
    match a with
    | ⟨0, _⟩ =>
      show win0_3.index ⟨(i 0).val / 4096, ht⟩ (0 : Fin 2) * 4096 ≤ (i 0).val ∧ (i 0).val < win0_3.index ⟨(i 0).val / 4096, ht⟩ (0 : Fin 2) * 4096 + 4096
      rw [e30]; show (i 0).val / 4096 * 4096 ≤ (i 0).val ∧ (i 0).val < (i 0).val / 4096 * 4096 + 4096; omega
    | ⟨1, _⟩ =>
      show win0_3.index ⟨(i 0).val / 4096, ht⟩ (1 : Fin 2) * 256 ≤ (i 1).val ∧ (i 1).val < win0_3.index ⟨(i 0).val / 4096, ht⟩ (1 : Fin 2) * 256 + 256
      rw [e31]; omega

/-- The same on row-major lists: the result array's list is the linear layer of the three arrays' lists. -/
theorem final0_flat (c : Dev nD) :
    FlatRows.flat ((dat0 V c).arrAt 3 cfg0.N : S262144x256.Idx → EReal)
      = FlatRows.linRows 67108864 300 256 (FlatRows.flat (V c main_v7 : S262144x300.Idx → EReal))
          (FlatRows.flat (V c main_arg2 : S300x256.Idx → EReal)) (FlatRows.flat (V c main_v8 : S1x256.Idx → EReal)) := by
  rw [final0]
  unfold rows0
  rw [FlatRows.flat_rowsTimes, FlatRows.linRows_len (show (⟨2, ![262144, 256]⟩ : Shape).numel = 67108864 from by decide)]

end Cert.KernelIdeal.Rows

end
-- ==== Proof.Region1.lean ====
/-
  Launch 1 of the program: a linear layer, computed block of rows by block of rows.

  The launch's first array has 131072 rows of length 512; grid point t works on rows 4096·t … 4096·t + 4095: it multiplies
  that block of rows by the whole 512 × 256 matrix (the sum over the 512 columns; rounding the factors to a shorter
  float format changes nothing over the extended reals, and the accumulator starts at zero) and adds the bias row to
  every row. So what point t writes back is block t of ONE array, the rows of the first array times the matrix plus
  the bias row; the blocks of the 32 points tile the result array (row r is in the block of point r / 4096), so the
  result array ends holding exactly that.
-/
import proofs.«125268_j50311246905374_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«125268_j50311246905374_2_alg».proof.Proof.LibFlatRows

set_option maxRecDepth 16384

noncomputable section

open scoped BigOperators

namespace Cert.KernelIdeal.Rows

open Cert.KernelIdeal Cert.KernelIdeal.Gen Idealize.ShloMosaic Idealize.ShloMosaic.ValueIdx Idealize.ShloMosaic.TcCoe Idealize.SL.Sem
open Idealize.ShloMosaic.Pipeline (Dat)

/-! ## The matrix product's operand indices: entry (p, q) of the product reads row p of the left operand and column q of
the right one, along the one contracted axis -/

theorem lhs1_0 (i : S4096x256.Idx) (q : dot_S4096x512_S512x256_S4096x256_1_0_0_1_n_n.contr.Idx) : (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide), dif_pos (show (0 : Fin S4096x512.rank) ∈ dot_S4096x512_S512x256_S4096x256_1_0_0_1_n_n.lhsNonContracting by decide)]
  rfl
theorem lhs1_1 (i : S4096x256.Idx) (q : dot_S4096x512_S512x256_S4096x256_1_0_0_1_n_n.contr.Idx) : (dot_S4096x512_S512x256_S4096x256_1_0_0_1_n_n.lhsIdx i q 1).val = (q ⟨0, by decide⟩).val :=
  dot_S4096x512_S512x256_S4096x256_1_0_0_1_n_n.lhsIdx_val_of_single rfl i q
theorem rhs1_0 (i : S4096x256.Idx) (q : dot_S4096x512_S512x256_S4096x256_1_0_0_1_n_n.contr.Idx) : (dot_S4096x512_S512x256_S4096x256_1_0_0_1_n_n.rhsIdx i q 0).val = (q ⟨0, by decide⟩).val :=
  dot_S4096x512_S512x256_S4096x256_1_0_0_1_n_n.rhsIdx_val_of_single rfl i q
theorem rhs1_1 (i : S4096x256.Idx) (q : dot_S4096x512_S512x256_S4096x256_1_0_0_1_n_n.contr.Idx) : (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide), dif_pos (show (1 : Fin S512x256.rank) ∈ dot_S4096x512_S512x256_S4096x256_1_0_0_1_n_n.rhsNonContracting by decide)]
  rfl

/-- What the body stores, entry by entry: row p of the block of rows times column q of the matrix, plus entry q of the
    bias row. -/
theorem pay1_apply (x0 : Vec Ideal S4096x512 .f32) (x1 : Vec Ideal S512x256 .f32) (x2 : Vec Ideal S1x256 .f32) (p : Fin 4096) (q : Fin 256) :
    k1_pay1 (F := Ideal) x0 x1 x2 (ix2 p q)
      = (∑ k : Fin 512, x0 (ix2 p k) * x1 (ix2 k q)) + x2 (ix2 0 q) := by
  unfold k1_pay1
  refine (addf_apply _ _ _).trans ?_
  congr 1
  · refine (Ideal.matmul_constant_zero_apply dot_S4096x512_S512x256_S4096x256_1_0_0_1_n_n none _ _ _).trans ?_
    rw [← Equiv.sum_comp (contrEquiv1 dot_S4096x512_S512x256_S4096x256_1_0_0_1_n_n 512 rfl rfl).symm]
    refine Finset.sum_congr rfl fun k _ => ?_
    have hk := contrEquiv1_symm_val dot_S4096x512_S512x256_S4096x256_1_0_0_1_n_n 512 rfl rfl k
    have el : dot_S4096x512_S512x256_S4096x256_1_0_0_1_n_n.lhsIdx (ix2 p q) ((contrEquiv1 dot_S4096x512_S512x256_S4096x256_1_0_0_1_n_n 512 rfl rfl).symm k) = ix2 p k := funext fun a => Fin.ext (by
      match a with
      | ⟨0, _⟩ => exact lhs1_0 _ _
      | ⟨1, _⟩ => exact (lhs1_1 _ _).trans hk)
    have er : dot_S4096x512_S512x256_S4096x256_1_0_0_1_n_n.rhsIdx (ix2 p q) ((contrEquiv1 dot_S4096x512_S512x256_S4096x256_1_0_0_1_n_n 512 rfl rfl).symm k) = ix2 k q := funext fun a => Fin.ext (by
      match a with
      | ⟨0, _⟩ => exact (rhs1_0 _ _).trans hk
      | ⟨1, _⟩ => exact rhs1_1 _ _)
    rw [el, er, shapeCast_self]
    rfl
  · rw [shapeCast_self]
    refine broadcastTo_apply x2 _ (ix2 p q) (ix2 0 q) (fun a => ?_)
    match a with
    | ⟨0, _⟩ => rfl
    | ⟨1, _⟩ => rfl

/-! ## From the blocks to the array, at any contents V of the buffers when the launch is entered -/

variable (V : (c : Dev nD) → (b : Ref sig .tc) → Buf (Elt Ideal) ((c : Thread nD τ).loc b))

theorem hz1 : (![0, 0] : Fin 2 → Nat) = fun _ => 0 := funext fun a => by fin_cases a <;> rfl

/-- The rows of the launch's first array times its matrix, plus its bias row. -/
def rows1 (c : Dev nD) : S131072x256.Idx → EReal :=
  FlatRows.rowsTimes (M := 131072) (K := 512) (N := 256) (V c main_v11) (V c main_arg4) (V c main_v12)

/-- The printed index maps, decided over the grid: point t takes block t of rows of the first array and of the result,
    and the whole matrix and bias row. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 4000000 in
/-- What point t writes back is block t of the rows-times-matrix array. -/
theorem flushed1 (c : Dev nD) (t : Fin cfg1.N) :
    (dat1 V c).flushed 3 t = ((cfg1.win 3).blk t).view.read (Elt Ideal) (rows1 V c) := by
  show (cfg1.win 3).cut (grid1.coords t) ((dat1 V c).after 3 t) = _
  rw [after1_3]
  unfold out1_3
  rw [View.canon_unit_zero hz1]
  simp only [View.ld_unit_zero (S := S4096x512) hz1, View.ld_unit_zero (S := S512x256) hz1, View.ld_unit_zero (S := S1x256) hz1]
  obtain ⟨e00, e01, e10, e11, e20, e21, e30, e31⟩ := idx1 t
  funext y
  obtain ⟨p, q, rfl⟩ : ∃ (p : Fin 4096) (q : Fin 256), y = ix2 p q := ⟨y 0, y 1, eq_ix2 y⟩
  show k1_pay1 (iblk1 V c 0 t) (iblk1 V c 1 t) (iblk1 V c 2 t) (ix2 p q) = rows1 V c (((cfg1.win 3).blk t).view.emb (ix2 p q))
  refine (pay1_apply (iblk1 V c 0 t) (iblk1 V c 1 t) (iblk1 V c 2 t) p q).trans ?_
  have hr : ((((cfg1.win 3).blk t).view.emb (ix2 p q)) 0).val = t.val * 4096 + p.val := by
    show win1_3.index t (0 : Fin 2) * 4096 + 1 * p.val = _
    rw [e30]; omega
  have hc : ((((cfg1.win 3).blk t).view.emb (ix2 p q)) 1).val = q.val := by
    show win1_3.index t (1 : Fin 2) * 256 + 1 * q.val = _
    rw [e31]; omega
  unfold rows1 FlatRows.rowsTimes
  congr 1
  · refine Finset.sum_congr rfl fun k _ => ?_
    congr 1
    · show V c main_v11 (((cfg1.win 0).blk t).view.emb (ix2 p k)) = V c main_v11 _
      refine congrArg _ (funext fun a => Fin.ext ?_)
      match a with
      | ⟨0, _⟩ =>
        show win1_0.index t (0 : Fin 2) * 4096 + 1 * p.val = ((((cfg1.win 3).blk t).view.emb (ix2 p q)) 0).val
        rw [hr, e00]; omega
      | ⟨1, _⟩ =>
        show win1_0.index t (1 : Fin 2) * 512 + 1 * k.val = k.val
        rw [e01]; omega
    · show V c main_arg4 (((cfg1.win 1).blk t).view.emb (ix2 k q)) = V c main_arg4 _
      refine congrArg _ (funext fun a => Fin.ext ?_)
      match a with
      | ⟨0, _⟩ =>
        show win1_1.index t (0 : Fin 2) * 512 + 1 * k.val = k.val
        rw [e10]; omega
      | ⟨1, _⟩ =>
        show win1_1.index t (1 : Fin 2) * 256 + 1 * q.val = ((((cfg1.win 3).blk t).view.emb (ix2 p q)) 1).val
        rw [hc, e11]; omega
  · show V c main_v12 (((cfg1.win 2).blk t).view.emb (ix2 0 q)) = V c main_v12 _
    refine congrArg _ (funext fun a => Fin.ext ?_)
    match a with
    | ⟨0, _⟩ =>
      show win1_2.index t (0 : Fin 2) * 1 + 1 * 0 = 0
      rw [e20]
    | ⟨1, _⟩ =>
      show win1_2.index t (1 : Fin 2) * 256 + 1 * q.val = ((((cfg1.win 3).blk t).view.emb (ix2 p q)) 1).val
      rw [hc, e21]; omega

set_option maxHeartbeats 1000000 in
/-- The result array after the launch: row r is in the block of point r / 4096, so the blocks cover it and it holds the
    rows-times-matrix array. -/
theorem final1 (c : Dev nD) : (dat1 V c).arrAt 3 cfg1.N = rows1 V c :=
  (dat1 V c).arrAt_eq_of_cover 3 (rows1 V c) (fun t _ => flushed1 V c t) fun i => by
    have hN : cfg1.N = 32 := N_1
    have h0 : (i 0).val < 131072 := (i 0).isLt
    have h1 : (i 1).val < 256 := (i 1).isLt
    have ht : (i 0).val / 4096 < cfg1.N := by rw [hN]; omega
    obtain ⟨e00, e01, e10, e11, e20, e21, e30, e31⟩ := idx1 ⟨(i 0).val / 4096, ht⟩
    refine ⟨⟨(i 0).val / 4096, ht⟩, flush1_3 _, ?_⟩
    show i ∈ ((View.whole main_v13).slice (win1_3.rect ⟨(i 0).val / 4096, ht⟩)).set
    rw [View.set_slice_whole, Rect.mem_set_unit]
    intro a
    match a with
    | ⟨0, _⟩ =>
      show win1_3.index ⟨(i 0).val / 4096, ht⟩ (0 : Fin 2) * 4096 ≤ (i 0).val ∧ (i 0).val < win1_3.index ⟨(i 0).val / 4096, ht⟩ (0 : Fin 2) * 4096 + 4096
      rw [e30]; show (i 0).val / 4096 * 4096 ≤ (i 0).val ∧ (i 0).val < (i 0).val / 4096 * 4096 + 4096; omega
    | ⟨1, _⟩ =>
      show win1_3.index ⟨(i 0).val / 4096, ht⟩ (1 : Fin 2) * 256 ≤ (i 1).val ∧ (i 1).val < win1_3.index ⟨(i 0).val / 4096, ht⟩ (1 : Fin 2) * 256 + 256
      rw [e31]; omega

/-- The same on row-major lists: the result array's list is the linear layer of the three arrays' lists. -/
theorem final1_flat (c : Dev nD) :
    FlatRows.flat ((dat1 V c).arrAt 3 cfg1.N : S131072x256.Idx → EReal)
      = FlatRows.linRows 33554432 512 256 (FlatRows.flat (V c main_v11 : S131072x512.Idx → EReal))
          (FlatRows.flat (V c main_arg4 : S512x256.Idx → EReal)) (FlatRows.flat (V c main_v12 : S1x256.Idx → EReal)) := by
  rw [final1]
  unfold rows1
  rw [FlatRows.flat_rowsTimes, FlatRows.linRows_len (show (⟨2, ![131072, 256]⟩ : Shape).numel = 33554432 from by decide)]

end Cert.KernelIdeal.Rows

end
-- ==== Proof.Region2.lean ====
/-
  Launch 2 of the program: a linear layer, computed block of rows by block of rows.

  The launch's first array has 65536 rows of length 512; grid point t works on rows 4096·t … 4096·t + 4095: it multiplies
  that block of rows by the whole 512 × 256 matrix (the sum over the 512 columns; rounding the factors to a shorter
  float format changes nothing over the extended reals, and the accumulator starts at zero) and adds the bias row to
  every row. So what point t writes back is block t of ONE array, the rows of the first array times the matrix plus
  the bias row; the blocks of the 16 points tile the result array (row r is in the block of point r / 4096), so the
  result array ends holding exactly that.
-/
import proofs.«125268_j50311246905374_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«125268_j50311246905374_2_alg».proof.Proof.LibFlatRows

set_option maxRecDepth 16384

noncomputable section

open scoped BigOperators

namespace Cert.KernelIdeal.Rows

open Cert.KernelIdeal Cert.KernelIdeal.Gen Idealize.ShloMosaic Idealize.ShloMosaic.ValueIdx Idealize.ShloMosaic.TcCoe Idealize.SL.Sem
open Idealize.ShloMosaic.Pipeline (Dat)

/-! ## The matrix product's operand indices: entry (p, q) of the product reads row p of the left operand and column q of
the right one, along the one contracted axis -/

theorem lhs2_0 (i : S4096x256.Idx) (q : dot_S4096x512_S512x256_S4096x256_1_0_0_1_n_n.contr.Idx) : (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide), dif_pos (show (0 : Fin S4096x512.rank) ∈ dot_S4096x512_S512x256_S4096x256_1_0_0_1_n_n.lhsNonContracting by decide)]
  rfl
theorem lhs2_1 (i : S4096x256.Idx) (q : dot_S4096x512_S512x256_S4096x256_1_0_0_1_n_n.contr.Idx) : (dot_S4096x512_S512x256_S4096x256_1_0_0_1_n_n.lhsIdx i q 1).val = (q ⟨0, by decide⟩).val :=
  dot_S4096x512_S512x256_S4096x256_1_0_0_1_n_n.lhsIdx_val_of_single rfl i q
theorem rhs2_0 (i : S4096x256.Idx) (q : dot_S4096x512_S512x256_S4096x256_1_0_0_1_n_n.contr.Idx) : (dot_S4096x512_S512x256_S4096x256_1_0_0_1_n_n.rhsIdx i q 0).val = (q ⟨0, by decide⟩).val :=
  dot_S4096x512_S512x256_S4096x256_1_0_0_1_n_n.rhsIdx_val_of_single rfl i q
theorem rhs2_1 (i : S4096x256.Idx) (q : dot_S4096x512_S512x256_S4096x256_1_0_0_1_n_n.contr.Idx) : (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide), dif_pos (show (1 : Fin S512x256.rank) ∈ dot_S4096x512_S512x256_S4096x256_1_0_0_1_n_n.rhsNonContracting by decide)]
  rfl

/-- What the body stores, entry by entry: row p of the block of rows times column q of the matrix, plus entry q of the
    bias row. -/
theorem pay2_apply (x0 : Vec Ideal S4096x512 .f32) (x1 : Vec Ideal S512x256 .f32) (x2 : Vec Ideal S1x256 .f32) (p : Fin 4096) (q : Fin 256) :
    k2_pay1 (F := Ideal) x0 x1 x2 (ix2 p q)
      = (∑ k : Fin 512, x0 (ix2 p k) * x1 (ix2 k q)) + x2 (ix2 0 q) := by
  unfold k2_pay1
  refine (addf_apply _ _ _).trans ?_
  congr 1
  · refine (Ideal.matmul_constant_zero_apply dot_S4096x512_S512x256_S4096x256_1_0_0_1_n_n none _ _ _).trans ?_
    rw [← Equiv.sum_comp (contrEquiv1 dot_S4096x512_S512x256_S4096x256_1_0_0_1_n_n 512 rfl rfl).symm]
    refine Finset.sum_congr rfl fun k _ => ?_
    have hk := contrEquiv1_symm_val dot_S4096x512_S512x256_S4096x256_1_0_0_1_n_n 512 rfl rfl k
    have el : dot_S4096x512_S512x256_S4096x256_1_0_0_1_n_n.lhsIdx (ix2 p q) ((contrEquiv1 dot_S4096x512_S512x256_S4096x256_1_0_0_1_n_n 512 rfl rfl).symm k) = ix2 p k := funext fun a => Fin.ext (by
      match a with
      | ⟨0, _⟩ => exact lhs2_0 _ _
      | ⟨1, _⟩ => exact (lhs2_1 _ _).trans hk)
    have er : dot_S4096x512_S512x256_S4096x256_1_0_0_1_n_n.rhsIdx (ix2 p q) ((contrEquiv1 dot_S4096x512_S512x256_S4096x256_1_0_0_1_n_n 512 rfl rfl).symm k) = ix2 k q := funext fun a => Fin.ext (by
      match a with
      | ⟨0, _⟩ => exact (rhs2_0 _ _).trans hk
      | ⟨1, _⟩ => exact rhs2_1 _ _)
    rw [el, er, shapeCast_self]
    rfl
  · rw [shapeCast_self]
    refine broadcastTo_apply x2 _ (ix2 p q) (ix2 0 q) (fun a => ?_)
    match a with
    | ⟨0, _⟩ => rfl
    | ⟨1, _⟩ => rfl

/-! ## From the blocks to the array, at any contents V of the buffers when the launch is entered -/

variable (V : (c : Dev nD) → (b : Ref sig .tc) → Buf (Elt Ideal) ((c : Thread nD τ).loc b))

theorem hz2 : (![0, 0] : Fin 2 → Nat) = fun _ => 0 := funext fun a => by fin_cases a <;> rfl

/-- The rows of the launch's first array times its matrix, plus its bias row. -/
def rows2 (c : Dev nD) : S65536x256.Idx → EReal :=
  FlatRows.rowsTimes (M := 65536) (K := 512) (N := 256) (V c main_v15) (V c main_arg4) (V c main_v16)

/-- The printed index maps, decided over the grid: point t takes block t of rows of the first array and of the result,
    and the whole matrix and bias row. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

set_option maxHeartbeats 4000000 in
/-- What point t writes back is block t of the rows-times-matrix array. -/
theorem flushed2 (c : Dev nD) (t : Fin cfg2.N) :
    (dat2 V c).flushed 3 t = ((cfg2.win 3).blk t).view.read (Elt Ideal) (rows2 V c) := by
  show (cfg2.win 3).cut (grid2.coords t) ((dat2 V c).after 3 t) = _
  rw [after2_3]
  unfold out2_3
  rw [View.canon_unit_zero hz2]
  simp only [View.ld_unit_zero (S := S4096x512) hz2, View.ld_unit_zero (S := S512x256) hz2, View.ld_unit_zero (S := S1x256) hz2]
  obtain ⟨e00, e01, e10, e11, e20, e21, e30, e31⟩ := idx2 t
  funext y
  obtain ⟨p, q, rfl⟩ : ∃ (p : Fin 4096) (q : Fin 256), y = ix2 p q := ⟨y 0, y 1, eq_ix2 y⟩
  show k2_pay1 (iblk2 V c 0 t) (iblk2 V c 1 t) (iblk2 V c 2 t) (ix2 p q) = rows2 V c (((cfg2.win 3).blk t).view.emb (ix2 p q))
  refine (pay2_apply (iblk2 V c 0 t) (iblk2 V c 1 t) (iblk2 V c 2 t) p q).trans ?_
  have hr : ((((cfg2.win 3).blk t).view.emb (ix2 p q)) 0).val = t.val * 4096 + p.val := by
    show win2_3.index t (0 : Fin 2) * 4096 + 1 * p.val = _
    rw [e30]; omega
  have hc : ((((cfg2.win 3).blk t).view.emb (ix2 p q)) 1).val = q.val := by
    show win2_3.index t (1 : Fin 2) * 256 + 1 * q.val = _
    rw [e31]; omega
  unfold rows2 FlatRows.rowsTimes
  congr 1
  · refine Finset.sum_congr rfl fun k _ => ?_
    congr 1
    · show V c main_v15 (((cfg2.win 0).blk t).view.emb (ix2 p k)) = V c main_v15 _
      refine congrArg _ (funext fun a => Fin.ext ?_)
      match a with
      | ⟨0, _⟩ =>
        show win2_0.index t (0 : Fin 2) * 4096 + 1 * p.val = ((((cfg2.win 3).blk t).view.emb (ix2 p q)) 0).val
        rw [hr, e00]; omega
      | ⟨1, _⟩ =>
        show win2_0.index t (1 : Fin 2) * 512 + 1 * k.val = k.val
        rw [e01]; omega
    · show V c main_arg4 (((cfg2.win 1).blk t).view.emb (ix2 k q)) = V c main_arg4 _
      refine congrArg _ (funext fun a => Fin.ext ?_)
      match a with
      | ⟨0, _⟩ =>
        show win2_1.index t (0 : Fin 2) * 512 + 1 * k.val = k.val
        rw [e10]; omega
      | ⟨1, _⟩ =>
        show win2_1.index t (1 : Fin 2) * 256 + 1 * q.val = ((((cfg2.win 3).blk t).view.emb (ix2 p q)) 1).val
        rw [hc, e11]; omega
  · show V c main_v16 (((cfg2.win 2).blk t).view.emb (ix2 0 q)) = V c main_v16 _
    refine congrArg _ (funext fun a => Fin.ext ?_)
    match a with
    | ⟨0, _⟩ =>
      show win2_2.index t (0 : Fin 2) * 1 + 1 * 0 = 0
      rw [e20]
    | ⟨1, _⟩ =>
      show win2_2.index t (1 : Fin 2) * 256 + 1 * q.val = ((((cfg2.win 3).blk t).view.emb (ix2 p q)) 1).val
      rw [hc, e21]; omega

set_option maxHeartbeats 1000000 in
/-- The result array after the launch: row r is in the block of point r / 4096, so the blocks cover it and it holds the
    rows-times-matrix array. -/
theorem final2 (c : Dev nD) : (dat2 V c).arrAt 3 cfg2.N = rows2 V c :=
  (dat2 V c).arrAt_eq_of_cover 3 (rows2 V c) (fun t _ => flushed2 V c t) fun i => by
    have hN : cfg2.N = 16 := N_2
    have h0 : (i 0).val < 65536 := (i 0).isLt
    have h1 : (i 1).val < 256 := (i 1).isLt
    have ht : (i 0).val / 4096 < cfg2.N := by rw [hN]; omega
    obtain ⟨e00, e01, e10, e11, e20, e21, e30, e31⟩ := idx2 ⟨(i 0).val / 4096, ht⟩
    refine ⟨⟨(i 0).val / 4096, ht⟩, flush2_3 _, ?_⟩
    show i ∈ ((View.whole main_v17).slice (win2_3.rect ⟨(i 0).val / 4096, ht⟩)).set
    rw [View.set_slice_whole, Rect.mem_set_unit]
    intro a
    match a with
    | ⟨0, _⟩ =>
      show win2_3.index ⟨(i 0).val / 4096, ht⟩ (0 : Fin 2) * 4096 ≤ (i 0).val ∧ (i 0).val < win2_3.index ⟨(i 0).val / 4096, ht⟩ (0 : Fin 2) * 4096 + 4096
      rw [e30]; show (i 0).val / 4096 * 4096 ≤ (i 0).val ∧ (i 0).val < (i 0).val / 4096 * 4096 + 4096; omega
    | ⟨1, _⟩ =>
      show win2_3.index ⟨(i 0).val / 4096, ht⟩ (1 : Fin 2) * 256 ≤ (i 1).val ∧ (i 1).val < win2_3.index ⟨(i 0).val / 4096, ht⟩ (1 : Fin 2) * 256 + 256
      rw [e31]; omega

/-- The same on row-major lists: the result array's list is the linear layer of the three arrays' lists. -/
theorem final2_flat (c : Dev nD) :
    FlatRows.flat ((dat2 V c).arrAt 3 cfg2.N : S65536x256.Idx → EReal)
      = FlatRows.linRows 16777216 512 256 (FlatRows.flat (V c main_v15 : S65536x512.Idx → EReal))
          (FlatRows.flat (V c main_arg4 : S512x256.Idx → EReal)) (FlatRows.flat (V c main_v16 : S1x256.Idx → EReal)) := by
  rw [final2]
  unfold rows2
  rw [FlatRows.flat_rowsTimes, FlatRows.linRows_len (show (⟨2, ![65536, 256]⟩ : Shape).numel = 16777216 from by decide)]

end Cert.KernelIdeal.Rows

end
-- ==== Proof.Region3.lean ====
/-
  Launch 3 of the program: a linear layer, computed block of rows by block of rows.

  The launch's first array has 32768 rows of length 512; grid point t works on rows 4096·t … 4096·t + 4095: it multiplies
  that block of rows by the whole 512 × 256 matrix (the sum over the 512 columns; rounding the factors to a shorter
  float format changes nothing over the extended reals, and the accumulator starts at zero) and adds the bias row to
  every row. So what point t writes back is block t of ONE array, the rows of the first array times the matrix plus
  the bias row; the blocks of the 8 points tile the result array (row r is in the block of point r / 4096), so the
  result array ends holding exactly that.
-/
import proofs.«125268_j50311246905374_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«125268_j50311246905374_2_alg».proof.Proof.LibFlatRows

set_option maxRecDepth 16384

noncomputable section

open scoped BigOperators

namespace Cert.KernelIdeal.Rows

open Cert.KernelIdeal Cert.KernelIdeal.Gen Idealize.ShloMosaic Idealize.ShloMosaic.ValueIdx Idealize.ShloMosaic.TcCoe Idealize.SL.Sem
open Idealize.ShloMosaic.Pipeline (Dat)

/-! ## The matrix product's operand indices: entry (p, q) of the product reads row p of the left operand and column q of
the right one, along the one contracted axis -/

theorem lhs3_0 (i : S4096x256.Idx) (q : dot_S4096x512_S512x256_S4096x256_1_0_0_1_n_n.contr.Idx) : (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide), dif_pos (show (0 : Fin S4096x512.rank) ∈ dot_S4096x512_S512x256_S4096x256_1_0_0_1_n_n.lhsNonContracting by decide)]
  rfl
theorem lhs3_1 (i : S4096x256.Idx) (q : dot_S4096x512_S512x256_S4096x256_1_0_0_1_n_n.contr.Idx) : (dot_S4096x512_S512x256_S4096x256_1_0_0_1_n_n.lhsIdx i q 1).val = (q ⟨0, by decide⟩).val :=
  dot_S4096x512_S512x256_S4096x256_1_0_0_1_n_n.lhsIdx_val_of_single rfl i q
theorem rhs3_0 (i : S4096x256.Idx) (q : dot_S4096x512_S512x256_S4096x256_1_0_0_1_n_n.contr.Idx) : (dot_S4096x512_S512x256_S4096x256_1_0_0_1_n_n.rhsIdx i q 0).val = (q ⟨0, by decide⟩).val :=
  dot_S4096x512_S512x256_S4096x256_1_0_0_1_n_n.rhsIdx_val_of_single rfl i q
theorem rhs3_1 (i : S4096x256.Idx) (q : dot_S4096x512_S512x256_S4096x256_1_0_0_1_n_n.contr.Idx) : (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide), dif_pos (show (1 : Fin S512x256.rank) ∈ dot_S4096x512_S512x256_S4096x256_1_0_0_1_n_n.rhsNonContracting by decide)]
  rfl

/-- What the body stores, entry by entry: row p of the block of rows times column q of the matrix, plus entry q of the
    bias row. -/
theorem pay3_apply (x0 : Vec Ideal S4096x512 .f32) (x1 : Vec Ideal S512x256 .f32) (x2 : Vec Ideal S1x256 .f32) (p : Fin 4096) (q : Fin 256) :
    k3_pay1 (F := Ideal) x0 x1 x2 (ix2 p q)
      = (∑ k : Fin 512, x0 (ix2 p k) * x1 (ix2 k q)) + x2 (ix2 0 q) := by
  unfold k3_pay1
  refine (addf_apply _ _ _).trans ?_
  congr 1
  · refine (Ideal.matmul_constant_zero_apply dot_S4096x512_S512x256_S4096x256_1_0_0_1_n_n none _ _ _).trans ?_
    rw [← Equiv.sum_comp (contrEquiv1 dot_S4096x512_S512x256_S4096x256_1_0_0_1_n_n 512 rfl rfl).symm]
    refine Finset.sum_congr rfl fun k _ => ?_
    have hk := contrEquiv1_symm_val dot_S4096x512_S512x256_S4096x256_1_0_0_1_n_n 512 rfl rfl k
    have el : dot_S4096x512_S512x256_S4096x256_1_0_0_1_n_n.lhsIdx (ix2 p q) ((contrEquiv1 dot_S4096x512_S512x256_S4096x256_1_0_0_1_n_n 512 rfl rfl).symm k) = ix2 p k := funext fun a => Fin.ext (by
      match a with
      | ⟨0, _⟩ => exact lhs3_0 _ _
      | ⟨1, _⟩ => exact (lhs3_1 _ _).trans hk)
    have er : dot_S4096x512_S512x256_S4096x256_1_0_0_1_n_n.rhsIdx (ix2 p q) ((contrEquiv1 dot_S4096x512_S512x256_S4096x256_1_0_0_1_n_n 512 rfl rfl).symm k) = ix2 k q := funext fun a => Fin.ext (by
      match a with
      | ⟨0, _⟩ => exact (rhs3_0 _ _).trans hk
      | ⟨1, _⟩ => exact rhs3_1 _ _)
    rw [el, er, shapeCast_self]
    rfl
  · rw [shapeCast_self]
    refine broadcastTo_apply x2 _ (ix2 p q) (ix2 0 q) (fun a => ?_)
    match a with
    | ⟨0, _⟩ => rfl
    | ⟨1, _⟩ => rfl

/-! ## From the blocks to the array, at any contents V of the buffers when the launch is entered -/

variable (V : (c : Dev nD) → (b : Ref sig .tc) → Buf (Elt Ideal) ((c : Thread nD τ).loc b))

theorem hz3 : (![0, 0] : Fin 2 → Nat) = fun _ => 0 := funext fun a => by fin_cases a <;> rfl

/-- The rows of the launch's first array times its matrix, plus its bias row. -/
def rows3 (c : Dev nD) : S32768x256.Idx → EReal :=
  FlatRows.rowsTimes (M := 32768) (K := 512) (N := 256) (V c main_v19) (V c main_arg4) (V c main_v20)

/-- The printed index maps, decided over the grid: point t takes block t of rows of the first array and of the result,
    and the whole matrix and bias row. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

set_option maxHeartbeats 4000000 in
/-- What point t writes back is block t of the rows-times-matrix array. -/
theorem flushed3 (c : Dev nD) (t : Fin cfg3.N) :
    (dat3 V c).flushed 3 t = ((cfg3.win 3).blk t).view.read (Elt Ideal) (rows3 V c) := by
  show (cfg3.win 3).cut (grid3.coords t) ((dat3 V c).after 3 t) = _
  rw [after3_3]
  unfold out3_3
  rw [View.canon_unit_zero hz3]
  simp only [View.ld_unit_zero (S := S4096x512) hz3, View.ld_unit_zero (S := S512x256) hz3, View.ld_unit_zero (S := S1x256) hz3]
  obtain ⟨e00, e01, e10, e11, e20, e21, e30, e31⟩ := idx3 t
  funext y
  obtain ⟨p, q, rfl⟩ : ∃ (p : Fin 4096) (q : Fin 256), y = ix2 p q := ⟨y 0, y 1, eq_ix2 y⟩
  show k3_pay1 (iblk3 V c 0 t) (iblk3 V c 1 t) (iblk3 V c 2 t) (ix2 p q) = rows3 V c (((cfg3.win 3).blk t).view.emb (ix2 p q))
  refine (pay3_apply (iblk3 V c 0 t) (iblk3 V c 1 t) (iblk3 V c 2 t) p q).trans ?_
  have hr : ((((cfg3.win 3).blk t).view.emb (ix2 p q)) 0).val = t.val * 4096 + p.val := by
    show win3_3.index t (0 : Fin 2) * 4096 + 1 * p.val = _
    rw [e30]; omega
  have hc : ((((cfg3.win 3).blk t).view.emb (ix2 p q)) 1).val = q.val := by
    show win3_3.index t (1 : Fin 2) * 256 + 1 * q.val = _
    rw [e31]; omega
  unfold rows3 FlatRows.rowsTimes
  congr 1
  · refine Finset.sum_congr rfl fun k _ => ?_
    congr 1
    · show V c main_v19 (((cfg3.win 0).blk t).view.emb (ix2 p k)) = V c main_v19 _
      refine congrArg _ (funext fun a => Fin.ext ?_)
      match a with
      | ⟨0, _⟩ =>
        show win3_0.index t (0 : Fin 2) * 4096 + 1 * p.val = ((((cfg3.win 3).blk t).view.emb (ix2 p q)) 0).val
        rw [hr, e00]; omega
      | ⟨1, _⟩ =>
        show win3_0.index t (1 : Fin 2) * 512 + 1 * k.val = k.val
        rw [e01]; omega
    · show V c main_arg4 (((cfg3.win 1).blk t).view.emb (ix2 k q)) = V c main_arg4 _
      refine congrArg _ (funext fun a => Fin.ext ?_)
      match a with
      | ⟨0, _⟩ =>
        show win3_1.index t (0 : Fin 2) * 512 + 1 * k.val = k.val
        rw [e10]; omega
      | ⟨1, _⟩ =>
        show win3_1.index t (1 : Fin 2) * 256 + 1 * q.val = ((((cfg3.win 3).blk t).view.emb (ix2 p q)) 1).val
        rw [hc, e11]; omega
  · show V c main_v20 (((cfg3.win 2).blk t).view.emb (ix2 0 q)) = V c main_v20 _
    refine congrArg _ (funext fun a => Fin.ext ?_)
    match a with
    | ⟨0, _⟩ =>
      show win3_2.index t (0 : Fin 2) * 1 + 1 * 0 = 0
      rw [e20]
    | ⟨1, _⟩ =>
      show win3_2.index t (1 : Fin 2) * 256 + 1 * q.val = ((((cfg3.win 3).blk t).view.emb (ix2 p q)) 1).val
      rw [hc, e21]; omega

set_option maxHeartbeats 1000000 in
/-- The result array after the launch: row r is in the block of point r / 4096, so the blocks cover it and it holds the
    rows-times-matrix array. -/
theorem final3 (c : Dev nD) : (dat3 V c).arrAt 3 cfg3.N = rows3 V c :=
  (dat3 V c).arrAt_eq_of_cover 3 (rows3 V c) (fun t _ => flushed3 V c t) fun i => by
    have hN : cfg3.N = 8 := N_3
    have h0 : (i 0).val < 32768 := (i 0).isLt
    have h1 : (i 1).val < 256 := (i 1).isLt
    have ht : (i 0).val / 4096 < cfg3.N := by rw [hN]; omega
    obtain ⟨e00, e01, e10, e11, e20, e21, e30, e31⟩ := idx3 ⟨(i 0).val / 4096, ht⟩
    refine ⟨⟨(i 0).val / 4096, ht⟩, flush3_3 _, ?_⟩
    show i ∈ ((View.whole main_v21).slice (win3_3.rect ⟨(i 0).val / 4096, ht⟩)).set
    rw [View.set_slice_whole, Rect.mem_set_unit]
    intro a
    match a with
    | ⟨0, _⟩ =>
      show win3_3.index ⟨(i 0).val / 4096, ht⟩ (0 : Fin 2) * 4096 ≤ (i 0).val ∧ (i 0).val < win3_3.index ⟨(i 0).val / 4096, ht⟩ (0 : Fin 2) * 4096 + 4096
      rw [e30]; show (i 0).val / 4096 * 4096 ≤ (i 0).val ∧ (i 0).val < (i 0).val / 4096 * 4096 + 4096; omega
    | ⟨1, _⟩ =>
      show win3_3.index ⟨(i 0).val / 4096, ht⟩ (1 : Fin 2) * 256 ≤ (i 1).val ∧ (i 1).val < win3_3.index ⟨(i 0).val / 4096, ht⟩ (1 : Fin 2) * 256 + 256
      rw [e31]; omega

/-- The same on row-major lists: the result array's list is the linear layer of the three arrays' lists. -/
theorem final3_flat (c : Dev nD) :
    FlatRows.flat ((dat3 V c).arrAt 3 cfg3.N : S32768x256.Idx → EReal)
      = FlatRows.linRows 8388608 512 256 (FlatRows.flat (V c main_v19 : S32768x512.Idx → EReal))
          (FlatRows.flat (V c main_arg4 : S512x256.Idx → EReal)) (FlatRows.flat (V c main_v20 : S1x256.Idx → EReal)) := by
  rw [final3]
  unfold rows3
  rw [FlatRows.flat_rowsTimes, FlatRows.linRows_len (show (⟨2, ![32768, 256]⟩ : Shape).numel = 8388608 from by decide)]

end Cert.KernelIdeal.Rows

end
-- ==== Proof.Region4.lean ====
/-
  Launch 4 of the program: a linear layer, computed block of rows by block of rows.

  The launch's first array has 16384 rows of length 512; grid point t works on rows 4096·t … 4096·t + 4095: it multiplies
  that block of rows by the whole 512 × 256 matrix (the sum over the 512 columns; rounding the factors to a shorter
  float format changes nothing over the extended reals, and the accumulator starts at zero) and adds the bias row to
  every row. So what point t writes back is block t of ONE array, the rows of the first array times the matrix plus
  the bias row; the blocks of the 4 points tile the result array (row r is in the block of point r / 4096), so the
  result array ends holding exactly that.
-/
import proofs.«125268_j50311246905374_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«125268_j50311246905374_2_alg».proof.Proof.LibFlatRows

set_option maxRecDepth 16384

noncomputable section

open scoped BigOperators

namespace Cert.KernelIdeal.Rows

open Cert.KernelIdeal Cert.KernelIdeal.Gen Idealize.ShloMosaic Idealize.ShloMosaic.ValueIdx Idealize.ShloMosaic.TcCoe Idealize.SL.Sem
open Idealize.ShloMosaic.Pipeline (Dat)

/-! ## The matrix product's operand indices: entry (p, q) of the product reads row p of the left operand and column q of
the right one, along the one contracted axis -/

theorem lhs4_0 (i : S4096x256.Idx) (q : dot_S4096x512_S512x256_S4096x256_1_0_0_1_n_n.contr.Idx) : (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide), dif_pos (show (0 : Fin S4096x512.rank) ∈ dot_S4096x512_S512x256_S4096x256_1_0_0_1_n_n.lhsNonContracting by decide)]
  rfl
theorem lhs4_1 (i : S4096x256.Idx) (q : dot_S4096x512_S512x256_S4096x256_1_0_0_1_n_n.contr.Idx) : (dot_S4096x512_S512x256_S4096x256_1_0_0_1_n_n.lhsIdx i q 1).val = (q ⟨0, by decide⟩).val :=
  dot_S4096x512_S512x256_S4096x256_1_0_0_1_n_n.lhsIdx_val_of_single rfl i q
theorem rhs4_0 (i : S4096x256.Idx) (q : dot_S4096x512_S512x256_S4096x256_1_0_0_1_n_n.contr.Idx) : (dot_S4096x512_S512x256_S4096x256_1_0_0_1_n_n.rhsIdx i q 0).val = (q ⟨0, by decide⟩).val :=
  dot_S4096x512_S512x256_S4096x256_1_0_0_1_n_n.rhsIdx_val_of_single rfl i q
theorem rhs4_1 (i : S4096x256.Idx) (q : dot_S4096x512_S512x256_S4096x256_1_0_0_1_n_n.contr.Idx) : (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide), dif_pos (show (1 : Fin S512x256.rank) ∈ dot_S4096x512_S512x256_S4096x256_1_0_0_1_n_n.rhsNonContracting by decide)]
  rfl

/-- What the body stores, entry by entry: row p of the block of rows times column q of the matrix, plus entry q of the
    bias row. -/
theorem pay4_apply (x0 : Vec Ideal S4096x512 .f32) (x1 : Vec Ideal S512x256 .f32) (x2 : Vec Ideal S1x256 .f32) (p : Fin 4096) (q : Fin 256) :
    k4_pay1 (F := Ideal) x0 x1 x2 (ix2 p q)
      = (∑ k : Fin 512, x0 (ix2 p k) * x1 (ix2 k q)) + x2 (ix2 0 q) := by
  unfold k4_pay1
  refine (addf_apply _ _ _).trans ?_
  congr 1
  · refine (Ideal.matmul_constant_zero_apply dot_S4096x512_S512x256_S4096x256_1_0_0_1_n_n none _ _ _).trans ?_
    rw [← Equiv.sum_comp (contrEquiv1 dot_S4096x512_S512x256_S4096x256_1_0_0_1_n_n 512 rfl rfl).symm]
    refine Finset.sum_congr rfl fun k _ => ?_
    have hk := contrEquiv1_symm_val dot_S4096x512_S512x256_S4096x256_1_0_0_1_n_n 512 rfl rfl k
    have el : dot_S4096x512_S512x256_S4096x256_1_0_0_1_n_n.lhsIdx (ix2 p q) ((contrEquiv1 dot_S4096x512_S512x256_S4096x256_1_0_0_1_n_n 512 rfl rfl).symm k) = ix2 p k := funext fun a => Fin.ext (by
      match a with
      | ⟨0, _⟩ => exact lhs4_0 _ _
      | ⟨1, _⟩ => exact (lhs4_1 _ _).trans hk)
    have er : dot_S4096x512_S512x256_S4096x256_1_0_0_1_n_n.rhsIdx (ix2 p q) ((contrEquiv1 dot_S4096x512_S512x256_S4096x256_1_0_0_1_n_n 512 rfl rfl).symm k) = ix2 k q := funext fun a => Fin.ext (by
      match a with
      | ⟨0, _⟩ => exact (rhs4_0 _ _).trans hk
      | ⟨1, _⟩ => exact rhs4_1 _ _)
    rw [el, er, shapeCast_self]
    rfl
  · rw [shapeCast_self]
    refine broadcastTo_apply x2 _ (ix2 p q) (ix2 0 q) (fun a => ?_)
    match a with
    | ⟨0, _⟩ => rfl
    | ⟨1, _⟩ => rfl

/-! ## From the blocks to the array, at any contents V of the buffers when the launch is entered -/

variable (V : (c : Dev nD) → (b : Ref sig .tc) → Buf (Elt Ideal) ((c : Thread nD τ).loc b))

theorem hz4 : (![0, 0] : Fin 2 → Nat) = fun _ => 0 := funext fun a => by fin_cases a <;> rfl

/-- The rows of the launch's first array times its matrix, plus its bias row. -/
def rows4 (c : Dev nD) : S16384x256.Idx → EReal :=
  FlatRows.rowsTimes (M := 16384) (K := 512) (N := 256) (V c main_v23) (V c main_arg4) (V c main_v24)

/-- The printed index maps, decided over the grid: point t takes block t of rows of the first array and of the result,
    and the whole matrix and bias row. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

set_option maxHeartbeats 4000000 in
/-- What point t writes back is block t of the rows-times-matrix array. -/
theorem flushed4 (c : Dev nD) (t : Fin cfg4.N) :
    (dat4 V c).flushed 3 t = ((cfg4.win 3).blk t).view.read (Elt Ideal) (rows4 V c) := by
  show (cfg4.win 3).cut (grid4.coords t) ((dat4 V c).after 3 t) = _
  rw [after4_3]
  unfold out4_3
  rw [View.canon_unit_zero hz4]
  simp only [View.ld_unit_zero (S := S4096x512) hz4, View.ld_unit_zero (S := S512x256) hz4, View.ld_unit_zero (S := S1x256) hz4]
  obtain ⟨e00, e01, e10, e11, e20, e21, e30, e31⟩ := idx4 t
  funext y
  obtain ⟨p, q, rfl⟩ : ∃ (p : Fin 4096) (q : Fin 256), y = ix2 p q := ⟨y 0, y 1, eq_ix2 y⟩
  show k4_pay1 (iblk4 V c 0 t) (iblk4 V c 1 t) (iblk4 V c 2 t) (ix2 p q) = rows4 V c (((cfg4.win 3).blk t).view.emb (ix2 p q))
  refine (pay4_apply (iblk4 V c 0 t) (iblk4 V c 1 t) (iblk4 V c 2 t) p q).trans ?_
  have hr : ((((cfg4.win 3).blk t).view.emb (ix2 p q)) 0).val = t.val * 4096 + p.val := by
    show win4_3.index t (0 : Fin 2) * 4096 + 1 * p.val = _
    rw [e30]; omega
  have hc : ((((cfg4.win 3).blk t).view.emb (ix2 p q)) 1).val = q.val := by
    show win4_3.index t (1 : Fin 2) * 256 + 1 * q.val = _
    rw [e31]; omega
  unfold rows4 FlatRows.rowsTimes
  congr 1
  · refine Finset.sum_congr rfl fun k _ => ?_
    congr 1
    · show V c main_v23 (((cfg4.win 0).blk t).view.emb (ix2 p k)) = V c main_v23 _
      refine congrArg _ (funext fun a => Fin.ext ?_)
      match a with
      | ⟨0, _⟩ =>
        show win4_0.index t (0 : Fin 2) * 4096 + 1 * p.val = ((((cfg4.win 3).blk t).view.emb (ix2 p q)) 0).val
        rw [hr, e00]; omega
      | ⟨1, _⟩ =>
        show win4_0.index t (1 : Fin 2) * 512 + 1 * k.val = k.val
        rw [e01]; omega
    · show V c main_arg4 (((cfg4.win 1).blk t).view.emb (ix2 k q)) = V c main_arg4 _
      refine congrArg _ (funext fun a => Fin.ext ?_)
      match a with
      | ⟨0, _⟩ =>
        show win4_1.index t (0 : Fin 2) * 512 + 1 * k.val = k.val
        rw [e10]; omega
      | ⟨1, _⟩ =>
        show win4_1.index t (1 : Fin 2) * 256 + 1 * q.val = ((((cfg4.win 3).blk t).view.emb (ix2 p q)) 1).val
        rw [hc, e11]; omega
  · show V c main_v24 (((cfg4.win 2).blk t).view.emb (ix2 0 q)) = V c main_v24 _
    refine congrArg _ (funext fun a => Fin.ext ?_)
    match a with
    | ⟨0, _⟩ =>
      show win4_2.index t (0 : Fin 2) * 1 + 1 * 0 = 0
      rw [e20]
    | ⟨1, _⟩ =>
      show win4_2.index t (1 : Fin 2) * 256 + 1 * q.val = ((((cfg4.win 3).blk t).view.emb (ix2 p q)) 1).val
      rw [hc, e21]; omega

set_option maxHeartbeats 1000000 in
/-- The result array after the launch: row r is in the block of point r / 4096, so the blocks cover it and it holds the
    rows-times-matrix array. -/
theorem final4 (c : Dev nD) : (dat4 V c).arrAt 3 cfg4.N = rows4 V c :=
  (dat4 V c).arrAt_eq_of_cover 3 (rows4 V c) (fun t _ => flushed4 V c t) fun i => by
    have hN : cfg4.N = 4 := N_4
    have h0 : (i 0).val < 16384 := (i 0).isLt
    have h1 : (i 1).val < 256 := (i 1).isLt
    have ht : (i 0).val / 4096 < cfg4.N := by rw [hN]; omega
    obtain ⟨e00, e01, e10, e11, e20, e21, e30, e31⟩ := idx4 ⟨(i 0).val / 4096, ht⟩
    refine ⟨⟨(i 0).val / 4096, ht⟩, flush4_3 _, ?_⟩
    show i ∈ ((View.whole main_v25).slice (win4_3.rect ⟨(i 0).val / 4096, ht⟩)).set
    rw [View.set_slice_whole, Rect.mem_set_unit]
    intro a
    match a with
    | ⟨0, _⟩ =>
      show win4_3.index ⟨(i 0).val / 4096, ht⟩ (0 : Fin 2) * 4096 ≤ (i 0).val ∧ (i 0).val < win4_3.index ⟨(i 0).val / 4096, ht⟩ (0 : Fin 2) * 4096 + 4096
      rw [e30]; show (i 0).val / 4096 * 4096 ≤ (i 0).val ∧ (i 0).val < (i 0).val / 4096 * 4096 + 4096; omega
    | ⟨1, _⟩ =>
      show win4_3.index ⟨(i 0).val / 4096, ht⟩ (1 : Fin 2) * 256 ≤ (i 1).val ∧ (i 1).val < win4_3.index ⟨(i 0).val / 4096, ht⟩ (1 : Fin 2) * 256 + 256
      rw [e31]; omega

/-- The same on row-major lists: the result array's list is the linear layer of the three arrays' lists. -/
theorem final4_flat (c : Dev nD) :
    FlatRows.flat ((dat4 V c).arrAt 3 cfg4.N : S16384x256.Idx → EReal)
      = FlatRows.linRows 4194304 512 256 (FlatRows.flat (V c main_v23 : S16384x512.Idx → EReal))
          (FlatRows.flat (V c main_arg4 : S512x256.Idx → EReal)) (FlatRows.flat (V c main_v24 : S1x256.Idx → EReal)) := by
  rw [final4]
  unfold rows4
  rw [FlatRows.flat_rowsTimes, FlatRows.linRows_len (show (⟨2, ![16384, 256]⟩ : Shape).numel = 4194304 from by decide)]

end Cert.KernelIdeal.Rows

end
-- ==== Proof.Region5.lean ====
/-
  Launch 5 of the program: a linear layer, computed block of rows by block of rows.

  The launch's first array has 8192 rows of length 512; grid point t works on rows 4096·t … 4096·t + 4095: it multiplies
  that block of rows by the whole 512 × 256 matrix (the sum over the 512 columns; rounding the factors to a shorter
  float format changes nothing over the extended reals, and the accumulator starts at zero) and adds the bias row to
  every row. So what point t writes back is block t of ONE array, the rows of the first array times the matrix plus
  the bias row; the blocks of the 2 points tile the result array (row r is in the block of point r / 4096), so the
  result array ends holding exactly that.
-/
import proofs.«125268_j50311246905374_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«125268_j50311246905374_2_alg».proof.Proof.LibFlatRows

set_option maxRecDepth 16384

noncomputable section

open scoped BigOperators

namespace Cert.KernelIdeal.Rows

open Cert.KernelIdeal Cert.KernelIdeal.Gen Idealize.ShloMosaic Idealize.ShloMosaic.ValueIdx Idealize.ShloMosaic.TcCoe Idealize.SL.Sem
open Idealize.ShloMosaic.Pipeline (Dat)

/-! ## The matrix product's operand indices: entry (p, q) of the product reads row p of the left operand and column q of
the right one, along the one contracted axis -/

theorem lhs5_0 (i : S4096x256.Idx) (q : dot_S4096x512_S512x256_S4096x256_1_0_0_1_n_n.contr.Idx) : (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide), dif_pos (show (0 : Fin S4096x512.rank) ∈ dot_S4096x512_S512x256_S4096x256_1_0_0_1_n_n.lhsNonContracting by decide)]
  rfl
theorem lhs5_1 (i : S4096x256.Idx) (q : dot_S4096x512_S512x256_S4096x256_1_0_0_1_n_n.contr.Idx) : (dot_S4096x512_S512x256_S4096x256_1_0_0_1_n_n.lhsIdx i q 1).val = (q ⟨0, by decide⟩).val :=
  dot_S4096x512_S512x256_S4096x256_1_0_0_1_n_n.lhsIdx_val_of_single rfl i q
theorem rhs5_0 (i : S4096x256.Idx) (q : dot_S4096x512_S512x256_S4096x256_1_0_0_1_n_n.contr.Idx) : (dot_S4096x512_S512x256_S4096x256_1_0_0_1_n_n.rhsIdx i q 0).val = (q ⟨0, by decide⟩).val :=
  dot_S4096x512_S512x256_S4096x256_1_0_0_1_n_n.rhsIdx_val_of_single rfl i q
theorem rhs5_1 (i : S4096x256.Idx) (q : dot_S4096x512_S512x256_S4096x256_1_0_0_1_n_n.contr.Idx) : (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide), dif_pos (show (1 : Fin S512x256.rank) ∈ dot_S4096x512_S512x256_S4096x256_1_0_0_1_n_n.rhsNonContracting by decide)]
  rfl

/-- What the body stores, entry by entry: row p of the block of rows times column q of the matrix, plus entry q of the
    bias row. -/
theorem pay5_apply (x0 : Vec Ideal S4096x512 .f32) (x1 : Vec Ideal S512x256 .f32) (x2 : Vec Ideal S1x256 .f32) (p : Fin 4096) (q : Fin 256) :
    k5_pay1 (F := Ideal) x0 x1 x2 (ix2 p q)
      = (∑ k : Fin 512, x0 (ix2 p k) * x1 (ix2 k q)) + x2 (ix2 0 q) := by
  unfold k5_pay1
  refine (addf_apply _ _ _).trans ?_
  congr 1
  · refine (Ideal.matmul_constant_zero_apply dot_S4096x512_S512x256_S4096x256_1_0_0_1_n_n none _ _ _).trans ?_
    rw [← Equiv.sum_comp (contrEquiv1 dot_S4096x512_S512x256_S4096x256_1_0_0_1_n_n 512 rfl rfl).symm]
    refine Finset.sum_congr rfl fun k _ => ?_
    have hk := contrEquiv1_symm_val dot_S4096x512_S512x256_S4096x256_1_0_0_1_n_n 512 rfl rfl k
    have el : dot_S4096x512_S512x256_S4096x256_1_0_0_1_n_n.lhsIdx (ix2 p q) ((contrEquiv1 dot_S4096x512_S512x256_S4096x256_1_0_0_1_n_n 512 rfl rfl).symm k) = ix2 p k := funext fun a => Fin.ext (by
      match a with
      | ⟨0, _⟩ => exact lhs5_0 _ _
      | ⟨1, _⟩ => exact (lhs5_1 _ _).trans hk)
    have er : dot_S4096x512_S512x256_S4096x256_1_0_0_1_n_n.rhsIdx (ix2 p q) ((contrEquiv1 dot_S4096x512_S512x256_S4096x256_1_0_0_1_n_n 512 rfl rfl).symm k) = ix2 k q := funext fun a => Fin.ext (by
      match a with
      | ⟨0, _⟩ => exact (rhs5_0 _ _).trans hk
      | ⟨1, _⟩ => exact rhs5_1 _ _)
    rw [el, er, shapeCast_self]
    rfl
  · rw [shapeCast_self]
    refine broadcastTo_apply x2 _ (ix2 p q) (ix2 0 q) (fun a => ?_)
    match a with
    | ⟨0, _⟩ => rfl
    | ⟨1, _⟩ => rfl

/-! ## From the blocks to the array, at any contents V of the buffers when the launch is entered -/

variable (V : (c : Dev nD) → (b : Ref sig .tc) → Buf (Elt Ideal) ((c : Thread nD τ).loc b))

theorem hz5 : (![0, 0] : Fin 2 → Nat) = fun _ => 0 := funext fun a => by fin_cases a <;> rfl

/-- The rows of the launch's first array times its matrix, plus its bias row. -/
def rows5 (c : Dev nD) : S8192x256.Idx → EReal :=
  FlatRows.rowsTimes (M := 8192) (K := 512) (N := 256) (V c main_v27) (V c main_arg4) (V c main_v28)

/-- The printed index maps, decided over the grid: point t takes block t of rows of the first array and of the result,
    and the whole matrix and bias row. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

set_option maxHeartbeats 4000000 in
/-- What point t writes back is block t of the rows-times-matrix array. -/
theorem flushed5 (c : Dev nD) (t : Fin cfg5.N) :
    (dat5 V c).flushed 3 t = ((cfg5.win 3).blk t).view.read (Elt Ideal) (rows5 V c) := by
  show (cfg5.win 3).cut (grid5.coords t) ((dat5 V c).after 3 t) = _
  rw [after5_3]
  unfold out5_3
  rw [View.canon_unit_zero hz5]
  simp only [View.ld_unit_zero (S := S4096x512) hz5, View.ld_unit_zero (S := S512x256) hz5, View.ld_unit_zero (S := S1x256) hz5]
  obtain ⟨e00, e01, e10, e11, e20, e21, e30, e31⟩ := idx5 t
  funext y
  obtain ⟨p, q, rfl⟩ : ∃ (p : Fin 4096) (q : Fin 256), y = ix2 p q := ⟨y 0, y 1, eq_ix2 y⟩
  show k5_pay1 (iblk5 V c 0 t) (iblk5 V c 1 t) (iblk5 V c 2 t) (ix2 p q) = rows5 V c (((cfg5.win 3).blk t).view.emb (ix2 p q))
  refine (pay5_apply (iblk5 V c 0 t) (iblk5 V c 1 t) (iblk5 V c 2 t) p q).trans ?_
  have hr : ((((cfg5.win 3).blk t).view.emb (ix2 p q)) 0).val = t.val * 4096 + p.val := by
    show win5_3.index t (0 : Fin 2) * 4096 + 1 * p.val = _
    rw [e30]; omega
  have hc : ((((cfg5.win 3).blk t).view.emb (ix2 p q)) 1).val = q.val := by
    show win5_3.index t (1 : Fin 2) * 256 + 1 * q.val = _
    rw [e31]; omega
  unfold rows5 FlatRows.rowsTimes
  congr 1
  · refine Finset.sum_congr rfl fun k _ => ?_
    congr 1
    · show V c main_v27 (((cfg5.win 0).blk t).view.emb (ix2 p k)) = V c main_v27 _
      refine congrArg _ (funext fun a => Fin.ext ?_)
      match a with
      | ⟨0, _⟩ =>
        show win5_0.index t (0 : Fin 2) * 4096 + 1 * p.val = ((((cfg5.win 3).blk t).view.emb (ix2 p q)) 0).val
        rw [hr, e00]; omega
      | ⟨1, _⟩ =>
        show win5_0.index t (1 : Fin 2) * 512 + 1 * k.val = k.val
        rw [e01]; omega
    · show V c main_arg4 (((cfg5.win 1).blk t).view.emb (ix2 k q)) = V c main_arg4 _
      refine congrArg _ (funext fun a => Fin.ext ?_)
      match a with
      | ⟨0, _⟩ =>
        show win5_1.index t (0 : Fin 2) * 512 + 1 * k.val = k.val
        rw [e10]; omega
      | ⟨1, _⟩ =>
        show win5_1.index t (1 : Fin 2) * 256 + 1 * q.val = ((((cfg5.win 3).blk t).view.emb (ix2 p q)) 1).val
        rw [hc, e11]; omega
  · show V c main_v28 (((cfg5.win 2).blk t).view.emb (ix2 0 q)) = V c main_v28 _
    refine congrArg _ (funext fun a => Fin.ext ?_)
    match a with
    | ⟨0, _⟩ =>
      show win5_2.index t (0 : Fin 2) * 1 + 1 * 0 = 0
      rw [e20]
    | ⟨1, _⟩ =>
      show win5_2.index t (1 : Fin 2) * 256 + 1 * q.val = ((((cfg5.win 3).blk t).view.emb (ix2 p q)) 1).val
      rw [hc, e21]; omega

set_option maxHeartbeats 1000000 in
/-- The result array after the launch: row r is in the block of point r / 4096, so the blocks cover it and it holds the
    rows-times-matrix array. -/
theorem final5 (c : Dev nD) : (dat5 V c).arrAt 3 cfg5.N = rows5 V c :=
  (dat5 V c).arrAt_eq_of_cover 3 (rows5 V c) (fun t _ => flushed5 V c t) fun i => by
    have hN : cfg5.N = 2 := N_5
    have h0 : (i 0).val < 8192 := (i 0).isLt
    have h1 : (i 1).val < 256 := (i 1).isLt
    have ht : (i 0).val / 4096 < cfg5.N := by rw [hN]; omega
    obtain ⟨e00, e01, e10, e11, e20, e21, e30, e31⟩ := idx5 ⟨(i 0).val / 4096, ht⟩
    refine ⟨⟨(i 0).val / 4096, ht⟩, flush5_3 _, ?_⟩
    show i ∈ ((View.whole main_v29).slice (win5_3.rect ⟨(i 0).val / 4096, ht⟩)).set
    rw [View.set_slice_whole, Rect.mem_set_unit]
    intro a
    match a with
    | ⟨0, _⟩ =>
      show win5_3.index ⟨(i 0).val / 4096, ht⟩ (0 : Fin 2) * 4096 ≤ (i 0).val ∧ (i 0).val < win5_3.index ⟨(i 0).val / 4096, ht⟩ (0 : Fin 2) * 4096 + 4096
      rw [e30]; show (i 0).val / 4096 * 4096 ≤ (i 0).val ∧ (i 0).val < (i 0).val / 4096 * 4096 + 4096; omega
    | ⟨1, _⟩ =>
      show win5_3.index ⟨(i 0).val / 4096, ht⟩ (1 : Fin 2) * 256 ≤ (i 1).val ∧ (i 1).val < win5_3.index ⟨(i 0).val / 4096, ht⟩ (1 : Fin 2) * 256 + 256
      rw [e31]; omega

/-- The same on row-major lists: the result array's list is the linear layer of the three arrays' lists. -/
theorem final5_flat (c : Dev nD) :
    FlatRows.flat ((dat5 V c).arrAt 3 cfg5.N : S8192x256.Idx → EReal)
      = FlatRows.linRows 2097152 512 256 (FlatRows.flat (V c main_v27 : S8192x512.Idx → EReal))
          (FlatRows.flat (V c main_arg4 : S512x256.Idx → EReal)) (FlatRows.flat (V c main_v28 : S1x256.Idx → EReal)) := by
  rw [final5]
  unfold rows5
  rw [FlatRows.flat_rowsTimes, FlatRows.linRows_len (show (⟨2, ![8192, 256]⟩ : Shape).numel = 2097152 from by decide)]

end Cert.KernelIdeal.Rows

end
-- ==== Proof.Region6.lean ====
/-
  Launch 6 of the program: a linear layer, computed block of rows by block of rows.

  The launch's first array has 4096 rows of length 512; grid point t works on rows 2048·t … 2048·t + 2047: it multiplies
  that block of rows by the whole 512 × 256 matrix (the sum over the 512 columns; rounding the factors to a shorter
  float format changes nothing over the extended reals, and the accumulator starts at zero) and adds the bias row to
  every row. So what point t writes back is block t of ONE array, the rows of the first array times the matrix plus
  the bias row; the blocks of the 2 points tile the result array (row r is in the block of point r / 2048), so the
  result array ends holding exactly that.
-/
import proofs.«125268_j50311246905374_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«125268_j50311246905374_2_alg».proof.Proof.LibFlatRows

set_option maxRecDepth 16384

noncomputable section

open scoped BigOperators

namespace Cert.KernelIdeal.Rows

open Cert.KernelIdeal Cert.KernelIdeal.Gen Idealize.ShloMosaic Idealize.ShloMosaic.ValueIdx Idealize.ShloMosaic.TcCoe Idealize.SL.Sem
open Idealize.ShloMosaic.Pipeline (Dat)

/-! ## The matrix product's operand indices: entry (p, q) of the product reads row p of the left operand and column q of
the right one, along the one contracted axis -/

theorem lhs6_0 (i : S2048x256.Idx) (q : dot_S2048x512_S512x256_S2048x256_1_0_0_1_n_n.contr.Idx) : (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs6_1 (i : S2048x256.Idx) (q : dot_S2048x512_S512x256_S2048x256_1_0_0_1_n_n.contr.Idx) : (dot_S2048x512_S512x256_S2048x256_1_0_0_1_n_n.lhsIdx i q 1).val = (q ⟨0, by decide⟩).val :=
  dot_S2048x512_S512x256_S2048x256_1_0_0_1_n_n.lhsIdx_val_of_single rfl i q
theorem rhs6_0 (i : S2048x256.Idx) (q : dot_S2048x512_S512x256_S2048x256_1_0_0_1_n_n.contr.Idx) : (dot_S2048x512_S512x256_S2048x256_1_0_0_1_n_n.rhsIdx i q 0).val = (q ⟨0, by decide⟩).val :=
  dot_S2048x512_S512x256_S2048x256_1_0_0_1_n_n.rhsIdx_val_of_single rfl i q
theorem rhs6_1 (i : S2048x256.Idx) (q : dot_S2048x512_S512x256_S2048x256_1_0_0_1_n_n.contr.Idx) : (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- What the body stores, entry by entry: row p of the block of rows times column q of the matrix, plus entry q of the
    bias row. -/
theorem pay6_apply (x0 : Vec Ideal S2048x512 .f32) (x1 : Vec Ideal S512x256 .f32) (x2 : Vec Ideal S1x256 .f32) (p : Fin 2048) (q : Fin 256) :
    k6_pay1 (F := Ideal) x0 x1 x2 (ix2 p q)
      = (∑ k : Fin 512, x0 (ix2 p k) * x1 (ix2 k q)) + x2 (ix2 0 q) := by
  unfold k6_pay1
  refine (addf_apply _ _ _).trans ?_
  congr 1
  · refine (Ideal.matmul_constant_zero_apply dot_S2048x512_S512x256_S2048x256_1_0_0_1_n_n none _ _ _).trans ?_
    rw [← Equiv.sum_comp (contrEquiv1 dot_S2048x512_S512x256_S2048x256_1_0_0_1_n_n 512 rfl rfl).symm]
    refine Finset.sum_congr rfl fun k _ => ?_
    have hk := contrEquiv1_symm_val dot_S2048x512_S512x256_S2048x256_1_0_0_1_n_n 512 rfl rfl k
    have el : dot_S2048x512_S512x256_S2048x256_1_0_0_1_n_n.lhsIdx (ix2 p q) ((contrEquiv1 dot_S2048x512_S512x256_S2048x256_1_0_0_1_n_n 512 rfl rfl).symm k) = ix2 p k := funext fun a => Fin.ext (by
      match a with
      | ⟨0, _⟩ => exact lhs6_0 _ _
      | ⟨1, _⟩ => exact (lhs6_1 _ _).trans hk)
    have er : dot_S2048x512_S512x256_S2048x256_1_0_0_1_n_n.rhsIdx (ix2 p q) ((contrEquiv1 dot_S2048x512_S512x256_S2048x256_1_0_0_1_n_n 512 rfl rfl).symm k) = ix2 k q := funext fun a => Fin.ext (by
      match a with
      | ⟨0, _⟩ => exact (rhs6_0 _ _).trans hk
      | ⟨1, _⟩ => exact rhs6_1 _ _)
    rw [el, er, shapeCast_self]
    rfl
  · rw [shapeCast_self]
    refine broadcastTo_apply x2 _ (ix2 p q) (ix2 0 q) (fun a => ?_)
    match a with
    | ⟨0, _⟩ => rfl
    | ⟨1, _⟩ => rfl

/-! ## From the blocks to the array, at any contents V of the buffers when the launch is entered -/

variable (V : (c : Dev nD) → (b : Ref sig .tc) → Buf (Elt Ideal) ((c : Thread nD τ).loc b))

theorem hz6 : (![0, 0] : Fin 2 → Nat) = fun _ => 0 := funext fun a => by fin_cases a <;> rfl

/-- The rows of the launch's first array times its matrix, plus its bias row. -/
def rows6 (c : Dev nD) : S4096x256.Idx → EReal :=
  FlatRows.rowsTimes (M := 4096) (K := 512) (N := 256) (V c main_v31) (V c main_arg4) (V c main_v32)

/-- The printed index maps, decided over the grid: point t takes block t of rows of the first array and of the result,
    and the whole matrix and bias row. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

set_option maxHeartbeats 4000000 in
/-- What point t writes back is block t of the rows-times-matrix array. -/
theorem flushed6 (c : Dev nD) (t : Fin cfg6.N) :
    (dat6 V c).flushed 3 t = ((cfg6.win 3).blk t).view.read (Elt Ideal) (rows6 V c) := by
  show (cfg6.win 3).cut (grid6.coords t) ((dat6 V c).after 3 t) = _
  rw [after6_3]
  unfold out6_3
  rw [View.canon_unit_zero hz6]
  simp only [View.ld_unit_zero (S := S2048x512) hz6, View.ld_unit_zero (S := S512x256) hz6, View.ld_unit_zero (S := S1x256) hz6]
  obtain ⟨e00, e01, e10, e11, e20, e21, e30, e31⟩ := idx6 t
  funext y
  obtain ⟨p, q, rfl⟩ : ∃ (p : Fin 2048) (q : Fin 256), y = ix2 p q := ⟨y 0, y 1, eq_ix2 y⟩
  show k6_pay1 (iblk6 V c 0 t) (iblk6 V c 1 t) (iblk6 V c 2 t) (ix2 p q) = rows6 V c (((cfg6.win 3).blk t).view.emb (ix2 p q))
  refine (pay6_apply (iblk6 V c 0 t) (iblk6 V c 1 t) (iblk6 V c 2 t) p q).trans ?_
  have hr : ((((cfg6.win 3).blk t).view.emb (ix2 p q)) 0).val = t.val * 2048 + p.val := by
    show win6_3.index t (0 : Fin 2) * 2048 + 1 * p.val = _
    rw [e30]; omega
  have hc : ((((cfg6.win 3).blk t).view.emb (ix2 p q)) 1).val = q.val := by
    show win6_3.index t (1 : Fin 2) * 256 + 1 * q.val = _
    rw [e31]; omega
  unfold rows6 FlatRows.rowsTimes
  congr 1
  · refine Finset.sum_congr rfl fun k _ => ?_
    congr 1
    · show V c main_v31 (((cfg6.win 0).blk t).view.emb (ix2 p k)) = V c main_v31 _
      refine congrArg _ (funext fun a => Fin.ext ?_)
      match a with
      | ⟨0, _⟩ =>
        show win6_0.index t (0 : Fin 2) * 2048 + 1 * p.val = ((((cfg6.win 3).blk t).view.emb (ix2 p q)) 0).val
        rw [hr, e00]; omega
      | ⟨1, _⟩ =>
        show win6_0.index t (1 : Fin 2) * 512 + 1 * k.val = k.val
        rw [e01]; omega
    · show V c main_arg4 (((cfg6.win 1).blk t).view.emb (ix2 k q)) = V c main_arg4 _
      refine congrArg _ (funext fun a => Fin.ext ?_)
      match a with
      | ⟨0, _⟩ =>
        show win6_1.index t (0 : Fin 2) * 512 + 1 * k.val = k.val
        rw [e10]; omega
      | ⟨1, _⟩ =>
        show win6_1.index t (1 : Fin 2) * 256 + 1 * q.val = ((((cfg6.win 3).blk t).view.emb (ix2 p q)) 1).val
        rw [hc, e11]; omega
  · show V c main_v32 (((cfg6.win 2).blk t).view.emb (ix2 0 q)) = V c main_v32 _
    refine congrArg _ (funext fun a => Fin.ext ?_)
    match a with
    | ⟨0, _⟩ =>
      show win6_2.index t (0 : Fin 2) * 1 + 1 * 0 = 0
      rw [e20]
    | ⟨1, _⟩ =>
      show win6_2.index t (1 : Fin 2) * 256 + 1 * q.val = ((((cfg6.win 3).blk t).view.emb (ix2 p q)) 1).val
      rw [hc, e21]; omega

set_option maxHeartbeats 1000000 in
/-- The result array after the launch: row r is in the block of point r / 2048, so the blocks cover it and it holds the
    rows-times-matrix array. -/
theorem final6 (c : Dev nD) : (dat6 V c).arrAt 3 cfg6.N = rows6 V c :=
  (dat6 V c).arrAt_eq_of_cover 3 (rows6 V c) (fun t _ => flushed6 V c t) fun i => by
    have hN : cfg6.N = 2 := N_6
    have h0 : (i 0).val < 4096 := (i 0).isLt
    have h1 : (i 1).val < 256 := (i 1).isLt
    have ht : (i 0).val / 2048 < cfg6.N := by rw [hN]; omega
    obtain ⟨e00, e01, e10, e11, e20, e21, e30, e31⟩ := idx6 ⟨(i 0).val / 2048, ht⟩
    refine ⟨⟨(i 0).val / 2048, ht⟩, flush6_3 _, ?_⟩
    show i ∈ ((View.whole main_v33).slice (win6_3.rect ⟨(i 0).val / 2048, ht⟩)).set
    rw [View.set_slice_whole, Rect.mem_set_unit]
    intro a
    match a with
    | ⟨0, _⟩ =>
      show win6_3.index ⟨(i 0).val / 2048, ht⟩ (0 : Fin 2) * 2048 ≤ (i 0).val ∧ (i 0).val < win6_3.index ⟨(i 0).val / 2048, ht⟩ (0 : Fin 2) * 2048 + 2048
      rw [e30]; show (i 0).val / 2048 * 2048 ≤ (i 0).val ∧ (i 0).val < (i 0).val / 2048 * 2048 + 2048; omega
    | ⟨1, _⟩ =>
      show win6_3.index ⟨(i 0).val / 2048, ht⟩ (1 : Fin 2) * 256 ≤ (i 1).val ∧ (i 1).val < win6_3.index ⟨(i 0).val / 2048, ht⟩ (1 : Fin 2) * 256 + 256
      rw [e31]; omega

/-- The same on row-major lists: the result array's list is the linear layer of the three arrays' lists. -/
theorem final6_flat (c : Dev nD) :
    FlatRows.flat ((dat6 V c).arrAt 3 cfg6.N : S4096x256.Idx → EReal)
      = FlatRows.linRows 1048576 512 256 (FlatRows.flat (V c main_v31 : S4096x512.Idx → EReal))
          (FlatRows.flat (V c main_arg4 : S512x256.Idx → EReal)) (FlatRows.flat (V c main_v32 : S1x256.Idx → EReal)) := by
  rw [final6]
  unfold rows6
  rw [FlatRows.flat_rowsTimes, FlatRows.linRows_len (show (⟨2, ![4096, 256]⟩ : Shape).numel = 1048576 from by decide)]

end Cert.KernelIdeal.Rows

end
-- ==== Proof.Region7.lean ====
/-
  Launch 7 of the program: a linear layer, computed block of rows by block of rows.

  The launch's first array has 2048 rows of length 512; grid point t works on rows 1024·t … 1024·t + 1023: it multiplies
  that block of rows by the whole 512 × 256 matrix (the sum over the 512 columns; rounding the factors to a shorter
  float format changes nothing over the extended reals, and the accumulator starts at zero) and adds the bias row to
  every row. So what point t writes back is block t of ONE array, the rows of the first array times the matrix plus
  the bias row; the blocks of the 2 points tile the result array (row r is in the block of point r / 1024), so the
  result array ends holding exactly that.
-/
import proofs.«125268_j50311246905374_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«125268_j50311246905374_2_alg».proof.Proof.LibFlatRows

set_option maxRecDepth 16384

noncomputable section

open scoped BigOperators

namespace Cert.KernelIdeal.Rows

open Cert.KernelIdeal Cert.KernelIdeal.Gen Idealize.ShloMosaic Idealize.ShloMosaic.ValueIdx Idealize.ShloMosaic.TcCoe Idealize.SL.Sem
open Idealize.ShloMosaic.Pipeline (Dat)

/-! ## The matrix product's operand indices: entry (p, q) of the product reads row p of the left operand and column q of
the right one, along the one contracted axis -/

theorem lhs7_0 (i : S1024x256.Idx) (q : dot_S1024x512_S512x256_S1024x256_1_0_0_1_n_n.contr.Idx) : (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem lhs7_1 (i : S1024x256.Idx) (q : dot_S1024x512_S512x256_S1024x256_1_0_0_1_n_n.contr.Idx) : (dot_S1024x512_S512x256_S1024x256_1_0_0_1_n_n.lhsIdx i q 1).val = (q ⟨0, by decide⟩).val :=
  dot_S1024x512_S512x256_S1024x256_1_0_0_1_n_n.lhsIdx_val_of_single rfl i q
theorem rhs7_0 (i : S1024x256.Idx) (q : dot_S1024x512_S512x256_S1024x256_1_0_0_1_n_n.contr.Idx) : (dot_S1024x512_S512x256_S1024x256_1_0_0_1_n_n.rhsIdx i q 0).val = (q ⟨0, by decide⟩).val :=
  dot_S1024x512_S512x256_S1024x256_1_0_0_1_n_n.rhsIdx_val_of_single rfl i q
theorem rhs7_1 (i : S1024x256.Idx) (q : dot_S1024x512_S512x256_S1024x256_1_0_0_1_n_n.contr.Idx) : (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- What the body stores, entry by entry: row p of the block of rows times column q of the matrix, plus entry q of the
    bias row. -/
theorem pay7_apply (x0 : Vec Ideal S1024x512 .f32) (x1 : Vec Ideal S512x256 .f32) (x2 : Vec Ideal S1x256 .f32) (p : Fin 1024) (q : Fin 256) :
    k7_pay1 (F := Ideal) x0 x1 x2 (ix2 p q)
      = (∑ k : Fin 512, x0 (ix2 p k) * x1 (ix2 k q)) + x2 (ix2 0 q) := by
  unfold k7_pay1
  refine (addf_apply _ _ _).trans ?_
  congr 1
  · refine (Ideal.matmul_constant_zero_apply dot_S1024x512_S512x256_S1024x256_1_0_0_1_n_n none _ _ _).trans ?_
    rw [← Equiv.sum_comp (contrEquiv1 dot_S1024x512_S512x256_S1024x256_1_0_0_1_n_n 512 rfl rfl).symm]
    refine Finset.sum_congr rfl fun k _ => ?_
    have hk := contrEquiv1_symm_val dot_S1024x512_S512x256_S1024x256_1_0_0_1_n_n 512 rfl rfl k
    have el : dot_S1024x512_S512x256_S1024x256_1_0_0_1_n_n.lhsIdx (ix2 p q) ((contrEquiv1 dot_S1024x512_S512x256_S1024x256_1_0_0_1_n_n 512 rfl rfl).symm k) = ix2 p k := funext fun a => Fin.ext (by
      match a with
      | ⟨0, _⟩ => exact lhs7_0 _ _
      | ⟨1, _⟩ => exact (lhs7_1 _ _).trans hk)
    have er : dot_S1024x512_S512x256_S1024x256_1_0_0_1_n_n.rhsIdx (ix2 p q) ((contrEquiv1 dot_S1024x512_S512x256_S1024x256_1_0_0_1_n_n 512 rfl rfl).symm k) = ix2 k q := funext fun a => Fin.ext (by
      match a with
      | ⟨0, _⟩ => exact (rhs7_0 _ _).trans hk
      | ⟨1, _⟩ => exact rhs7_1 _ _)
    rw [el, er, shapeCast_self]
    rfl
  · rw [shapeCast_self]
    refine broadcastTo_apply x2 _ (ix2 p q) (ix2 0 q) (fun a => ?_)
    match a with
    | ⟨0, _⟩ => rfl
    | ⟨1, _⟩ => rfl

/-! ## From the blocks to the array, at any contents V of the buffers when the launch is entered -/

variable (V : (c : Dev nD) → (b : Ref sig .tc) → Buf (Elt Ideal) ((c : Thread nD τ).loc b))

theorem hz7 : (![0, 0] : Fin 2 → Nat) = fun _ => 0 := funext fun a => by fin_cases a <;> rfl

/-- The rows of the launch's first array times its matrix, plus its bias row. -/
def rows7 (c : Dev nD) : S2048x256.Idx → EReal :=
  FlatRows.rowsTimes (M := 2048) (K := 512) (N := 256) (V c main_v35) (V c main_arg4) (V c main_v36)

/-- The printed index maps, decided over the grid: point t takes block t of rows of the first array and of the result,
    and the whole matrix and bias row. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

set_option maxHeartbeats 4000000 in
/-- What point t writes back is block t of the rows-times-matrix array. -/
theorem flushed7 (c : Dev nD) (t : Fin cfg7.N) :
    (dat7 V c).flushed 3 t = ((cfg7.win 3).blk t).view.read (Elt Ideal) (rows7 V c) := by
  show (cfg7.win 3).cut (grid7.coords t) ((dat7 V c).after 3 t) = _
  rw [after7_3]
  unfold out7_3
  rw [View.canon_unit_zero hz7]
  simp only [View.ld_unit_zero (S := S1024x512) hz7, View.ld_unit_zero (S := S512x256) hz7, View.ld_unit_zero (S := S1x256) hz7]
  obtain ⟨e00, e01, e10, e11, e20, e21, e30, e31⟩ := idx7 t
  funext y
  obtain ⟨p, q, rfl⟩ : ∃ (p : Fin 1024) (q : Fin 256), y = ix2 p q := ⟨y 0, y 1, eq_ix2 y⟩
  show k7_pay1 (iblk7 V c 0 t) (iblk7 V c 1 t) (iblk7 V c 2 t) (ix2 p q) = rows7 V c (((cfg7.win 3).blk t).view.emb (ix2 p q))
  refine (pay7_apply (iblk7 V c 0 t) (iblk7 V c 1 t) (iblk7 V c 2 t) p q).trans ?_
  have hr : ((((cfg7.win 3).blk t).view.emb (ix2 p q)) 0).val = t.val * 1024 + p.val := by
    show win7_3.index t (0 : Fin 2) * 1024 + 1 * p.val = _
    rw [e30]; omega
  have hc : ((((cfg7.win 3).blk t).view.emb (ix2 p q)) 1).val = q.val := by
    show win7_3.index t (1 : Fin 2) * 256 + 1 * q.val = _
    rw [e31]; omega
  unfold rows7 FlatRows.rowsTimes
  congr 1
  · refine Finset.sum_congr rfl fun k _ => ?_
    congr 1
    · show V c main_v35 (((cfg7.win 0).blk t).view.emb (ix2 p k)) = V c main_v35 _
      refine congrArg _ (funext fun a => Fin.ext ?_)
      match a with
      | ⟨0, _⟩ =>
        show win7_0.index t (0 : Fin 2) * 1024 + 1 * p.val = ((((cfg7.win 3).blk t).view.emb (ix2 p q)) 0).val
        rw [hr, e00]; omega
      | ⟨1, _⟩ =>
        show win7_0.index t (1 : Fin 2) * 512 + 1 * k.val = k.val
        rw [e01]; omega
    · show V c main_arg4 (((cfg7.win 1).blk t).view.emb (ix2 k q)) = V c main_arg4 _
      refine congrArg _ (funext fun a => Fin.ext ?_)
      match a with
      | ⟨0, _⟩ =>
        show win7_1.index t (0 : Fin 2) * 512 + 1 * k.val = k.val
        rw [e10]; omega
      | ⟨1, _⟩ =>
        show win7_1.index t (1 : Fin 2) * 256 + 1 * q.val = ((((cfg7.win 3).blk t).view.emb (ix2 p q)) 1).val
        rw [hc, e11]; omega
  · show V c main_v36 (((cfg7.win 2).blk t).view.emb (ix2 0 q)) = V c main_v36 _
    refine congrArg _ (funext fun a => Fin.ext ?_)
    match a with
    | ⟨0, _⟩ =>
      show win7_2.index t (0 : Fin 2) * 1 + 1 * 0 = 0
      rw [e20]
    | ⟨1, _⟩ =>
      show win7_2.index t (1 : Fin 2) * 256 + 1 * q.val = ((((cfg7.win 3).blk t).view.emb (ix2 p q)) 1).val
      rw [hc, e21]; omega

set_option maxHeartbeats 1000000 in
/-- The result array after the launch: row r is in the block of point r / 1024, so the blocks cover it and it holds the
    rows-times-matrix array. -/
theorem final7 (c : Dev nD) : (dat7 V c).arrAt 3 cfg7.N = rows7 V c :=
  (dat7 V c).arrAt_eq_of_cover 3 (rows7 V c) (fun t _ => flushed7 V c t) fun i => by
    have hN : cfg7.N = 2 := N_7
    have h0 : (i 0).val < 2048 := (i 0).isLt
    have h1 : (i 1).val < 256 := (i 1).isLt
    have ht : (i 0).val / 1024 < cfg7.N := by rw [hN]; omega
    obtain ⟨e00, e01, e10, e11, e20, e21, e30, e31⟩ := idx7 ⟨(i 0).val / 1024, ht⟩
    refine ⟨⟨(i 0).val / 1024, ht⟩, flush7_3 _, ?_⟩
    show i ∈ ((View.whole main_v37).slice (win7_3.rect ⟨(i 0).val / 1024, ht⟩)).set
    rw [View.set_slice_whole, Rect.mem_set_unit]
    intro a
    match a with
    | ⟨0, _⟩ =>
      show win7_3.index ⟨(i 0).val / 1024, ht⟩ (0 : Fin 2) * 1024 ≤ (i 0).val ∧ (i 0).val < win7_3.index ⟨(i 0).val / 1024, ht⟩ (0 : Fin 2) * 1024 + 1024
      rw [e30]; show (i 0).val / 1024 * 1024 ≤ (i 0).val ∧ (i 0).val < (i 0).val / 1024 * 1024 + 1024; omega
    | ⟨1, _⟩ =>
      show win7_3.index ⟨(i 0).val / 1024, ht⟩ (1 : Fin 2) * 256 ≤ (i 1).val ∧ (i 1).val < win7_3.index ⟨(i 0).val / 1024, ht⟩ (1 : Fin 2) * 256 + 256
      rw [e31]; omega

/-- The same on row-major lists: the result array's list is the linear layer of the three arrays' lists. -/
theorem final7_flat (c : Dev nD) :
    FlatRows.flat ((dat7 V c).arrAt 3 cfg7.N : S2048x256.Idx → EReal)
      = FlatRows.linRows 524288 512 256 (FlatRows.flat (V c main_v35 : S2048x512.Idx → EReal))
          (FlatRows.flat (V c main_arg4 : S512x256.Idx → EReal)) (FlatRows.flat (V c main_v36 : S1x256.Idx → EReal)) := by
  rw [final7]
  unfold rows7
  rw [FlatRows.flat_rowsTimes, FlatRows.linRows_len (show (⟨2, ![2048, 256]⟩ : Shape).numel = 524288 from by decide)]

end Cert.KernelIdeal.Rows

end
-- ==== Proof.Region8.lean ====
/-
  Launch 8 of the program: a linear layer, computed block of rows by block of rows.

  The launch's first array has 1024 rows of length 512; grid point t works on rows 512·t … 512·t + 511: it multiplies
  that block of rows by the whole 512 × 256 matrix (the sum over the 512 columns; rounding the factors to a shorter
  float format changes nothing over the extended reals, and the accumulator starts at zero) and adds the bias row to
  every row. So what point t writes back is block t of ONE array, the rows of the first array times the matrix plus
  the bias row; the blocks of the 2 points tile the result array (row r is in the block of point r / 512), so the
  result array ends holding exactly that.
-/
import proofs.«125268_j50311246905374_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«125268_j50311246905374_2_alg».proof.Proof.LibFlatRows

set_option maxRecDepth 16384

noncomputable section

open scoped BigOperators

namespace Cert.KernelIdeal.Rows

open Cert.KernelIdeal Cert.KernelIdeal.Gen Idealize.ShloMosaic Idealize.ShloMosaic.ValueIdx Idealize.ShloMosaic.TcCoe Idealize.SL.Sem
open Idealize.ShloMosaic.Pipeline (Dat)

/-! ## The matrix product's operand indices: entry (p, q) of the product reads row p of the left operand and column q of
the right one, along the one contracted axis -/

theorem lhs8_0 (i : S512x256.Idx) (q : dot_S512x512_S512x256_S512x256_1_0_0_1_n_n.contr.Idx) : (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs8_1 (i : S512x256.Idx) (q : dot_S512x512_S512x256_S512x256_1_0_0_1_n_n.contr.Idx) : (dot_S512x512_S512x256_S512x256_1_0_0_1_n_n.lhsIdx i q 1).val = (q ⟨0, by decide⟩).val :=
  dot_S512x512_S512x256_S512x256_1_0_0_1_n_n.lhsIdx_val_of_single rfl i q
theorem rhs8_0 (i : S512x256.Idx) (q : dot_S512x512_S512x256_S512x256_1_0_0_1_n_n.contr.Idx) : (dot_S512x512_S512x256_S512x256_1_0_0_1_n_n.rhsIdx i q 0).val = (q ⟨0, by decide⟩).val :=
  dot_S512x512_S512x256_S512x256_1_0_0_1_n_n.rhsIdx_val_of_single rfl i q
theorem rhs8_1 (i : S512x256.Idx) (q : dot_S512x512_S512x256_S512x256_1_0_0_1_n_n.contr.Idx) : (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- What the body stores, entry by entry: row p of the block of rows times column q of the matrix, plus entry q of the
    bias row. -/
theorem pay8_apply (x0 : Vec Ideal S512x512 .f32) (x1 : Vec Ideal S512x256 .f32) (x2 : Vec Ideal S1x256 .f32) (p : Fin 512) (q : Fin 256) :
    k8_pay1 (F := Ideal) x0 x1 x2 (ix2 p q)
      = (∑ k : Fin 512, x0 (ix2 p k) * x1 (ix2 k q)) + x2 (ix2 0 q) := by
  unfold k8_pay1
  refine (addf_apply _ _ _).trans ?_
  congr 1
  · refine (Ideal.matmul_constant_zero_apply dot_S512x512_S512x256_S512x256_1_0_0_1_n_n none _ _ _).trans ?_
    rw [← Equiv.sum_comp (contrEquiv1 dot_S512x512_S512x256_S512x256_1_0_0_1_n_n 512 rfl rfl).symm]
    refine Finset.sum_congr rfl fun k _ => ?_
    have hk := contrEquiv1_symm_val dot_S512x512_S512x256_S512x256_1_0_0_1_n_n 512 rfl rfl k
    have el : dot_S512x512_S512x256_S512x256_1_0_0_1_n_n.lhsIdx (ix2 p q) ((contrEquiv1 dot_S512x512_S512x256_S512x256_1_0_0_1_n_n 512 rfl rfl).symm k) = ix2 p k := funext fun a => Fin.ext (by
      match a with
      | ⟨0, _⟩ => exact lhs8_0 _ _
      | ⟨1, _⟩ => exact (lhs8_1 _ _).trans hk)
    have er : dot_S512x512_S512x256_S512x256_1_0_0_1_n_n.rhsIdx (ix2 p q) ((contrEquiv1 dot_S512x512_S512x256_S512x256_1_0_0_1_n_n 512 rfl rfl).symm k) = ix2 k q := funext fun a => Fin.ext (by
      match a with
      | ⟨0, _⟩ => exact (rhs8_0 _ _).trans hk
      | ⟨1, _⟩ => exact rhs8_1 _ _)
    rw [el, er, shapeCast_self]
    rfl
  · rw [shapeCast_self]
    refine broadcastTo_apply x2 _ (ix2 p q) (ix2 0 q) (fun a => ?_)
    match a with
    | ⟨0, _⟩ => rfl
    | ⟨1, _⟩ => rfl

/-! ## From the blocks to the array, at any contents V of the buffers when the launch is entered -/

variable (V : (c : Dev nD) → (b : Ref sig .tc) → Buf (Elt Ideal) ((c : Thread nD τ).loc b))

theorem hz8 : (![0, 0] : Fin 2 → Nat) = fun _ => 0 := funext fun a => by fin_cases a <;> rfl

/-- The rows of the launch's first array times its matrix, plus its bias row. -/
def rows8 (c : Dev nD) : S1024x256.Idx → EReal :=
  FlatRows.rowsTimes (M := 1024) (K := 512) (N := 256) (V c main_v39) (V c main_arg4) (V c main_v40)

/-- The printed index maps, decided over the grid: point t takes block t of rows of the first array and of the result,
    and the whole matrix and bias row. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

set_option maxHeartbeats 4000000 in
/-- What point t writes back is block t of the rows-times-matrix array. -/
theorem flushed8 (c : Dev nD) (t : Fin cfg8.N) :
    (dat8 V c).flushed 3 t = ((cfg8.win 3).blk t).view.read (Elt Ideal) (rows8 V c) := by
  show (cfg8.win 3).cut (grid8.coords t) ((dat8 V c).after 3 t) = _
  rw [after8_3]
  unfold out8_3
  rw [View.canon_unit_zero hz8]
  simp only [View.ld_unit_zero (S := S512x512) hz8, View.ld_unit_zero (S := S512x256) hz8, View.ld_unit_zero (S := S1x256) hz8]
  obtain ⟨e00, e01, e10, e11, e20, e21, e30, e31⟩ := idx8 t
  funext y
  obtain ⟨p, q, rfl⟩ : ∃ (p : Fin 512) (q : Fin 256), y = ix2 p q := ⟨y 0, y 1, eq_ix2 y⟩
  show k8_pay1 (iblk8 V c 0 t) (iblk8 V c 1 t) (iblk8 V c 2 t) (ix2 p q) = rows8 V c (((cfg8.win 3).blk t).view.emb (ix2 p q))
  refine (pay8_apply (iblk8 V c 0 t) (iblk8 V c 1 t) (iblk8 V c 2 t) p q).trans ?_
  have hr : ((((cfg8.win 3).blk t).view.emb (ix2 p q)) 0).val = t.val * 512 + p.val := by
    show win8_3.index t (0 : Fin 2) * 512 + 1 * p.val = _
    rw [e30]; omega
  have hc : ((((cfg8.win 3).blk t).view.emb (ix2 p q)) 1).val = q.val := by
    show win8_3.index t (1 : Fin 2) * 256 + 1 * q.val = _
    rw [e31]; omega
  unfold rows8 FlatRows.rowsTimes
  congr 1
  · refine Finset.sum_congr rfl fun k _ => ?_
    congr 1
    · show V c main_v39 (((cfg8.win 0).blk t).view.emb (ix2 p k)) = V c main_v39 _
      refine congrArg _ (funext fun a => Fin.ext ?_)
      match a with
      | ⟨0, _⟩ =>
        show win8_0.index t (0 : Fin 2) * 512 + 1 * p.val = ((((cfg8.win 3).blk t).view.emb (ix2 p q)) 0).val
        rw [hr, e00]; omega
      | ⟨1, _⟩ =>
        show win8_0.index t (1 : Fin 2) * 512 + 1 * k.val = k.val
        rw [e01]; omega
    · show V c main_arg4 (((cfg8.win 1).blk t).view.emb (ix2 k q)) = V c main_arg4 _
      refine congrArg _ (funext fun a => Fin.ext ?_)
      match a with
      | ⟨0, _⟩ =>
        show win8_1.index t (0 : Fin 2) * 512 + 1 * k.val = k.val
        rw [e10]; omega
      | ⟨1, _⟩ =>
        show win8_1.index t (1 : Fin 2) * 256 + 1 * q.val = ((((cfg8.win 3).blk t).view.emb (ix2 p q)) 1).val
        rw [hc, e11]; omega
  · show V c main_v40 (((cfg8.win 2).blk t).view.emb (ix2 0 q)) = V c main_v40 _
    refine congrArg _ (funext fun a => Fin.ext ?_)
    match a with
    | ⟨0, _⟩ =>
      show win8_2.index t (0 : Fin 2) * 1 + 1 * 0 = 0
      rw [e20]
    | ⟨1, _⟩ =>
      show win8_2.index t (1 : Fin 2) * 256 + 1 * q.val = ((((cfg8.win 3).blk t).view.emb (ix2 p q)) 1).val
      rw [hc, e21]; omega

set_option maxHeartbeats 1000000 in
/-- The result array after the launch: row r is in the block of point r / 512, so the blocks cover it and it holds the
    rows-times-matrix array. -/
theorem final8 (c : Dev nD) : (dat8 V c).arrAt 3 cfg8.N = rows8 V c :=
  (dat8 V c).arrAt_eq_of_cover 3 (rows8 V c) (fun t _ => flushed8 V c t) fun i => by
    have hN : cfg8.N = 2 := N_8
    have h0 : (i 0).val < 1024 := (i 0).isLt
    have h1 : (i 1).val < 256 := (i 1).isLt
    have ht : (i 0).val / 512 < cfg8.N := by rw [hN]; omega
    obtain ⟨e00, e01, e10, e11, e20, e21, e30, e31⟩ := idx8 ⟨(i 0).val / 512, ht⟩
    refine ⟨⟨(i 0).val / 512, ht⟩, flush8_3 _, ?_⟩
    show i ∈ ((View.whole main_v41).slice (win8_3.rect ⟨(i 0).val / 512, ht⟩)).set
    rw [View.set_slice_whole, Rect.mem_set_unit]
    intro a
    match a with
    | ⟨0, _⟩ =>
      show win8_3.index ⟨(i 0).val / 512, ht⟩ (0 : Fin 2) * 512 ≤ (i 0).val ∧ (i 0).val < win8_3.index ⟨(i 0).val / 512, ht⟩ (0 : Fin 2) * 512 + 512
      rw [e30]; show (i 0).val / 512 * 512 ≤ (i 0).val ∧ (i 0).val < (i 0).val / 512 * 512 + 512; omega
    | ⟨1, _⟩ =>
      show win8_3.index ⟨(i 0).val / 512, ht⟩ (1 : Fin 2) * 256 ≤ (i 1).val ∧ (i 1).val < win8_3.index ⟨(i 0).val / 512, ht⟩ (1 : Fin 2) * 256 + 256
      rw [e31]; omega

/-- The same on row-major lists: the result array's list is the linear layer of the three arrays' lists. -/
theorem final8_flat (c : Dev nD) :
    FlatRows.flat ((dat8 V c).arrAt 3 cfg8.N : S1024x256.Idx → EReal)
      = FlatRows.linRows 262144 512 256 (FlatRows.flat (V c main_v39 : S1024x512.Idx → EReal))
          (FlatRows.flat (V c main_arg4 : S512x256.Idx → EReal)) (FlatRows.flat (V c main_v40 : S1x256.Idx → EReal)) := by
  rw [final8]
  unfold rows8
  rw [FlatRows.flat_rowsTimes, FlatRows.linRows_len (show (⟨2, ![1024, 256]⟩ : Shape).numel = 262144 from by decide)]

end Cert.KernelIdeal.Rows

end
-- ==== Proof.Region9.lean ====
/-
  Launch 9 of the program: a linear layer, computed block of rows by block of rows.

  The launch's first array has 512 rows of length 512; grid point t works on rows 256·t … 256·t + 255: it multiplies
  that block of rows by the whole 512 × 256 matrix (the sum over the 512 columns; rounding the factors to a shorter
  float format changes nothing over the extended reals, and the accumulator starts at zero) and adds the bias row to
  every row. So what point t writes back is block t of ONE array, the rows of the first array times the matrix plus
  the bias row; the blocks of the 2 points tile the result array (row r is in the block of point r / 256), so the
  result array ends holding exactly that.
-/
import proofs.«125268_j50311246905374_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«125268_j50311246905374_2_alg».proof.Proof.LibFlatRows

set_option maxRecDepth 16384

noncomputable section

open scoped BigOperators

namespace Cert.KernelIdeal.Rows

open Cert.KernelIdeal Cert.KernelIdeal.Gen Idealize.ShloMosaic Idealize.ShloMosaic.ValueIdx Idealize.ShloMosaic.TcCoe Idealize.SL.Sem
open Idealize.ShloMosaic.Pipeline (Dat)

/-! ## The matrix product's operand indices: entry (p, q) of the product reads row p of the left operand and column q of
the right one, along the one contracted axis -/

theorem lhs9_0 (i : S256x256.Idx) (q : dot_S256x512_S512x256_S256x256_1_0_0_1_n_n.contr.Idx) : (dot_S256x512_S512x256_S256x256_1_0_0_1_n_n.lhsIdx i q 0).val = (i 0).val := by
  unfold DotDims.lhsIdx
  rw [dif_neg (show ¬(0 : Fin S256x512.rank) ∈ dot_S256x512_S512x256_S256x256_1_0_0_1_n_n.lhsBatch by decide), dif_pos (show (0 : Fin S256x512.rank) ∈ dot_S256x512_S512x256_S256x256_1_0_0_1_n_n.lhsNonContracting by decide)]
  rfl
theorem lhs9_1 (i : S256x256.Idx) (q : dot_S256x512_S512x256_S256x256_1_0_0_1_n_n.contr.Idx) : (dot_S256x512_S512x256_S256x256_1_0_0_1_n_n.lhsIdx i q 1).val = (q ⟨0, by decide⟩).val :=
  dot_S256x512_S512x256_S256x256_1_0_0_1_n_n.lhsIdx_val_of_single rfl i q
theorem rhs9_0 (i : S256x256.Idx) (q : dot_S256x512_S512x256_S256x256_1_0_0_1_n_n.contr.Idx) : (dot_S256x512_S512x256_S256x256_1_0_0_1_n_n.rhsIdx i q 0).val = (q ⟨0, by decide⟩).val :=
  dot_S256x512_S512x256_S256x256_1_0_0_1_n_n.rhsIdx_val_of_single rfl i q
theorem rhs9_1 (i : S256x256.Idx) (q : dot_S256x512_S512x256_S256x256_1_0_0_1_n_n.contr.Idx) : (dot_S256x512_S512x256_S256x256_1_0_0_1_n_n.rhsIdx i q 1).val = (i 1).val := by
  unfold DotDims.rhsIdx
  rw [dif_neg (show ¬(1 : Fin S512x256.rank) ∈ dot_S256x512_S512x256_S256x256_1_0_0_1_n_n.rhsBatch by decide), dif_pos (show (1 : Fin S512x256.rank) ∈ dot_S256x512_S512x256_S256x256_1_0_0_1_n_n.rhsNonContracting by decide)]
  rfl

/-- What the body stores, entry by entry: row p of the block of rows times column q of the matrix, plus entry q of the
    bias row. -/
theorem pay9_apply (x0 : Vec Ideal S256x512 .f32) (x1 : Vec Ideal S512x256 .f32) (x2 : Vec Ideal S1x256 .f32) (p : Fin 256) (q : Fin 256) :
    k9_pay1 (F := Ideal) x0 x1 x2 (ix2 p q)
      = (∑ k : Fin 512, x0 (ix2 p k) * x1 (ix2 k q)) + x2 (ix2 0 q) := by
  unfold k9_pay1
  refine (addf_apply _ _ _).trans ?_
  congr 1
  · refine (Ideal.matmul_constant_zero_apply dot_S256x512_S512x256_S256x256_1_0_0_1_n_n none _ _ _).trans ?_
    rw [← Equiv.sum_comp (contrEquiv1 dot_S256x512_S512x256_S256x256_1_0_0_1_n_n 512 rfl rfl).symm]
    refine Finset.sum_congr rfl fun k _ => ?_
    have hk := contrEquiv1_symm_val dot_S256x512_S512x256_S256x256_1_0_0_1_n_n 512 rfl rfl k
    have el : dot_S256x512_S512x256_S256x256_1_0_0_1_n_n.lhsIdx (ix2 p q) ((contrEquiv1 dot_S256x512_S512x256_S256x256_1_0_0_1_n_n 512 rfl rfl).symm k) = ix2 p k := funext fun a => Fin.ext (by
      match a with
      | ⟨0, _⟩ => exact lhs9_0 _ _
      | ⟨1, _⟩ => exact (lhs9_1 _ _).trans hk)
    have er : dot_S256x512_S512x256_S256x256_1_0_0_1_n_n.rhsIdx (ix2 p q) ((contrEquiv1 dot_S256x512_S512x256_S256x256_1_0_0_1_n_n 512 rfl rfl).symm k) = ix2 k q := funext fun a => Fin.ext (by
      match a with
      | ⟨0, _⟩ => exact (rhs9_0 _ _).trans hk
      | ⟨1, _⟩ => exact rhs9_1 _ _)
    rw [el, er, shapeCast_self]
    rfl
  · rw [shapeCast_self]
    refine broadcastTo_apply x2 _ (ix2 p q) (ix2 0 q) (fun a => ?_)
    match a with
    | ⟨0, _⟩ => rfl
    | ⟨1, _⟩ => rfl

/-! ## From the blocks to the array, at any contents V of the buffers when the launch is entered -/

variable (V : (c : Dev nD) → (b : Ref sig .tc) → Buf (Elt Ideal) ((c : Thread nD τ).loc b))

theorem hz9 : (![0, 0] : Fin 2 → Nat) = fun _ => 0 := funext fun a => by fin_cases a <;> rfl

/-- The rows of the launch's first array times its matrix, plus its bias row. -/
def rows9 (c : Dev nD) : S512x256.Idx → EReal :=
  FlatRows.rowsTimes (M := 512) (K := 512) (N := 256) (V c main_v43) (V c main_arg4) (V c main_v44)

/-- The printed index maps, decided over the grid: point t takes block t of rows of the first array and of the result,
    and the whole matrix and bias row. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

set_option maxHeartbeats 4000000 in
/-- What point t writes back is block t of the rows-times-matrix array. -/
theorem flushed9 (c : Dev nD) (t : Fin cfg9.N) :
    (dat9 V c).flushed 3 t = ((cfg9.win 3).blk t).view.read (Elt Ideal) (rows9 V c) := by
  show (cfg9.win 3).cut (grid9.coords t) ((dat9 V c).after 3 t) = _
  rw [after9_3]
  unfold out9_3
  rw [View.canon_unit_zero hz9]
  simp only [View.ld_unit_zero (S := S256x512) hz9, View.ld_unit_zero (S := S512x256) hz9, View.ld_unit_zero (S := S1x256) hz9]
  obtain ⟨e00, e01, e10, e11, e20, e21, e30, e31⟩ := idx9 t
  funext y
  obtain ⟨p, q, rfl⟩ : ∃ (p : Fin 256) (q : Fin 256), y = ix2 p q := ⟨y 0, y 1, eq_ix2 y⟩
  show k9_pay1 (iblk9 V c 0 t) (iblk9 V c 1 t) (iblk9 V c 2 t) (ix2 p q) = rows9 V c (((cfg9.win 3).blk t).view.emb (ix2 p q))
  refine (pay9_apply (iblk9 V c 0 t) (iblk9 V c 1 t) (iblk9 V c 2 t) p q).trans ?_
  have hr : ((((cfg9.win 3).blk t).view.emb (ix2 p q)) 0).val = t.val * 256 + p.val := by
    show win9_3.index t (0 : Fin 2) * 256 + 1 * p.val = _
    rw [e30]; omega
  have hc : ((((cfg9.win 3).blk t).view.emb (ix2 p q)) 1).val = q.val := by
    show win9_3.index t (1 : Fin 2) * 256 + 1 * q.val = _
    rw [e31]; omega
  unfold rows9 FlatRows.rowsTimes
  congr 1
  · refine Finset.sum_congr rfl fun k _ => ?_
    congr 1
    · show V c main_v43 (((cfg9.win 0).blk t).view.emb (ix2 p k)) = V c main_v43 _
      refine congrArg _ (funext fun a => Fin.ext ?_)
      match a with
      | ⟨0, _⟩ =>
        show win9_0.index t (0 : Fin 2) * 256 + 1 * p.val = ((((cfg9.win 3).blk t).view.emb (ix2 p q)) 0).val
        rw [hr, e00]; omega
      | ⟨1, _⟩ =>
        show win9_0.index t (1 : Fin 2) * 512 + 1 * k.val = k.val
        rw [e01]; omega
    · show V c main_arg4 (((cfg9.win 1).blk t).view.emb (ix2 k q)) = V c main_arg4 _
      refine congrArg _ (funext fun a => Fin.ext ?_)
      match a with
      | ⟨0, _⟩ =>
        show win9_1.index t (0 : Fin 2) * 512 + 1 * k.val = k.val
        rw [e10]; omega
      | ⟨1, _⟩ =>
        show win9_1.index t (1 : Fin 2) * 256 + 1 * q.val = ((((cfg9.win 3).blk t).view.emb (ix2 p q)) 1).val
        rw [hc, e11]; omega
  · show V c main_v44 (((cfg9.win 2).blk t).view.emb (ix2 0 q)) = V c main_v44 _
    refine congrArg _ (funext fun a => Fin.ext ?_)
    match a with
    | ⟨0, _⟩ =>
      show win9_2.index t (0 : Fin 2) * 1 + 1 * 0 = 0
      rw [e20]
    | ⟨1, _⟩ =>
      show win9_2.index t (1 : Fin 2) * 256 + 1 * q.val = ((((cfg9.win 3).blk t).view.emb (ix2 p q)) 1).val
      rw [hc, e21]; omega

set_option maxHeartbeats 1000000 in
/-- The result array after the launch: row r is in the block of point r / 256, so the blocks cover it and it holds the
    rows-times-matrix array. -/
theorem final9 (c : Dev nD) : (dat9 V c).arrAt 3 cfg9.N = rows9 V c :=
  (dat9 V c).arrAt_eq_of_cover 3 (rows9 V c) (fun t _ => flushed9 V c t) fun i => by
    have hN : cfg9.N = 2 := N_9
    have h0 : (i 0).val < 512 := (i 0).isLt
    have h1 : (i 1).val < 256 := (i 1).isLt
    have ht : (i 0).val / 256 < cfg9.N := by rw [hN]; omega
    obtain ⟨e00, e01, e10, e11, e20, e21, e30, e31⟩ := idx9 ⟨(i 0).val / 256, ht⟩
    refine ⟨⟨(i 0).val / 256, ht⟩, flush9_3 _, ?_⟩
    show i ∈ ((View.whole main_v45).slice (win9_3.rect ⟨(i 0).val / 256, ht⟩)).set
    rw [View.set_slice_whole, Rect.mem_set_unit]
    intro a
    match a with
    | ⟨0, _⟩ =>
      show win9_3.index ⟨(i 0).val / 256, ht⟩ (0 : Fin 2) * 256 ≤ (i 0).val ∧ (i 0).val < win9_3.index ⟨(i 0).val / 256, ht⟩ (0 : Fin 2) * 256 + 256
      rw [e30]; show (i 0).val / 256 * 256 ≤ (i 0).val ∧ (i 0).val < (i 0).val / 256 * 256 + 256; omega
    | ⟨1, _⟩ =>
      show win9_3.index ⟨(i 0).val / 256, ht⟩ (1 : Fin 2) * 256 ≤ (i 1).val ∧ (i 1).val < win9_3.index ⟨(i 0).val / 256, ht⟩ (1 : Fin 2) * 256 + 256
      rw [e31]; omega

/-- The same on row-major lists: the result array's list is the linear layer of the three arrays' lists. -/
theorem final9_flat (c : Dev nD) :
    FlatRows.flat ((dat9 V c).arrAt 3 cfg9.N : S512x256.Idx → EReal)
      = FlatRows.linRows 131072 512 256 (FlatRows.flat (V c main_v43 : S512x512.Idx → EReal))
          (FlatRows.flat (V c main_arg4 : S512x256.Idx → EReal)) (FlatRows.flat (V c main_v44 : S1x256.Idx → EReal)) := by
  rw [final9]
  unfold rows9
  rw [FlatRows.flat_rowsTimes, FlatRows.linRows_len (show (⟨2, ![512, 256]⟩ : Shape).numel = 131072 from by decide)]

end Cert.KernelIdeal.Rows

end
-- ==== Proof.Region10.lean ====
/-
  Launch 10 of the program: a linear layer, computed block of rows by block of rows.

  The launch's first array has 256 rows of length 512; grid point t works on rows 128·t … 128·t + 127: it multiplies
  that block of rows by the whole 512 × 256 matrix (the sum over the 512 columns; rounding the factors to a shorter
  float format changes nothing over the extended reals, and the accumulator starts at zero) and adds the bias row to
  every row. So what point t writes back is block t of ONE array, the rows of the first array times the matrix plus
  the bias row; the blocks of the 2 points tile the result array (row r is in the block of point r / 128), so the
  result array ends holding exactly that.
-/
import proofs.«125268_j50311246905374_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«125268_j50311246905374_2_alg».proof.Proof.LibFlatRows

set_option maxRecDepth 16384

noncomputable section

open scoped BigOperators

namespace Cert.KernelIdeal.Rows

open Cert.KernelIdeal Cert.KernelIdeal.Gen Idealize.ShloMosaic Idealize.ShloMosaic.ValueIdx Idealize.ShloMosaic.TcCoe Idealize.SL.Sem
open Idealize.ShloMosaic.Pipeline (Dat)

/-! ## The matrix product's operand indices: entry (p, q) of the product reads row p of the left operand and column q of
the right one, along the one contracted axis -/

theorem lhs10_0 (i : S128x256.Idx) (q : dot_S128x512_S512x256_S128x256_1_0_0_1_n_n.contr.Idx) : (dot_S128x512_S512x256_S128x256_1_0_0_1_n_n.lhsIdx i q 0).val = (i 0).val := by
  unfold DotDims.lhsIdx
  rw [dif_neg (show ¬(0 : Fin S128x512.rank) ∈ dot_S128x512_S512x256_S128x256_1_0_0_1_n_n.lhsBatch by decide), dif_pos (show (0 : Fin S128x512.rank) ∈ dot_S128x512_S512x256_S128x256_1_0_0_1_n_n.lhsNonContracting by decide)]
  rfl
theorem lhs10_1 (i : S128x256.Idx) (q : dot_S128x512_S512x256_S128x256_1_0_0_1_n_n.contr.Idx) : (dot_S128x512_S512x256_S128x256_1_0_0_1_n_n.lhsIdx i q 1).val = (q ⟨0, by decide⟩).val :=
  dot_S128x512_S512x256_S128x256_1_0_0_1_n_n.lhsIdx_val_of_single rfl i q
theorem rhs10_0 (i : S128x256.Idx) (q : dot_S128x512_S512x256_S128x256_1_0_0_1_n_n.contr.Idx) : (dot_S128x512_S512x256_S128x256_1_0_0_1_n_n.rhsIdx i q 0).val = (q ⟨0, by decide⟩).val :=
  dot_S128x512_S512x256_S128x256_1_0_0_1_n_n.rhsIdx_val_of_single rfl i q
theorem rhs10_1 (i : S128x256.Idx) (q : dot_S128x512_S512x256_S128x256_1_0_0_1_n_n.contr.Idx) : (dot_S128x512_S512x256_S128x256_1_0_0_1_n_n.rhsIdx i q 1).val = (i 1).val := by
  unfold DotDims.rhsIdx
  rw [dif_neg (show ¬(1 : Fin S512x256.rank) ∈ dot_S128x512_S512x256_S128x256_1_0_0_1_n_n.rhsBatch by decide), dif_pos (show (1 : Fin S512x256.rank) ∈ dot_S128x512_S512x256_S128x256_1_0_0_1_n_n.rhsNonContracting by decide)]
  rfl

/-- What the body stores, entry by entry: row p of the block of rows times column q of the matrix, plus entry q of the
    bias row. -/
theorem pay10_apply (x0 : Vec Ideal S128x512 .f32) (x1 : Vec Ideal S512x256 .f32) (x2 : Vec Ideal S1x256 .f32) (p : Fin 128) (q : Fin 256) :
    k10_pay1 (F := Ideal) x0 x1 x2 (ix2 p q)
      = (∑ k : Fin 512, x0 (ix2 p k) * x1 (ix2 k q)) + x2 (ix2 0 q) := by
  unfold k10_pay1
  refine (addf_apply _ _ _).trans ?_
  congr 1
  · refine (Ideal.matmul_constant_zero_apply dot_S128x512_S512x256_S128x256_1_0_0_1_n_n none _ _ _).trans ?_
    rw [← Equiv.sum_comp (contrEquiv1 dot_S128x512_S512x256_S128x256_1_0_0_1_n_n 512 rfl rfl).symm]
    refine Finset.sum_congr rfl fun k _ => ?_
    have hk := contrEquiv1_symm_val dot_S128x512_S512x256_S128x256_1_0_0_1_n_n 512 rfl rfl k
    have el : dot_S128x512_S512x256_S128x256_1_0_0_1_n_n.lhsIdx (ix2 p q) ((contrEquiv1 dot_S128x512_S512x256_S128x256_1_0_0_1_n_n 512 rfl rfl).symm k) = ix2 p k := funext fun a => Fin.ext (by
      match a with
      | ⟨0, _⟩ => exact lhs10_0 _ _
      | ⟨1, _⟩ => exact (lhs10_1 _ _).trans hk)
    have er : dot_S128x512_S512x256_S128x256_1_0_0_1_n_n.rhsIdx (ix2 p q) ((contrEquiv1 dot_S128x512_S512x256_S128x256_1_0_0_1_n_n 512 rfl rfl).symm k) = ix2 k q := funext fun a => Fin.ext (by
      match a with
      | ⟨0, _⟩ => exact (rhs10_0 _ _).trans hk
      | ⟨1, _⟩ => exact rhs10_1 _ _)
    rw [el, er, shapeCast_self]
    rfl
  · rw [shapeCast_self]
    refine broadcastTo_apply x2 _ (ix2 p q) (ix2 0 q) (fun a => ?_)
    match a with
    | ⟨0, _⟩ => rfl
    | ⟨1, _⟩ => rfl

/-! ## From the blocks to the array, at any contents V of the buffers when the launch is entered -/

variable (V : (c : Dev nD) → (b : Ref sig .tc) → Buf (Elt Ideal) ((c : Thread nD τ).loc b))

theorem hz10 : (![0, 0] : Fin 2 → Nat) = fun _ => 0 := funext fun a => by fin_cases a <;> rfl

/-- The rows of the launch's first array times its matrix, plus its bias row. -/
def rows10 (c : Dev nD) : S256x256.Idx → EReal :=
  FlatRows.rowsTimes (M := 256) (K := 512) (N := 256) (V c main_v47) (V c main_arg4) (V c main_v48)

/-- The printed index maps, decided over the grid: point t takes block t of rows of the first array and of the result,
    and the whole matrix and bias row. -/
theorem idx10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

set_option maxHeartbeats 4000000 in
/-- What point t writes back is block t of the rows-times-matrix array. -/
theorem flushed10 (c : Dev nD) (t : Fin cfg10.N) :
    (dat10 V c).flushed 3 t = ((cfg10.win 3).blk t).view.read (Elt Ideal) (rows10 V c) := by
  show (cfg10.win 3).cut (grid10.coords t) ((dat10 V c).after 3 t) = _
  rw [after10_3]
  unfold out10_3
  rw [View.canon_unit_zero hz10]
  simp only [View.ld_unit_zero (S := S128x512) hz10, View.ld_unit_zero (S := S512x256) hz10, View.ld_unit_zero (S := S1x256) hz10]
  obtain ⟨e00, e01, e10, e11, e20, e21, e30, e31⟩ := idx10 t
  funext y
  obtain ⟨p, q, rfl⟩ : ∃ (p : Fin 128) (q : Fin 256), y = ix2 p q := ⟨y 0, y 1, eq_ix2 y⟩
  show k10_pay1 (iblk10 V c 0 t) (iblk10 V c 1 t) (iblk10 V c 2 t) (ix2 p q) = rows10 V c (((cfg10.win 3).blk t).view.emb (ix2 p q))
  refine (pay10_apply (iblk10 V c 0 t) (iblk10 V c 1 t) (iblk10 V c 2 t) p q).trans ?_
  have hr : ((((cfg10.win 3).blk t).view.emb (ix2 p q)) 0).val = t.val * 128 + p.val := by
    show win10_3.index t (0 : Fin 2) * 128 + 1 * p.val = _
    rw [e30]; omega
  have hc : ((((cfg10.win 3).blk t).view.emb (ix2 p q)) 1).val = q.val := by
    show win10_3.index t (1 : Fin 2) * 256 + 1 * q.val = _
    rw [e31]; omega
  unfold rows10 FlatRows.rowsTimes
  congr 1
  · refine Finset.sum_congr rfl fun k _ => ?_
    congr 1
    · show V c main_v47 (((cfg10.win 0).blk t).view.emb (ix2 p k)) = V c main_v47 _
      refine congrArg _ (funext fun a => Fin.ext ?_)
      match a with
      | ⟨0, _⟩ =>
        show win10_0.index t (0 : Fin 2) * 128 + 1 * p.val = ((((cfg10.win 3).blk t).view.emb (ix2 p q)) 0).val
        rw [hr, e00]; omega
      | ⟨1, _⟩ =>
        show win10_0.index t (1 : Fin 2) * 512 + 1 * k.val = k.val
        rw [e01]; omega
    · show V c main_arg4 (((cfg10.win 1).blk t).view.emb (ix2 k q)) = V c main_arg4 _
      refine congrArg _ (funext fun a => Fin.ext ?_)
      match a with
      | ⟨0, _⟩ =>
        show win10_1.index t (0 : Fin 2) * 512 + 1 * k.val = k.val
        rw [e10]; omega
      | ⟨1, _⟩ =>
        show win10_1.index t (1 : Fin 2) * 256 + 1 * q.val = ((((cfg10.win 3).blk t).view.emb (ix2 p q)) 1).val
        rw [hc, e11]; omega
  · show V c main_v48 (((cfg10.win 2).blk t).view.emb (ix2 0 q)) = V c main_v48 _
    refine congrArg _ (funext fun a => Fin.ext ?_)
    match a with
    | ⟨0, _⟩ =>
      show win10_2.index t (0 : Fin 2) * 1 + 1 * 0 = 0
      rw [e20]
    | ⟨1, _⟩ =>
      show win10_2.index t (1 : Fin 2) * 256 + 1 * q.val = ((((cfg10.win 3).blk t).view.emb (ix2 p q)) 1).val
      rw [hc, e21]; omega

set_option maxHeartbeats 1000000 in
/-- The result array after the launch: row r is in the block of point r / 128, so the blocks cover it and it holds the
    rows-times-matrix array. -/
theorem final10 (c : Dev nD) : (dat10 V c).arrAt 3 cfg10.N = rows10 V c :=
  (dat10 V c).arrAt_eq_of_cover 3 (rows10 V c) (fun t _ => flushed10 V c t) fun i => by
    have hN : cfg10.N = 2 := N_10
    have h0 : (i 0).val < 256 := (i 0).isLt
    have h1 : (i 1).val < 256 := (i 1).isLt
    have ht : (i 0).val / 128 < cfg10.N := by rw [hN]; omega
    obtain ⟨e00, e01, e10, e11, e20, e21, e30, e31⟩ := idx10 ⟨(i 0).val / 128, ht⟩
    refine ⟨⟨(i 0).val / 128, ht⟩, flush10_3 _, ?_⟩
    show i ∈ ((View.whole main_v49).slice (win10_3.rect ⟨(i 0).val / 128, ht⟩)).set
    rw [View.set_slice_whole, Rect.mem_set_unit]
    intro a
    match a with
    | ⟨0, _⟩ =>
      show win10_3.index ⟨(i 0).val / 128, ht⟩ (0 : Fin 2) * 128 ≤ (i 0).val ∧ (i 0).val < win10_3.index ⟨(i 0).val / 128, ht⟩ (0 : Fin 2) * 128 + 128
      rw [e30]; show (i 0).val / 128 * 128 ≤ (i 0).val ∧ (i 0).val < (i 0).val / 128 * 128 + 128; omega
    | ⟨1, _⟩ =>
      show win10_3.index ⟨(i 0).val / 128, ht⟩ (1 : Fin 2) * 256 ≤ (i 1).val ∧ (i 1).val < win10_3.index ⟨(i 0).val / 128, ht⟩ (1 : Fin 2) * 256 + 256
      rw [e31]; omega

/-- The same on row-major lists: the result array's list is the linear layer of the three arrays' lists. -/
theorem final10_flat (c : Dev nD) :
    FlatRows.flat ((dat10 V c).arrAt 3 cfg10.N : S256x256.Idx → EReal)
      = FlatRows.linRows 65536 512 256 (FlatRows.flat (V c main_v47 : S256x512.Idx → EReal))
          (FlatRows.flat (V c main_arg4 : S512x256.Idx → EReal)) (FlatRows.flat (V c main_v48 : S1x256.Idx → EReal)) := by
  rw [final10]
  unfold rows10
  rw [FlatRows.flat_rowsTimes, FlatRows.linRows_len (show (⟨2, ![256, 256]⟩ : Shape).numel = 65536 from by decide)]

end Cert.KernelIdeal.Rows

end
-- ==== Proof.Fold.lean ====
/-
  The buffer contents through the program, on row-major lists.

  Between two launches the host only reshapes: the result of a launch, regrouped as (tree, node, feature) and then as
  rows of sibling pairs, is the next launch's first array, the same list throughout; the bias vector regrouped as one
  row is the same list too. No host operation and no launch writes an argument, so every launch finds the matrices and
  biases as launched. Hence, stage by stage, the list of a launch's result array is one level of the specification's
  tree over the list of the previous launch's result, and the program's result is the tree's roots over the looked-up
  word rows.
-/
import proofs.«125268_j50311246905374_2_alg».proof.Proof.Gen.KernelIdeal.Frame
import proofs.«125268_j50311246905374_2_alg».proof.Proof.Gen.ReferenceIdeal.Read
import proofs.«125268_j50311246905374_2_alg».proof.Proof.LibFlatRows
import proofs.«125268_j50311246905374_2_alg».proof.Proof.TreeSpec
import proofs.«125268_j50311246905374_2_alg».proof.Proof.Region0
import proofs.«125268_j50311246905374_2_alg».proof.Proof.Region1
import proofs.«125268_j50311246905374_2_alg».proof.Proof.Region2
import proofs.«125268_j50311246905374_2_alg».proof.Proof.Region3
import proofs.«125268_j50311246905374_2_alg».proof.Proof.Region4
import proofs.«125268_j50311246905374_2_alg».proof.Proof.Region5
import proofs.«125268_j50311246905374_2_alg».proof.Proof.Region6
import proofs.«125268_j50311246905374_2_alg».proof.Proof.Region7
import proofs.«125268_j50311246905374_2_alg».proof.Proof.Region8
import proofs.«125268_j50311246905374_2_alg».proof.Proof.Region9
import proofs.«125268_j50311246905374_2_alg».proof.Proof.Region10

set_option maxRecDepth 16384

noncomputable section

namespace Cert.KernelIdeal.Fold

open Cert.KernelIdeal Cert.KernelIdeal.Gen Idealize.ShloMosaic Idealize.ShloMosaic.TcCoe Idealize.SL.Sem
open Idealize.ShloMosaic.FlatRows Idealize.ShloMosaic.StableHlo
open Idealize.ShloMosaic.Pipeline (Dat)

variable (m : (ℓ : Loc nD τ sig) → Buf (Elt Ideal) ℓ) (ρ : Dev nD → PrngReg)

/-! ## The arguments are as launched at every launch's entry -/

theorem arg2_at0 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem arg3_at0 (c : Dev nD) : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem arg4_at0 (c : Dev nD) : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem arg5_at0 (c : Dev nD) : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem arg4_at1 (c : Dev nD) : W3 m ρ c (Proc.devRef .tc main_arg4) = m ((c : Thread nD τ).loc main_arg4) :=
  (StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W2_of_ne m ρ c main_arg4 (by decide)).trans (arg4_at0 m ρ c))
theorem arg5_at1 (c : Dev nD) : W3 m ρ c (Proc.devRef .tc main_arg5) = m ((c : Thread nD τ).loc main_arg5) :=
  (StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W2_of_ne m ρ c main_arg5 (by decide)).trans (arg5_at0 m ρ c))
theorem arg4_at2 (c : Dev nD) : W5 m ρ c (Proc.devRef .tc main_arg4) = m ((c : Thread nD τ).loc main_arg4) :=
  (StableHlo.after_of_forall_not_mem (b := Proc.devRef .tc main_arg4) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W4_arr m ρ c 1).trans (((dat1 (V3 m ρ) c).arrAt_in 1 rfl _).trans (A_eq1 (V3 m ρ) c 1))).trans (arg4_at1 m ρ c))
theorem arg5_at2 (c : Dev nD) : W5 m ρ c (Proc.devRef .tc main_arg5) = m ((c : Thread nD τ).loc main_arg5) :=
  (StableHlo.after_of_forall_not_mem (b := Proc.devRef .tc main_arg5) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W4_of_ne m ρ c main_arg5 (by decide)).trans (arg5_at1 m ρ c))
theorem arg4_at3 (c : Dev nD) : W7 m ρ c (Proc.devRef .tc main_arg4) = m ((c : Thread nD τ).loc main_arg4) :=
  (StableHlo.after_of_forall_not_mem (b := Proc.devRef .tc main_arg4) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W6_arr m ρ c 1).trans (((dat2 (V5 m ρ) c).arrAt_in 1 rfl _).trans (A_eq2 (V5 m ρ) c 1))).trans (arg4_at2 m ρ c))
theorem arg5_at3 (c : Dev nD) : W7 m ρ c (Proc.devRef .tc main_arg5) = m ((c : Thread nD τ).loc main_arg5) :=
  (StableHlo.after_of_forall_not_mem (b := Proc.devRef .tc main_arg5) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W6_of_ne m ρ c main_arg5 (by decide)).trans (arg5_at2 m ρ c))
theorem arg4_at4 (c : Dev nD) : W9 m ρ c (Proc.devRef .tc main_arg4) = m ((c : Thread nD τ).loc main_arg4) :=
  (StableHlo.after_of_forall_not_mem (b := Proc.devRef .tc main_arg4) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W8_arr m ρ c 1).trans (((dat3 (V7 m ρ) c).arrAt_in 1 rfl _).trans (A_eq3 (V7 m ρ) c 1))).trans (arg4_at3 m ρ c))
theorem arg5_at4 (c : Dev nD) : W9 m ρ c (Proc.devRef .tc main_arg5) = m ((c : Thread nD τ).loc main_arg5) :=
  (StableHlo.after_of_forall_not_mem (b := Proc.devRef .tc main_arg5) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W8_of_ne m ρ c main_arg5 (by decide)).trans (arg5_at3 m ρ c))
theorem arg4_at5 (c : Dev nD) : W11 m ρ c (Proc.devRef .tc main_arg4) = m ((c : Thread nD τ).loc main_arg4) :=
  (StableHlo.after_of_forall_not_mem (b := Proc.devRef .tc main_arg4) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W10_arr m ρ c 1).trans (((dat4 (V9 m ρ) c).arrAt_in 1 rfl _).trans (A_eq4 (V9 m ρ) c 1))).trans (arg4_at4 m ρ c))
theorem arg5_at5 (c : Dev nD) : W11 m ρ c (Proc.devRef .tc main_arg5) = m ((c : Thread nD τ).loc main_arg5) :=
  (StableHlo.after_of_forall_not_mem (b := Proc.devRef .tc main_arg5) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W10_of_ne m ρ c main_arg5 (by decide)).trans (arg5_at4 m ρ c))
theorem arg4_at6 (c : Dev nD) : W13 m ρ c (Proc.devRef .tc main_arg4) = m ((c : Thread nD τ).loc main_arg4) :=
  (StableHlo.after_of_forall_not_mem (b := Proc.devRef .tc main_arg4) _ _ (List.forall_iff_forall_mem.mp (by
      simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W12_arr m ρ c 1).trans (((dat5 (V11 m ρ) c).arrAt_in 1 rfl _).trans (A_eq5 (V11 m ρ) c 1))).trans (arg4_at5 m ρ c))
theorem arg5_at6 (c : Dev nD) : W13 m ρ c (Proc.devRef .tc main_arg5) = m ((c : Thread nD τ).loc main_arg5) :=
  (StableHlo.after_of_forall_not_mem (b := Proc.devRef .tc main_arg5) _ _ (List.forall_iff_forall_mem.mp (by
      simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W12_of_ne m ρ c main_arg5 (by decide)).trans (arg5_at5 m ρ c))
theorem arg4_at7 (c : Dev nD) : W15 m ρ c (Proc.devRef .tc main_arg4) = m ((c : Thread nD τ).loc main_arg4) :=
  (StableHlo.after_of_forall_not_mem (b := Proc.devRef .tc main_arg4) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W14_arr m ρ c 1).trans (((dat6 (V13 m ρ) c).arrAt_in 1 rfl _).trans (A_eq6 (V13 m ρ) c 1))).trans (arg4_at6 m ρ c))
theorem arg5_at7 (c : Dev nD) : W15 m ρ c (Proc.devRef .tc main_arg5) = m ((c : Thread nD τ).loc main_arg5) :=
  (StableHlo.after_of_forall_not_mem (b := Proc.devRef .tc main_arg5) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W14_of_ne m ρ c main_arg5 (by decide)).trans (arg5_at6 m ρ c))
theorem arg4_at8 (c : Dev nD) : W17 m ρ c (Proc.devRef .tc main_arg4) = m ((c : Thread nD τ).loc main_arg4) :=
  (StableHlo.after_of_forall_not_mem (b := Proc.devRef .tc main_arg4) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W16_arr m ρ c 1).trans (((dat7 (V15 m ρ) c).arrAt_in 1 rfl _).trans (A_eq7 (V15 m ρ) c 1))).trans (arg4_at7 m ρ c))
theorem arg5_at8 (c : Dev nD) : W17 m ρ c (Proc.devRef .tc main_arg5) = m ((c : Thread nD τ).loc main_arg5) :=
  (StableHlo.after_of_forall_not_mem (b := Proc.devRef .tc main_arg5) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W16_of_ne m ρ c main_arg5 (by decide)).trans (arg5_at7 m ρ c))
theorem arg4_at9 (c : Dev nD) : W19 m ρ c (Proc.devRef .tc main_arg4) = m ((c : Thread nD τ).loc main_arg4) :=
  (StableHlo.after_of_forall_not_mem (b := Proc.devRef .tc main_arg4) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W18_arr m ρ c 1).trans (((dat8 (V17 m ρ) c).arrAt_in 1 rfl _).trans (A_eq8 (V17 m ρ) c 1))).trans (arg4_at8 m ρ c))
theorem arg5_at9 (c : Dev nD) : W19 m ρ c (Proc.devRef .tc main_arg5) = m ((c : Thread nD τ).loc main_arg5) :=
  (StableHlo.after_of_forall_not_mem (b := Proc.devRef .tc main_arg5) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W18_of_ne m ρ c main_arg5 (by decide)).trans (arg5_at8 m ρ c))
theorem arg4_at10 (c : Dev nD) : W21 m ρ c (Proc.devRef .tc main_arg4) = m ((c : Thread nD τ).loc main_arg4) :=
  (StableHlo.after_of_forall_not_mem (b := Proc.devRef .tc main_arg4) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W20_arr m ρ c 1).trans (((dat9 (V19 m ρ) c).arrAt_in 1 rfl _).trans (A_eq9 (V19 m ρ) c 1))).trans (arg4_at9 m ρ c))
theorem arg5_at10 (c : Dev nD) : W21 m ρ c (Proc.devRef .tc main_arg5) = m ((c : Thread nD τ).loc main_arg5) :=
  (StableHlo.after_of_forall_not_mem (b := Proc.devRef .tc main_arg5) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W20_of_ne m ρ c main_arg5 (by decide)).trans (arg5_at9 m ρ c))

/-! ## Each launch's first array and bias row, as lists -/

/-- The first launch's rows are the looked-up word rows, regrouped. -/
theorem in_flat0 (c : Dev nD) :
    flat (V1 m ρ c main_v7 : S262144x300.Idx → EReal)
      = flat (Cert.ReferenceIdeal.Read.val_main_v6 (F := Ideal) (m ((c : Thread nD τ).loc main_arg0)) (m ((c : Thread nD τ).loc main_arg1))) := by
  have e : (V1 m ρ c main_v7 : S262144x300.Idx → EReal)
      = shapeCast _ (Cert.ReferenceIdeal.Read.val_main_v6 (F := Ideal) (m ((c : Thread nD τ).loc main_arg0)) (m ((c : Thread nD τ).loc main_arg1))) shapeCasts_S256x1024x300_S262144x300 := by
    show StableHlo.after hostOps0 (W0 m ρ c) (Proc.devRef .tc main_v7) = _
    dsimp only [hostOps0]
    after_results
    try rfl
  rw [e]
  exact flat_shapeCast _ _

theorem bs_flat0 (c : Dev nD) :
    flat (V1 m ρ c main_v8 : S1x256.Idx → EReal) = flat (m ((c : Thread nD τ).loc main_arg3) : S256.Idx → EReal) := by
  have e : (V1 m ρ c main_v8 : S1x256.Idx → EReal)
      = shapeCast _ (m ((c : Thread nD τ).loc main_arg3) : S256.Idx → EReal) shapeCasts_S256_S1x256 := by
    show StableHlo.after hostOps0 (W0 m ρ c) (Proc.devRef .tc main_v8) = _
    dsimp only [hostOps0]
    after_results
    try rfl
  rw [e]
  exact flat_shapeCast _ _

theorem in_flat1 (c : Dev nD) :
    flat (V3 m ρ c main_v11 : S131072x512.Idx → EReal) = flat (W2 m ρ c (Proc.devRef .tc main_v9) : S262144x256.Idx → EReal) := by
  have e : (V3 m ρ c main_v11 : S131072x512.Idx → EReal)
      = shapeCast _ (shapeCast _ (W2 m ρ c (Proc.devRef .tc main_v9) : S262144x256.Idx → EReal) shapeCasts_S262144x256_S256x1024x256) shapeCasts_S256x1024x256_S131072x512 := by
    show StableHlo.after hostOps1 (W2 m ρ c) (Proc.devRef .tc main_v11) = _
    dsimp only [hostOps1]
    after_results
    try rfl
  rw [e]
  exact (flat_shapeCast _ _).trans (flat_shapeCast _ _)

theorem bs_flat1 (c : Dev nD) :
    flat (V3 m ρ c main_v12 : S1x256.Idx → EReal) = flat (m ((c : Thread nD τ).loc main_arg5) : S256.Idx → EReal) := by
  have e : (V3 m ρ c main_v12 : S1x256.Idx → EReal)
      = shapeCast _ (W2 m ρ c (Proc.devRef .tc main_arg5) : S256.Idx → EReal) shapeCasts_S256_S1x256 := by
    show StableHlo.after hostOps1 (W2 m ρ c) (Proc.devRef .tc main_v12) = _
    dsimp only [hostOps1]
    after_results
    try rfl
  rw [e]
  refine (flat_shapeCast _ _).trans ?_
  exact congrArg (flat (s := S256)) ((W2_of_ne m ρ c main_arg5 (by decide)).trans (arg5_at0 m ρ c))

theorem in_flat2 (c : Dev nD) :
    flat (V5 m ρ c main_v15 : S65536x512.Idx → EReal) = flat (W4 m ρ c (Proc.devRef .tc main_v13) : S131072x256.Idx → EReal) := by
  have e : (V5 m ρ c main_v15 : S65536x512.Idx → EReal)
      = shapeCast _ (shapeCast _ (W4 m ρ c (Proc.devRef .tc main_v13) : S131072x256.Idx → EReal) shapeCasts_S131072x256_S256x512x256) shapeCasts_S256x512x256_S65536x512 := by
    show StableHlo.after hostOps2 (W4 m ρ c) (Proc.devRef .tc main_v15) = _
    dsimp only [hostOps2]
    after_results
    try rfl
  rw [e]
  exact (flat_shapeCast _ _).trans (flat_shapeCast _ _)

theorem bs_flat2 (c : Dev nD) :
    flat (V5 m ρ c main_v16 : S1x256.Idx → EReal) = flat (m ((c : Thread nD τ).loc main_arg5) : S256.Idx → EReal) := by
  have e : (V5 m ρ c main_v16 : S1x256.Idx → EReal)
      = shapeCast _ (W4 m ρ c (Proc.devRef .tc main_arg5) : S256.Idx → EReal) shapeCasts_S256_S1x256 := by
    show StableHlo.after hostOps2 (W4 m ρ c) (Proc.devRef .tc main_v16) = _
    dsimp only [hostOps2]
    after_results
    try rfl
  rw [e]
  refine (flat_shapeCast _ _).trans ?_
  exact congrArg (flat (s := S256)) ((W4_of_ne m ρ c main_arg5 (by decide)).trans (arg5_at1 m ρ c))

theorem in_flat3 (c : Dev nD) :
    flat (V7 m ρ c main_v19 : S32768x512.Idx → EReal) = flat (W6 m ρ c (Proc.devRef .tc main_v17) : S65536x256.Idx → EReal) := by
  have e : (V7 m ρ c main_v19 : S32768x512.Idx → EReal)
      = shapeCast _ (shapeCast _ (W6 m ρ c (Proc.devRef .tc main_v17) : S65536x256.Idx → EReal) shapeCasts_S65536x256_S256x256x256) shapeCasts_S256x256x256_S32768x512 := by
    show StableHlo.after hostOps3 (W6 m ρ c) (Proc.devRef .tc main_v19) = _
    dsimp only [hostOps3]
    after_results
    try rfl
  rw [e]
  exact (flat_shapeCast _ _).trans (flat_shapeCast _ _)

theorem bs_flat3 (c : Dev nD) :
    flat (V7 m ρ c main_v20 : S1x256.Idx → EReal) = flat (m ((c : Thread nD τ).loc main_arg5) : S256.Idx → EReal) := by
  have e : (V7 m ρ c main_v20 : S1x256.Idx → EReal)
      = shapeCast _ (W6 m ρ c (Proc.devRef .tc main_arg5) : S256.Idx → EReal) shapeCasts_S256_S1x256 := by
    show StableHlo.after hostOps3 (W6 m ρ c) (Proc.devRef .tc main_v20) = _
    dsimp only [hostOps3]
    after_results
    try rfl
  rw [e]
  refine (flat_shapeCast _ _).trans ?_
  exact congrArg (flat (s := S256)) ((W6_of_ne m ρ c main_arg5 (by decide)).trans (arg5_at2 m ρ c))

theorem in_flat4 (c : Dev nD) :
    flat (V9 m ρ c main_v23 : S16384x512.Idx → EReal) = flat (W8 m ρ c (Proc.devRef .tc main_v21) : S32768x256.Idx → EReal) := by
  have e : (V9 m ρ c main_v23 : S16384x512.Idx → EReal)
      = shapeCast _ (shapeCast _ (W8 m ρ c (Proc.devRef .tc main_v21) : S32768x256.Idx → EReal) shapeCasts_S32768x256_S256x128x256) shapeCasts_S256x128x256_S16384x512 := by
    show StableHlo.after hostOps4 (W8 m ρ c) (Proc.devRef .tc main_v23) = _
    dsimp only [hostOps4]
    after_results
    try rfl
  rw [e]
  exact (flat_shapeCast _ _).trans (flat_shapeCast _ _)

theorem bs_flat4 (c : Dev nD) :
    flat (V9 m ρ c main_v24 : S1x256.Idx → EReal) = flat (m ((c : Thread nD τ).loc main_arg5) : S256.Idx → EReal) := by
  have e : (V9 m ρ c main_v24 : S1x256.Idx → EReal)
      = shapeCast _ (W8 m ρ c (Proc.devRef .tc main_arg5) : S256.Idx → EReal) shapeCasts_S256_S1x256 := by
    show StableHlo.after hostOps4 (W8 m ρ c) (Proc.devRef .tc main_v24) = _
    dsimp only [hostOps4]
    after_results
    try rfl
  rw [e]
  refine (flat_shapeCast _ _).trans ?_
  exact congrArg (flat (s := S256)) ((W8_of_ne m ρ c main_arg5 (by decide)).trans (arg5_at3 m ρ c))

theorem in_flat5 (c : Dev nD) :
    flat (V11 m ρ c main_v27 : S8192x512.Idx → EReal) = flat (W10 m ρ c (Proc.devRef .tc main_v25) : S16384x256.Idx → EReal) := by
  have e : (V11 m ρ c main_v27 : S8192x512.Idx → EReal)
      = shapeCast _ (shapeCast _ (W10 m ρ c (Proc.devRef .tc main_v25) : S16384x256.Idx → EReal) shapeCasts_S16384x256_S256x64x256) shapeCasts_S256x64x256_S8192x512 := by
    show StableHlo.after hostOps5 (W10 m ρ c) (Proc.devRef .tc main_v27) = _
    dsimp only [hostOps5]
    after_results
    try rfl
  rw [e]
  exact (flat_shapeCast _ _).trans (flat_shapeCast _ _)

theorem bs_flat5 (c : Dev nD) :
    flat (V11 m ρ c main_v28 : S1x256.Idx → EReal) = flat (m ((c : Thread nD τ).loc main_arg5) : S256.Idx → EReal) := by
  have e : (V11 m ρ c main_v28 : S1x256.Idx → EReal)
      = shapeCast _ (W10 m ρ c (Proc.devRef .tc main_arg5) : S256.Idx → EReal) shapeCasts_S256_S1x256 := by
    show StableHlo.after hostOps5 (W10 m ρ c) (Proc.devRef .tc main_v28) = _
    dsimp only [hostOps5]
    after_results
    try rfl
  rw [e]
  refine (flat_shapeCast _ _).trans ?_
  exact congrArg (flat (s := S256)) ((W10_of_ne m ρ c main_arg5 (by decide)).trans (arg5_at4 m ρ c))

theorem in_flat6 (c : Dev nD) :
    flat (V13 m ρ c main_v31 : S4096x512.Idx → EReal) = flat (W12 m ρ c (Proc.devRef .tc main_v29) : S8192x256.Idx → EReal) := by
  have e : (V13 m ρ c main_v31 : S4096x512.Idx → EReal)
      = shapeCast _ (shapeCast _ (W12 m ρ c (Proc.devRef .tc main_v29) : S8192x256.Idx → EReal) shapeCasts_S8192x256_S256x32x256) shapeCasts_S256x32x256_S4096x512 := by
    show StableHlo.after hostOps6 (W12 m ρ c) (Proc.devRef .tc main_v31) = _
    dsimp only [hostOps6]
    after_results
    try rfl
  rw [e]
  exact (flat_shapeCast _ _).trans (flat_shapeCast _ _)

theorem bs_flat6 (c : Dev nD) :
    flat (V13 m ρ c main_v32 : S1x256.Idx → EReal) = flat (m ((c : Thread nD τ).loc main_arg5) : S256.Idx → EReal) := by
  have e : (V13 m ρ c main_v32 : S1x256.Idx → EReal)
      = shapeCast _ (W12 m ρ c (Proc.devRef .tc main_arg5) : S256.Idx → EReal) shapeCasts_S256_S1x256 := by
    show StableHlo.after hostOps6 (W12 m ρ c) (Proc.devRef .tc main_v32) = _
    dsimp only [hostOps6]
    after_results
    try rfl
  rw [e]
  refine (flat_shapeCast _ _).trans ?_
  exact congrArg (flat (s := S256)) ((W12_of_ne m ρ c main_arg5 (by decide)).trans (arg5_at5 m ρ c))

theorem in_flat7 (c : Dev nD) :
    flat (V15 m ρ c main_v35 : S2048x512.Idx → EReal) = flat (W14 m ρ c (Proc.devRef .tc main_v33) : S4096x256.Idx → EReal) := by
  have e : (V15 m ρ c main_v35 : S2048x512.Idx → EReal)
      = shapeCast _ (shapeCast _ (W14 m ρ c (Proc.devRef .tc main_v33) : S4096x256.Idx → EReal) shapeCasts_S4096x256_S256x16x256) shapeCasts_S256x16x256_S2048x512 := by
    show StableHlo.after hostOps7 (W14 m ρ c) (Proc.devRef .tc main_v35) = _
    dsimp only [hostOps7]
    after_results
    try rfl
  rw [e]
  exact (flat_shapeCast _ _).trans (flat_shapeCast _ _)

theorem bs_flat7 (c : Dev nD) :
    flat (V15 m ρ c main_v36 : S1x256.Idx → EReal) = flat (m ((c : Thread nD τ).loc main_arg5) : S256.Idx → EReal) := by
  have e : (V15 m ρ c main_v36 : S1x256.Idx → EReal)
      = shapeCast _ (W14 m ρ c (Proc.devRef .tc main_arg5) : S256.Idx → EReal) shapeCasts_S256_S1x256 := by
    show StableHlo.after hostOps7 (W14 m ρ c) (Proc.devRef .tc main_v36) = _
    dsimp only [hostOps7]
    after_results
    try rfl
  rw [e]
  refine (flat_shapeCast _ _).trans ?_
  exact congrArg (flat (s := S256)) ((W14_of_ne m ρ c main_arg5 (by decide)).trans (arg5_at6 m ρ c))

theorem in_flat8 (c : Dev nD) :
    flat (V17 m ρ c main_v39 : S1024x512.Idx → EReal) = flat (W16 m ρ c (Proc.devRef .tc main_v37) : S2048x256.Idx → EReal) := by
  have e : (V17 m ρ c main_v39 : S1024x512.Idx → EReal)
      = shapeCast _ (shapeCast _ (W16 m ρ c (Proc.devRef .tc main_v37) : S2048x256.Idx → EReal) shapeCasts_S2048x256_S256x8x256) shapeCasts_S256x8x256_S1024x512 := by
    show StableHlo.after hostOps8 (W16 m ρ c) (Proc.devRef .tc main_v39) = _
    dsimp only [hostOps8]
    after_results
    try rfl
  rw [e]
  exact (flat_shapeCast _ _).trans (flat_shapeCast _ _)

theorem bs_flat8 (c : Dev nD) :
    flat (V17 m ρ c main_v40 : S1x256.Idx → EReal) = flat (m ((c : Thread nD τ).loc main_arg5) : S256.Idx → EReal) := by
  have e : (V17 m ρ c main_v40 : S1x256.Idx → EReal)
      = shapeCast _ (W16 m ρ c (Proc.devRef .tc main_arg5) : S256.Idx → EReal) shapeCasts_S256_S1x256 := by
    show StableHlo.after hostOps8 (W16 m ρ c) (Proc.devRef .tc main_v40) = _
    dsimp only [hostOps8]
    after_results
    try rfl
  rw [e]
  refine (flat_shapeCast _ _).trans ?_
  exact congrArg (flat (s := S256)) ((W16_of_ne m ρ c main_arg5 (by decide)).trans (arg5_at7 m ρ c))

theorem in_flat9 (c : Dev nD) :
    flat (V19 m ρ c main_v43 : S512x512.Idx → EReal) = flat (W18 m ρ c (Proc.devRef .tc main_v41) : S1024x256.Idx → EReal) := by
  have e : (V19 m ρ c main_v43 : S512x512.Idx → EReal)
      = shapeCast _ (shapeCast _ (W18 m ρ c (Proc.devRef .tc main_v41) : S1024x256.Idx → EReal) shapeCasts_S1024x256_S256x4x256) shapeCasts_S256x4x256_S512x512 := by
    show StableHlo.after hostOps9 (W18 m ρ c) (Proc.devRef .tc main_v43) = _
    dsimp only [hostOps9]
    after_results
    try rfl
  rw [e]
  exact (flat_shapeCast _ _).trans (flat_shapeCast _ _)

theorem bs_flat9 (c : Dev nD) :
    flat (V19 m ρ c main_v44 : S1x256.Idx → EReal) = flat (m ((c : Thread nD τ).loc main_arg5) : S256.Idx → EReal) := by
  have e : (V19 m ρ c main_v44 : S1x256.Idx → EReal)
      = shapeCast _ (W18 m ρ c (Proc.devRef .tc main_arg5) : S256.Idx → EReal) shapeCasts_S256_S1x256 := by
    show StableHlo.after hostOps9 (W18 m ρ c) (Proc.devRef .tc main_v44) = _
    dsimp only [hostOps9]
    after_results
    try rfl
  rw [e]
  refine (flat_shapeCast _ _).trans ?_
  exact congrArg (flat (s := S256)) ((W18_of_ne m ρ c main_arg5 (by decide)).trans (arg5_at8 m ρ c))

theorem in_flat10 (c : Dev nD) :
    flat (V21 m ρ c main_v47 : S256x512.Idx → EReal) = flat (W20 m ρ c (Proc.devRef .tc main_v45) : S512x256.Idx → EReal) := by
  have e : (V21 m ρ c main_v47 : S256x512.Idx → EReal)
      = shapeCast _ (shapeCast _ (W20 m ρ c (Proc.devRef .tc main_v45) : S512x256.Idx → EReal) shapeCasts_S512x256_S256x2x256) shapeCasts_S256x2x256_S256x512 := by
    show StableHlo.after hostOps10 (W20 m ρ c) (Proc.devRef .tc main_v47) = _
    dsimp only [hostOps10]
    after_results
    try rfl
  rw [e]
  exact (flat_shapeCast _ _).trans (flat_shapeCast _ _)

theorem bs_flat10 (c : Dev nD) :
    flat (V21 m ρ c main_v48 : S1x256.Idx → EReal) = flat (m ((c : Thread nD τ).loc main_arg5) : S256.Idx → EReal) := by
  have e : (V21 m ρ c main_v48 : S1x256.Idx → EReal)
      = shapeCast _ (W20 m ρ c (Proc.devRef .tc main_arg5) : S256.Idx → EReal) shapeCasts_S256_S1x256 := by
    show StableHlo.after hostOps10 (W20 m ρ c) (Proc.devRef .tc main_v48) = _
    dsimp only [hostOps10]
    after_results
    try rfl
  rw [e]
  refine (flat_shapeCast _ _).trans ?_
  exact congrArg (flat (s := S256)) ((W20_of_ne m ρ c main_arg5 (by decide)).trans (arg5_at9 m ρ c))

/-! ## Stage by stage -/

/-- After the first launch: the leaves. -/
theorem stage0 (c : Dev nD) :
    flat (W2 m ρ c (Proc.devRef .tc main_v9) : S262144x256.Idx → EReal)
      = Cert.TreeSpec.leaves
          (flat (Cert.ReferenceIdeal.Read.val_main_v6 (F := Ideal) (m ((c : Thread nD τ).loc main_arg0)) (m ((c : Thread nD τ).loc main_arg1))))
          (flat (m ((c : Thread nD τ).loc main_arg2) : S300x256.Idx → EReal)) (flat (m ((c : Thread nD τ).loc main_arg3) : S256.Idx → EReal)) := by
  have e : (W2 m ρ c (Proc.devRef .tc main_v9) : S262144x256.Idx → EReal) = (dat0 (V1 m ρ) c).arrAt 3 cfg0.N := W2_arr m ρ c 3
  have ew : (V1 m ρ c main_arg2 : S300x256.Idx → EReal) = m ((c : Thread nD τ).loc main_arg2) := arg2_at0 m ρ c
  rw [e, Rows.final0_flat (V1 m ρ) c, in_flat0, bs_flat0, ew]
  rfl

/-- After launch 1: one level up from the result of launch 0. -/
theorem stage1 (c : Dev nD) :
    flat (W4 m ρ c (Proc.devRef .tc main_v13) : S131072x256.Idx → EReal)
      = Cert.TreeSpec.up 33554432 (flat (m ((c : Thread nD τ).loc main_arg4) : S512x256.Idx → EReal)) (flat (m ((c : Thread nD τ).loc main_arg5) : S256.Idx → EReal))
          (flat (W2 m ρ c (Proc.devRef .tc main_v9) : S262144x256.Idx → EReal)) := by
  have e : (W4 m ρ c (Proc.devRef .tc main_v13) : S131072x256.Idx → EReal) = (dat1 (V3 m ρ) c).arrAt 3 cfg1.N := W4_arr m ρ c 3
  have ew : (V3 m ρ c main_arg4 : S512x256.Idx → EReal) = m ((c : Thread nD τ).loc main_arg4) := arg4_at1 m ρ c
  rw [e, Rows.final1_flat (V3 m ρ) c, in_flat1, bs_flat1, ew]
  rfl

/-- After launch 2: one level up from the result of launch 1. -/
theorem stage2 (c : Dev nD) :
    flat (W6 m ρ c (Proc.devRef .tc main_v17) : S65536x256.Idx → EReal)
      = Cert.TreeSpec.up 16777216 (flat (m ((c : Thread nD τ).loc main_arg4) : S512x256.Idx → EReal)) (flat (m ((c : Thread nD τ).loc main_arg5) : S256.Idx → EReal))
          (flat (W4 m ρ c (Proc.devRef .tc main_v13) : S131072x256.Idx → EReal)) := by
  have e : (W6 m ρ c (Proc.devRef .tc main_v17) : S65536x256.Idx → EReal) = (dat2 (V5 m ρ) c).arrAt 3 cfg2.N := W6_arr m ρ c 3
  have ew : (V5 m ρ c main_arg4 : S512x256.Idx → EReal) = m ((c : Thread nD τ).loc main_arg4) := arg4_at2 m ρ c
  rw [e, Rows.final2_flat (V5 m ρ) c, in_flat2, bs_flat2, ew]
  rfl

/-- After launch 3: one level up from the result of launch 2. -/
theorem stage3 (c : Dev nD) :
    flat (W8 m ρ c (Proc.devRef .tc main_v21) : S32768x256.Idx → EReal)
      = Cert.TreeSpec.up 8388608 (flat (m ((c : Thread nD τ).loc main_arg4) : S512x256.Idx → EReal)) (flat (m ((c : Thread nD τ).loc main_arg5) : S256.Idx → EReal))
          (flat (W6 m ρ c (Proc.devRef .tc main_v17) : S65536x256.Idx → EReal)) := by
  have e : (W8 m ρ c (Proc.devRef .tc main_v21) : S32768x256.Idx → EReal) = (dat3 (V7 m ρ) c).arrAt 3 cfg3.N := W8_arr m ρ c 3
  have ew : (V7 m ρ c main_arg4 : S512x256.Idx → EReal) = m ((c : Thread nD τ).loc main_arg4) := arg4_at3 m ρ c
  rw [e, Rows.final3_flat (V7 m ρ) c, in_flat3, bs_flat3, ew]
  rfl

/-- After launch 4: one level up from the result of launch 3. -/
theorem stage4 (c : Dev nD) :
    flat (W10 m ρ c (Proc.devRef .tc main_v25) : S16384x256.Idx → EReal)
      = Cert.TreeSpec.up 4194304 (flat (m ((c : Thread nD τ).loc main_arg4) : S512x256.Idx → EReal)) (flat (m ((c : Thread nD τ).loc main_arg5) : S256.Idx → EReal))
          (flat (W8 m ρ c (Proc.devRef .tc main_v21) : S32768x256.Idx → EReal)) := by
  have e : (W10 m ρ c (Proc.devRef .tc main_v25) : S16384x256.Idx → EReal) = (dat4 (V9 m ρ) c).arrAt 3 cfg4.N := W10_arr m ρ c 3
  have ew : (V9 m ρ c main_arg4 : S512x256.Idx → EReal) = m ((c : Thread nD τ).loc main_arg4) := arg4_at4 m ρ c
  rw [e, Rows.final4_flat (V9 m ρ) c, in_flat4, bs_flat4, ew]
  rfl

/-- After launch 5: one level up from the result of launch 4. -/
theorem stage5 (c : Dev nD) :
    flat (W12 m ρ c (Proc.devRef .tc main_v29) : S8192x256.Idx → EReal)
      = Cert.TreeSpec.up 2097152 (flat (m ((c : Thread nD τ).loc main_arg4) : S512x256.Idx → EReal)) (flat (m ((c : Thread nD τ).loc main_arg5) : S256.Idx → EReal))
          (flat (W10 m ρ c (Proc.devRef .tc main_v25) : S16384x256.Idx → EReal)) := by
  have e : (W12 m ρ c (Proc.devRef .tc main_v29) : S8192x256.Idx → EReal) = (dat5 (V11 m ρ) c).arrAt 3 cfg5.N := W12_arr m ρ c 3
  have ew : (V11 m ρ c main_arg4 : S512x256.Idx → EReal) = m ((c : Thread nD τ).loc main_arg4) := arg4_at5 m ρ c
  rw [e, Rows.final5_flat (V11 m ρ) c, in_flat5, bs_flat5, ew]
  rfl

/-- After launch 6: one level up from the result of launch 5. -/
theorem stage6 (c : Dev nD) :
    flat (W14 m ρ c (Proc.devRef .tc main_v33) : S4096x256.Idx → EReal)
      = Cert.TreeSpec.up 1048576 (flat (m ((c : Thread nD τ).loc main_arg4) : S512x256.Idx → EReal)) (flat (m ((c : Thread nD τ).loc main_arg5) : S256.Idx → EReal))
          (flat (W12 m ρ c (Proc.devRef .tc main_v29) : S8192x256.Idx → EReal)) := by
  have e : (W14 m ρ c (Proc.devRef .tc main_v33) : S4096x256.Idx → EReal) = (dat6 (V13 m ρ) c).arrAt 3 cfg6.N := W14_arr m ρ c 3
  have ew : (V13 m ρ c main_arg4 : S512x256.Idx → EReal) = m ((c : Thread nD τ).loc main_arg4) := arg4_at6 m ρ c
  rw [e, Rows.final6_flat (V13 m ρ) c, in_flat6, bs_flat6, ew]
  rfl

/-- After launch 7: one level up from the result of launch 6. -/
theorem stage7 (c : Dev nD) :
    flat (W16 m ρ c (Proc.devRef .tc main_v37) : S2048x256.Idx → EReal)
      = Cert.TreeSpec.up 524288 (flat (m ((c : Thread nD τ).loc main_arg4) : S512x256.Idx → EReal)) (flat (m ((c : Thread nD τ).loc main_arg5) : S256.Idx → EReal))
          (flat (W14 m ρ c (Proc.devRef .tc main_v33) : S4096x256.Idx → EReal)) := by
  have e : (W16 m ρ c (Proc.devRef .tc main_v37) : S2048x256.Idx → EReal) = (dat7 (V15 m ρ) c).arrAt 3 cfg7.N := W16_arr m ρ c 3
  have ew : (V15 m ρ c main_arg4 : S512x256.Idx → EReal) = m ((c : Thread nD τ).loc main_arg4) := arg4_at7 m ρ c
  rw [e, Rows.final7_flat (V15 m ρ) c, in_flat7, bs_flat7, ew]
  rfl

/-- After launch 8: one level up from the result of launch 7. -/
theorem stage8 (c : Dev nD) :
    flat (W18 m ρ c (Proc.devRef .tc main_v41) : S1024x256.Idx → EReal)
      = Cert.TreeSpec.up 262144 (flat (m ((c : Thread nD τ).loc main_arg4) : S512x256.Idx → EReal)) (flat (m ((c : Thread nD τ).loc main_arg5) : S256.Idx → EReal))
          (flat (W16 m ρ c (Proc.devRef .tc main_v37) : S2048x256.Idx → EReal)) := by
  have e : (W18 m ρ c (Proc.devRef .tc main_v41) : S1024x256.Idx → EReal) = (dat8 (V17 m ρ) c).arrAt 3 cfg8.N := W18_arr m ρ c 3
  have ew : (V17 m ρ c main_arg4 : S512x256.Idx → EReal) = m ((c : Thread nD τ).loc main_arg4) := arg4_at8 m ρ c
  rw [e, Rows.final8_flat (V17 m ρ) c, in_flat8, bs_flat8, ew]
  rfl

/-- After launch 9: one level up from the result of launch 8. -/
theorem stage9 (c : Dev nD) :
    flat (W20 m ρ c (Proc.devRef .tc main_v45) : S512x256.Idx → EReal)
      = Cert.TreeSpec.up 131072 (flat (m ((c : Thread nD τ).loc main_arg4) : S512x256.Idx → EReal)) (flat (m ((c : Thread nD τ).loc main_arg5) : S256.Idx → EReal))
          (flat (W18 m ρ c (Proc.devRef .tc main_v41) : S1024x256.Idx → EReal)) := by
  have e : (W20 m ρ c (Proc.devRef .tc main_v45) : S512x256.Idx → EReal) = (dat9 (V19 m ρ) c).arrAt 3 cfg9.N := W20_arr m ρ c 3
  have ew : (V19 m ρ c main_arg4 : S512x256.Idx → EReal) = m ((c : Thread nD τ).loc main_arg4) := arg4_at9 m ρ c
  rw [e, Rows.final9_flat (V19 m ρ) c, in_flat9, bs_flat9, ew]
  rfl

/-- After launch 10: one level up from the result of launch 9. -/
theorem stage10 (c : Dev nD) :
    flat (W22 m ρ c (Proc.devRef .tc main_v49) : S256x256.Idx → EReal)
      = Cert.TreeSpec.up 65536 (flat (m ((c : Thread nD τ).loc main_arg4) : S512x256.Idx → EReal)) (flat (m ((c : Thread nD τ).loc main_arg5) : S256.Idx → EReal))
          (flat (W20 m ρ c (Proc.devRef .tc main_v45) : S512x256.Idx → EReal)) := by
  have e : (W22 m ρ c (Proc.devRef .tc main_v49) : S256x256.Idx → EReal) = (dat10 (V21 m ρ) c).arrAt 3 cfg10.N := W22_arr m ρ c 3
  have ew : (V21 m ρ c main_arg4 : S512x256.Idx → EReal) = m ((c : Thread nD τ).loc main_arg4) := arg4_at10 m ρ c
  rw [e, Rows.final10_flat (V21 m ρ) c, in_flat10, bs_flat10, ew]
  rfl

/-- The program's result, on lists: the roots of the tree over the looked-up word rows. -/
theorem result_flat (c : Dev nD) :
    flat (W23 m ρ c (Proc.devRef .tc main_v51) : S256x256.Idx → EReal)
      = Cert.TreeSpec.roots
          (flat (Cert.ReferenceIdeal.Read.val_main_v6 (F := Ideal) (m ((c : Thread nD τ).loc main_arg0)) (m ((c : Thread nD τ).loc main_arg1))))
          (flat (m ((c : Thread nD τ).loc main_arg2) : S300x256.Idx → EReal)) (flat (m ((c : Thread nD τ).loc main_arg3) : S256.Idx → EReal))
          (flat (m ((c : Thread nD τ).loc main_arg4) : S512x256.Idx → EReal)) (flat (m ((c : Thread nD τ).loc main_arg5) : S256.Idx → EReal)) := by
  have e : (W23 m ρ c (Proc.devRef .tc main_v51) : S256x256.Idx → EReal)
      = shapeCast _ (shapeCast _ (W22 m ρ c (Proc.devRef .tc main_v49) : S256x256.Idx → EReal) shapeCasts_S256x256_S256x1x256) shapeCasts_S256x1x256_S256x256 := by
    show StableHlo.after hostOps11 (W22 m ρ c) (Proc.devRef .tc main_v51) = _
    dsimp only [hostOps11]
    after_results
    try rfl
  rw [e]
  refine ((flat_shapeCast _ _).trans (flat_shapeCast _ _)).trans ?_
  rw [stage10, stage9, stage8, stage7, stage6, stage5, stage4, stage3, stage2, stage1, stage0]
  rfl

end Cert.KernelIdeal.Fold

end
-- ==== Proof.RefRows.lean ====
/-
  The reference, read on row-major lists.

  Every stage of the reference is a linear layer whose rows are grouped in a rank-3 array (tree, node, feature).
  Listed in row-major order the grouping disappears: the result of each stage is the linear layer on lists of the
  stage below, and the reshape between two stages (pairing sibling nodes) does not change the list. So the
  reference's result is the tree of the specification, over the looked-up word rows.
-/
import proofs.«125268_j50311246905374_2_alg».proof.Proof.Gen.ReferenceIdeal.Read
import proofs.«125268_j50311246905374_2_alg».proof.Proof.LibFlatRows
import proofs.«125268_j50311246905374_2_alg».proof.Proof.TreeSpec

noncomputable section
open scoped BigOperators
namespace Cert.ReferenceIdeal.RefRows
open Cert.ReferenceIdeal Cert.ReferenceIdeal.Gen Cert.ReferenceIdeal.Read Idealize.ShloMosaic Idealize.ShloMosaic.FlatRows

variable (x0 : (⟨S256x1024, .i32⟩ : BufTy).Contents (Elt Ideal)) (x1 : (⟨S50257x300, .f32⟩ : BufTy).Contents (Elt Ideal))
  (x2 : (⟨S300x256, .f32⟩ : BufTy).Contents (Elt Ideal)) (x3 : (⟨S256, .f32⟩ : BufTy).Contents (Elt Ideal))
  (x4 : (⟨S512x256, .f32⟩ : BufTy).Contents (Elt Ideal)) (x5 : (⟨S256, .f32⟩ : BufTy).Contents (Elt Ideal))

/-- The leaves: every looked-up word row times the first matrix, plus the first bias. -/
theorem leaves : flat (val_main_v10 (F := Ideal) x0 x1 x2 x3)
    = linRows 67108864 300 256 (flat (val_main_v6 (F := Ideal) x0 x1)) (flat x2) (flat x3) := by
  rw [← linRows_len (show S256x1024x256.numel = 67108864 from by decide)]
  exact flat_linRows (K := 300) (N := 256) (val_main_v10 (F := Ideal) x0 x1 x2 x3) (val_main_v6 (F := Ideal) x0 x1) x2 x3
    (fun i k => lidx_main_v7 i k) (fun i k => ridx_main_v7 i k) (fun i => idx_main_v8 (idx_main_v9 i))
    (fun i => by
      rw [val_main_v10_apply, val_main_v7_apply, val_main_v9_apply, val_main_v8_apply]
      rfl)
    (fun i k => by
      rw [Shape.rowMajor_val_three, Shape.rowMajor_val_three]
      show ((i 0).val * 1024 + (i 1).val) * 300 + k.val = (((i 0).val * 1024 + (i 1).val) * 256 + (i 2).val) / 256 * 300 + k.val
      have h2 : (i 2).val < 256 := (i 2).isLt
      omega)
    (fun i k => by
      rw [Shape.rowMajor_val_two, Shape.rowMajor_val_three]
      show k.val * 256 + (i 2).val = k.val * 256 + (((i 0).val * 1024 + (i 1).val) * 256 + (i 2).val) % 256
      have h2 : (i 2).val < 256 := (i 2).isLt
      omega)
    (fun i => by
      rw [Shape.rowMajor_val_one, Shape.rowMajor_val_three]
      show (i 2).val = (((i 0).val * 1024 + (i 1).val) * 256 + (i 2).val) % 256
      have h2 : (i 2).val < 256 := (i 2).isLt
      omega)

/-- Level 1 of the tree: sibling pairs of the level below, side by side, times the second matrix, plus the second bias. -/
theorem level1 : flat (val_main_v15 (F := Ideal) x0 x1 x2 x3 x4 x5)
    = linRows 33554432 512 256 (flat (val_main_v10 (F := Ideal) x0 x1 x2 x3)) (flat x4) (flat x5) := by
  have h := flat_linRows (K := 512) (N := 256) (val_main_v15 (F := Ideal) x0 x1 x2 x3 x4 x5) (val_main_v11 (F := Ideal) x0 x1 x2 x3) x4 x5
    (fun i k => lidx_main_v12 i k) (fun i k => ridx_main_v12 i k) (fun i => idx_main_v13 (idx_main_v14 i))
    (fun i => by
      rw [val_main_v15_apply, val_main_v12_apply, val_main_v14_apply, val_main_v13_apply]
      rfl)
    (fun i k => by
      rw [Shape.rowMajor_val_three, Shape.rowMajor_val_three]
      show ((i 0).val * 512 + (i 1).val) * 512 + k.val = (((i 0).val * 512 + (i 1).val) * 256 + (i 2).val) / 256 * 512 + k.val
      have h2 : (i 2).val < 256 := (i 2).isLt
      omega)
    (fun i k => by
      rw [Shape.rowMajor_val_two, Shape.rowMajor_val_three]
      show k.val * 256 + (i 2).val = k.val * 256 + (((i 0).val * 512 + (i 1).val) * 256 + (i 2).val) % 256
      have h2 : (i 2).val < 256 := (i 2).isLt
      omega)
    (fun i => by
      rw [Shape.rowMajor_val_one, Shape.rowMajor_val_three]
      show (i 2).val = (((i 0).val * 512 + (i 1).val) * 256 + (i 2).val) % 256
      have h2 : (i 2).val < 256 := (i 2).isLt
      omega)
  rw [h, linRows_len (show S256x512x256.numel = 33554432 from by decide)]
  unfold val_main_v11
  rw [flat_shapeCast]

/-- Level 2 of the tree: sibling pairs of the level below, side by side, times the second matrix, plus the second bias. -/
theorem level2 : flat (val_main_v20 (F := Ideal) x0 x1 x2 x3 x4 x5)
    = linRows 16777216 512 256 (flat (val_main_v15 (F := Ideal) x0 x1 x2 x3 x4 x5)) (flat x4) (flat x5) := by
  have h := flat_linRows (K := 512) (N := 256) (val_main_v20 (F := Ideal) x0 x1 x2 x3 x4 x5) (val_main_v16 (F := Ideal) x0 x1 x2 x3 x4 x5) x4 x5
    (fun i k => lidx_main_v17 i k) (fun i k => ridx_main_v17 i k) (fun i => idx_main_v18 (idx_main_v19 i))
    (fun i => by
      rw [val_main_v20_apply, val_main_v17_apply, val_main_v19_apply, val_main_v18_apply]
      rfl)
    (fun i k => by
      rw [Shape.rowMajor_val_three, Shape.rowMajor_val_three]
      show ((i 0).val * 256 + (i 1).val) * 512 + k.val = (((i 0).val * 256 + (i 1).val) * 256 + (i 2).val) / 256 * 512 + k.val
      have h2 : (i 2).val < 256 := (i 2).isLt
      omega)
    (fun i k => by
      rw [Shape.rowMajor_val_two, Shape.rowMajor_val_three]
      show k.val * 256 + (i 2).val = k.val * 256 + (((i 0).val * 256 + (i 1).val) * 256 + (i 2).val) % 256
      have h2 : (i 2).val < 256 := (i 2).isLt
      omega)
    (fun i => by
      rw [Shape.rowMajor_val_one, Shape.rowMajor_val_three]
      show (i 2).val = (((i 0).val * 256 + (i 1).val) * 256 + (i 2).val) % 256
      have h2 : (i 2).val < 256 := (i 2).isLt
      omega)
  rw [h, linRows_len (show S256x256x256.numel = 16777216 from by decide)]
  unfold val_main_v16
  rw [flat_shapeCast]

/-- Level 3 of the tree: sibling pairs of the level below, side by side, times the second matrix, plus the second bias. -/
theorem level3 : flat (val_main_v25 (F := Ideal) x0 x1 x2 x3 x4 x5)
    = linRows 8388608 512 256 (flat (val_main_v20 (F := Ideal) x0 x1 x2 x3 x4 x5)) (flat x4) (flat x5) := by
  have h := flat_linRows (K := 512) (N := 256) (val_main_v25 (F := Ideal) x0 x1 x2 x3 x4 x5) (val_main_v21 (F := Ideal) x0 x1 x2 x3 x4 x5) x4 x5
    (fun i k => lidx_main_v22 i k) (fun i k => ridx_main_v22 i k) (fun i => idx_main_v23 (idx_main_v24 i))
    (fun i => by
      rw [val_main_v25_apply, val_main_v22_apply, val_main_v24_apply, val_main_v23_apply]
      rfl)
    (fun i k => by
      rw [Shape.rowMajor_val_three, Shape.rowMajor_val_three]
      show ((i 0).val * 128 + (i 1).val) * 512 + k.val = (((i 0).val * 128 + (i 1).val) * 256 + (i 2).val) / 256 * 512 + k.val
      have h2 : (i 2).val < 256 := (i 2).isLt
      omega)
    (fun i k => by
      rw [Shape.rowMajor_val_two, Shape.rowMajor_val_three]
      show k.val * 256 + (i 2).val = k.val * 256 + (((i 0).val * 128 + (i 1).val) * 256 + (i 2).val) % 256
      have h2 : (i 2).val < 256 := (i 2).isLt
      omega)
    (fun i => by
      rw [Shape.rowMajor_val_one, Shape.rowMajor_val_three]
      show (i 2).val = (((i 0).val * 128 + (i 1).val) * 256 + (i 2).val) % 256
      have h2 : (i 2).val < 256 := (i 2).isLt
      omega)
  rw [h, linRows_len (show S256x128x256.numel = 8388608 from by decide)]
  unfold val_main_v21
  rw [flat_shapeCast]

/-- Level 4 of the tree: sibling pairs of the level below, side by side, times the second matrix, plus the second bias. -/
theorem level4 : flat (val_main_v30 (F := Ideal) x0 x1 x2 x3 x4 x5)
    = linRows 4194304 512 256 (flat (val_main_v25 (F := Ideal) x0 x1 x2 x3 x4 x5)) (flat x4) (flat x5) := by
  have h := flat_linRows (K := 512) (N := 256) (val_main_v30 (F := Ideal) x0 x1 x2 x3 x4 x5) (val_main_v26 (F := Ideal) x0 x1 x2 x3 x4 x5) x4 x5
    (fun i k => lidx_main_v27 i k) (fun i k => ridx_main_v27 i k) (fun i => idx_main_v28 (idx_main_v29 i))
    (fun i => by
      rw [val_main_v30_apply, val_main_v27_apply, val_main_v29_apply, val_main_v28_apply]
      rfl)
    (fun i k => by
      rw [Shape.rowMajor_val_three, Shape.rowMajor_val_three]
      show ((i 0).val * 64 + (i 1).val) * 512 + k.val = (((i 0).val * 64 + (i 1).val) * 256 + (i 2).val) / 256 * 512 + k.val
      have h2 : (i 2).val < 256 := (i 2).isLt
      omega)
    (fun i k => by
      rw [Shape.rowMajor_val_two, Shape.rowMajor_val_three]
      show k.val * 256 + (i 2).val = k.val * 256 + (((i 0).val * 64 + (i 1).val) * 256 + (i 2).val) % 256
      have h2 : (i 2).val < 256 := (i 2).isLt
      omega)
    (fun i => by
      rw [Shape.rowMajor_val_one, Shape.rowMajor_val_three]
      show (i 2).val = (((i 0).val * 64 + (i 1).val) * 256 + (i 2).val) % 256
      have h2 : (i 2).val < 256 := (i 2).isLt
      omega)
  rw [h, linRows_len (show S256x64x256.numel = 4194304 from by decide)]
  unfold val_main_v26
  rw [flat_shapeCast]

/-- Level 5 of the tree: sibling pairs of the level below, side by side, times the second matrix, plus the second bias. -/
theorem level5 : flat (val_main_v35 (F := Ideal) x0 x1 x2 x3 x4 x5)
    = linRows 2097152 512 256 (flat (val_main_v30 (F := Ideal) x0 x1 x2 x3 x4 x5)) (flat x4) (flat x5) := by
  have h := flat_linRows (K := 512) (N := 256) (val_main_v35 (F := Ideal) x0 x1 x2 x3 x4 x5) (val_main_v31 (F := Ideal) x0 x1 x2 x3 x4 x5) x4 x5
    (fun i k => lidx_main_v32 i k) (fun i k => ridx_main_v32 i k) (fun i => idx_main_v33 (idx_main_v34 i))
    (fun i => by
      rw [val_main_v35_apply, val_main_v32_apply, val_main_v34_apply, val_main_v33_apply]
      rfl)
    (fun i k => by
      rw [Shape.rowMajor_val_three, Shape.rowMajor_val_three]
      show ((i 0).val * 32 + (i 1).val) * 512 + k.val = (((i 0).val * 32 + (i 1).val) * 256 + (i 2).val) / 256 * 512 + k.val
      have h2 : (i 2).val < 256 := (i 2).isLt
      omega)
    (fun i k => by
      rw [Shape.rowMajor_val_two, Shape.rowMajor_val_three]
      show k.val * 256 + (i 2).val = k.val * 256 + (((i 0).val * 32 + (i 1).val) * 256 + (i 2).val) % 256
      have h2 : (i 2).val < 256 := (i 2).isLt
      omega)
    (fun i => by
      rw [Shape.rowMajor_val_one, Shape.rowMajor_val_three]
      show (i 2).val = (((i 0).val * 32 + (i 1).val) * 256 + (i 2).val) % 256
      have h2 : (i 2).val < 256 := (i 2).isLt
      omega)
  rw [h, linRows_len (show S256x32x256.numel = 2097152 from by decide)]
  unfold val_main_v31
  rw [flat_shapeCast]

/-- Level 6 of the tree: sibling pairs of the level below, side by side, times the second matrix, plus the second bias. -/
theorem level6 : flat (val_main_v40 (F := Ideal) x0 x1 x2 x3 x4 x5)
    = linRows 1048576 512 256 (flat (val_main_v35 (F := Ideal) x0 x1 x2 x3 x4 x5)) (flat x4) (flat x5) := by
  have h := flat_linRows (K := 512) (N := 256) (val_main_v40 (F := Ideal) x0 x1 x2 x3 x4 x5) (val_main_v36 (F := Ideal) x0 x1 x2 x3 x4 x5) x4 x5
    (fun i k => lidx_main_v37 i k) (fun i k => ridx_main_v37 i k) (fun i => idx_main_v38 (idx_main_v39 i))
    (fun i => by
      rw [val_main_v40_apply, val_main_v37_apply, val_main_v39_apply, val_main_v38_apply]
      rfl)
    (fun i k => by
      rw [Shape.rowMajor_val_three, Shape.rowMajor_val_three]
      show ((i 0).val * 16 + (i 1).val) * 512 + k.val = (((i 0).val * 16 + (i 1).val) * 256 + (i 2).val) / 256 * 512 + k.val
      have h2 : (i 2).val < 256 := (i 2).isLt
      omega)
    (fun i k => by
      rw [Shape.rowMajor_val_two, Shape.rowMajor_val_three]
      show k.val * 256 + (i 2).val = k.val * 256 + (((i 0).val * 16 + (i 1).val) * 256 + (i 2).val) % 256
      have h2 : (i 2).val < 256 := (i 2).isLt
      omega)
    (fun i => by
      rw [Shape.rowMajor_val_one, Shape.rowMajor_val_three]
      show (i 2).val = (((i 0).val * 16 + (i 1).val) * 256 + (i 2).val) % 256
      have h2 : (i 2).val < 256 := (i 2).isLt
      omega)
  rw [h, linRows_len (show S256x16x256.numel = 1048576 from by decide)]
  unfold val_main_v36
  rw [flat_shapeCast]

/-- Level 7 of the tree: sibling pairs of the level below, side by side, times the second matrix, plus the second bias. -/
theorem level7 : flat (val_main_v45 (F := Ideal) x0 x1 x2 x3 x4 x5)
    = linRows 524288 512 256 (flat (val_main_v40 (F := Ideal) x0 x1 x2 x3 x4 x5)) (flat x4) (flat x5) := by
  have h := flat_linRows (K := 512) (N := 256) (val_main_v45 (F := Ideal) x0 x1 x2 x3 x4 x5) (val_main_v41 (F := Ideal) x0 x1 x2 x3 x4 x5) x4 x5
    (fun i k => lidx_main_v42 i k) (fun i k => ridx_main_v42 i k) (fun i => idx_main_v43 (idx_main_v44 i))
    (fun i => by
      rw [val_main_v45_apply, val_main_v42_apply, val_main_v44_apply, val_main_v43_apply]
      rfl)
    (fun i k => by
      rw [Shape.rowMajor_val_three, Shape.rowMajor_val_three]
      show ((i 0).val * 8 + (i 1).val) * 512 + k.val = (((i 0).val * 8 + (i 1).val) * 256 + (i 2).val) / 256 * 512 + k.val
      have h2 : (i 2).val < 256 := (i 2).isLt
      omega)
    (fun i k => by
      rw [Shape.rowMajor_val_two, Shape.rowMajor_val_three]
      show k.val * 256 + (i 2).val = k.val * 256 + (((i 0).val * 8 + (i 1).val) * 256 + (i 2).val) % 256
      have h2 : (i 2).val < 256 := (i 2).isLt
      omega)
    (fun i => by
      rw [Shape.rowMajor_val_one, Shape.rowMajor_val_three]
      show (i 2).val = (((i 0).val * 8 + (i 1).val) * 256 + (i 2).val) % 256
      have h2 : (i 2).val < 256 := (i 2).isLt
      omega)
  rw [h, linRows_len (show S256x8x256.numel = 524288 from by decide)]
  unfold val_main_v41
  rw [flat_shapeCast]

/-- Level 8 of the tree: sibling pairs of the level below, side by side, times the second matrix, plus the second bias. -/
theorem level8 : flat (val_main_v50 (F := Ideal) x0 x1 x2 x3 x4 x5)
    = linRows 262144 512 256 (flat (val_main_v45 (F := Ideal) x0 x1 x2 x3 x4 x5)) (flat x4) (flat x5) := by
  have h := flat_linRows (K := 512) (N := 256) (val_main_v50 (F := Ideal) x0 x1 x2 x3 x4 x5) (val_main_v46 (F := Ideal) x0 x1 x2 x3 x4 x5) x4 x5
    (fun i k => lidx_main_v47 i k) (fun i k => ridx_main_v47 i k) (fun i => idx_main_v48 (idx_main_v49 i))
    (fun i => by
      rw [val_main_v50_apply, val_main_v47_apply, val_main_v49_apply, val_main_v48_apply]
      rfl)
    (fun i k => by
      rw [Shape.rowMajor_val_three, Shape.rowMajor_val_three]
      show ((i 0).val * 4 + (i 1).val) * 512 + k.val = (((i 0).val * 4 + (i 1).val) * 256 + (i 2).val) / 256 * 512 + k.val
      have h2 : (i 2).val < 256 := (i 2).isLt
      omega)
    (fun i k => by
      rw [Shape.rowMajor_val_two, Shape.rowMajor_val_three]
      show k.val * 256 + (i 2).val = k.val * 256 + (((i 0).val * 4 + (i 1).val) * 256 + (i 2).val) % 256
      have h2 : (i 2).val < 256 := (i 2).isLt
      omega)
    (fun i => by
      rw [Shape.rowMajor_val_one, Shape.rowMajor_val_three]
      show (i 2).val = (((i 0).val * 4 + (i 1).val) * 256 + (i 2).val) % 256
      have h2 : (i 2).val < 256 := (i 2).isLt
      omega)
  rw [h, linRows_len (show S256x4x256.numel = 262144 from by decide)]
  unfold val_main_v46
  rw [flat_shapeCast]

/-- Level 9 of the tree: sibling pairs of the level below, side by side, times the second matrix, plus the second bias. -/
theorem level9 : flat (val_main_v55 (F := Ideal) x0 x1 x2 x3 x4 x5)
    = linRows 131072 512 256 (flat (val_main_v50 (F := Ideal) x0 x1 x2 x3 x4 x5)) (flat x4) (flat x5) := by
  have h := flat_linRows (K := 512) (N := 256) (val_main_v55 (F := Ideal) x0 x1 x2 x3 x4 x5) (val_main_v51 (F := Ideal) x0 x1 x2 x3 x4 x5) x4 x5
    (fun i k => lidx_main_v52 i k) (fun i k => ridx_main_v52 i k) (fun i => idx_main_v53 (idx_main_v54 i))
    (fun i => by
      rw [val_main_v55_apply, val_main_v52_apply, val_main_v54_apply, val_main_v53_apply]
      rfl)
    (fun i k => by
      rw [Shape.rowMajor_val_three, Shape.rowMajor_val_three]
      show ((i 0).val * 2 + (i 1).val) * 512 + k.val = (((i 0).val * 2 + (i 1).val) * 256 + (i 2).val) / 256 * 512 + k.val
      have h2 : (i 2).val < 256 := (i 2).isLt
      omega)
    (fun i k => by
      rw [Shape.rowMajor_val_two, Shape.rowMajor_val_three]
      show k.val * 256 + (i 2).val = k.val * 256 + (((i 0).val * 2 + (i 1).val) * 256 + (i 2).val) % 256
      have h2 : (i 2).val < 256 := (i 2).isLt
      omega)
    (fun i => by
      rw [Shape.rowMajor_val_one, Shape.rowMajor_val_three]
      show (i 2).val = (((i 0).val * 2 + (i 1).val) * 256 + (i 2).val) % 256
      have h2 : (i 2).val < 256 := (i 2).isLt
      omega)
  rw [h, linRows_len (show S256x2x256.numel = 131072 from by decide)]
  unfold val_main_v51
  rw [flat_shapeCast]

/-- Level 10 of the tree: sibling pairs of the level below, side by side, times the second matrix, plus the second bias. -/
theorem level10 : flat (val_main_v60 (F := Ideal) x0 x1 x2 x3 x4 x5)
    = linRows 65536 512 256 (flat (val_main_v55 (F := Ideal) x0 x1 x2 x3 x4 x5)) (flat x4) (flat x5) := by
  have h := flat_linRows (K := 512) (N := 256) (val_main_v60 (F := Ideal) x0 x1 x2 x3 x4 x5) (val_main_v56 (F := Ideal) x0 x1 x2 x3 x4 x5) x4 x5
    (fun i k => lidx_main_v57 i k) (fun i k => ridx_main_v57 i k) (fun i => idx_main_v58 (idx_main_v59 i))
    (fun i => by
      rw [val_main_v60_apply, val_main_v57_apply, val_main_v59_apply, val_main_v58_apply]
      rfl)
    (fun i k => by
      rw [Shape.rowMajor_val_three, Shape.rowMajor_val_three]
      show ((i 0).val * 1 + (i 1).val) * 512 + k.val = (((i 0).val * 1 + (i 1).val) * 256 + (i 2).val) / 256 * 512 + k.val
      have h2 : (i 2).val < 256 := (i 2).isLt
      omega)
    (fun i k => by
      rw [Shape.rowMajor_val_two, Shape.rowMajor_val_three]
      show k.val * 256 + (i 2).val = k.val * 256 + (((i 0).val * 1 + (i 1).val) * 256 + (i 2).val) % 256
      have h2 : (i 2).val < 256 := (i 2).isLt
      omega)
    (fun i => by
      rw [Shape.rowMajor_val_one, Shape.rowMajor_val_three]
      show (i 2).val = (((i 0).val * 1 + (i 1).val) * 256 + (i 2).val) % 256
      have h2 : (i 2).val < 256 := (i 2).isLt
      omega)
  rw [h, linRows_len (show S256x1x256.numel = 65536 from by decide)]
  unfold val_main_v56
  rw [flat_shapeCast]

/-- The reference's result, on lists: the roots of the tree over the looked-up word rows. -/
theorem result_flat : flat (val_main_v61 (F := Ideal) x0 x1 x2 x3 x4 x5)
    = Cert.TreeSpec.roots (flat (val_main_v6 (F := Ideal) x0 x1)) (flat x2) (flat x3) (flat x4) (flat x5) := by
  unfold val_main_v61
  rw [flat_shapeCast, level10, level9, level8, level7, level6, level5, level4, level3, level2, level1, leaves]
  rfl

end Cert.ReferenceIdeal.RefRows
end
-- ==== Proof.lean ====
/- A batch of complete binary trees of linear layers: the kernel against its reference, over the extended reals.

   Both programs look up 256 · 1024 word rows (length 300) in a table, the same host operations on both sides. The
   leaves of the trees are these rows times a 300 × 256 matrix plus a bias; every level up multiplies each pair of
   sibling rows, side by side (length 512), by a 512 × 256 matrix and adds a second bias, halving the number of nodes,
   until one row per tree is left. The reference keeps the nodes in rank-3 arrays (tree, node, feature) and does each
   level as one batched product. The kernel keeps them in rank-2 arrays (row, feature), reshaping between levels, and
   does each level as a grid of launches of blocks of rows, factors rounded to a shorter float format first.

   Over the extended reals the rounding is the identity and a block of rows times a matrix is those rows of the whole
   product. Read in row-major order, the kernel's and the reference's arrays are the same lists at every level — pairing
   siblings is a reshape, which leaves the list alone — and each level is the same function of the list below
   (TreeSpec). An array is determined by its list, so the two results are equal; no finiteness of the inputs is used.

   The two kernel frames are the generated ones; the reference's frame is its generated run with the result dropped;
   the kernel's reading over the extended reals is its own text, operation for operation, so there is nothing to
   preserve. -/
import proofs.«125268_j50311246905374_2_alg».proof.Defs
import proofs.«125268_j50311246905374_2_alg».proof.Proof.Gen.Kernel
import proofs.«125268_j50311246905374_2_alg».proof.Proof.Gen.Kernel.Skeleton
import proofs.«125268_j50311246905374_2_alg».proof.Proof.Gen.Kernel.Launch
import proofs.«125268_j50311246905374_2_alg».proof.Proof.Gen.Kernel.Points
import proofs.«125268_j50311246905374_2_alg».proof.Proof.Gen.Kernel.Frame
import proofs.«125268_j50311246905374_2_alg».proof.Proof.Gen.KernelIdeal
import proofs.«125268_j50311246905374_2_alg».proof.Proof.Gen.KernelIdeal.Skeleton
import proofs.«125268_j50311246905374_2_alg».proof.Proof.Gen.KernelIdeal.Launch
import proofs.«125268_j50311246905374_2_alg».proof.Proof.Gen.KernelIdeal.Points
import proofs.«125268_j50311246905374_2_alg».proof.Proof.Gen.KernelIdeal.Frame
import proofs.«125268_j50311246905374_2_alg».proof.Proof.Gen.ReferenceIdeal
import proofs.«125268_j50311246905374_2_alg».proof.Proof.Gen.ReferenceIdeal.Run
import proofs.«125268_j50311246905374_2_alg».proof.Proof.Gen.ReferenceIdeal.Read
import proofs.«125268_j50311246905374_2_alg».proof.Proof.Gen.Pre_finite_inputs
import proofs.«125268_j50311246905374_2_alg».proof.Proof.KernelRun
import proofs.«125268_j50311246905374_2_alg».proof.Proof.Fold
import proofs.«125268_j50311246905374_2_alg».proof.Proof.RefRows
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the roots of the same tree: the kernel's result
    array and the reference's have the same row-major list, so they are the same array. -/
theorem algebraic : Cert.algebraic_KernelIdeal_ReferenceIdeal := by
  intro m ρ m' ρ' _ hagree
  refine ⟨fun c => Cert.KernelIdeal.Gen.W23 m ρ c (Proc.devRef .tc Cert.KernelIdeal.main_v51),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v61_eq, h0, h1, h2, h3, h4, h5]
  exact FlatRows.flat_injective
    ((Cert.ReferenceIdeal.RefRows.result_flat _ _ _ _ _ _).trans (Cert.KernelIdeal.Fold.result_flat m ρ c).symm)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
